-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x4096x64 : Shape := ⟨4, ![4, 12, 4096, 64]⟩
abbrev S4x1x1x4096 : Shape := ⟨4, ![4, 1, 1, 4096]⟩
abbrev S_ : Shape := ⟨0, ![]⟩

class Facts : Prop where
  bcast_S_S4x12x4096x64 : S_.BroadcastsInDim S4x12x4096x64 (![] : Fin 0 → Fin S4x12x4096x64.rank)
  reducesTo_S4x12x4096x64_S_d0_1_2_3 : S4x12x4096x64.ReducesTo [0, 1, 2, 3] S_
  h_S_ : 0 < S_.numel
  bcast_S_S4x1x1x4096 : S_.BroadcastsInDim S4x1x1x4096 (![] : Fin 0 → Fin S4x1x1x4096.rank)
  reducesTo_S4x1x1x4096_S_d0_1_2_3 : S4x1x1x4096.ReducesTo [0, 1, 2, 3] S_

variable [Facts]

def fn_part1 {F : FTy → Type} [FloatOps F] (main_v13 : IVec S_ 1) (main_v16 : IVec S4x1x1x4096 1) : IVec S_ 1 :=
  let main_c_5 : IVec S_ 1 := constantI S_ 1 1#1
  let main_v17 : IVec S_ 1 := (fun x v => Host.reduce IntOp.andi x v reducesTo_S4x1x1x4096_S_d0_1_2_3 h_S_) main_v16 main_c_5
  let main_v18 : IVec S_ 1 := andi main_v13 main_v17
  main_v18

def fn {F : FTy → Type} [FloatOps F] (main_arg0 : FVec F S4x12x4096x64 .f32) (main_arg1 : FVec F S4x12x4096x64 .f32) (main_arg2 : FVec F S4x12x4096x64 .f32) (main_arg3 : FVec F S4x1x1x4096 .f32) : IVec S_ 1 :=
  let main_v0 : FVec F S4x12x4096x64 .f32 := Host.absf main_arg0
  let main_cst : FVec F S_ .f32 := constant S_ .f32 0x7F800000#32
  let main_v1 : FVec F S4x12x4096x64 .f32 := broadcastInDim S4x12x4096x64 ![] bcast_S_S4x12x4096x64 main_cst
  let main_v2 : IVec S4x12x4096x64 1 := cmpf .olt main_v0 main_v1
  let main_c : IVec S_ 1 := constantI S_ 1 1#1
  let main_v3 : IVec S_ 1 := (fun x v => Host.reduce IntOp.andi x v reducesTo_S4x12x4096x64_S_d0_1_2_3 h_S_) main_v2 main_c
  let main_v4 : FVec F S4x12x4096x64 .f32 := Host.absf main_arg1
  let main_cst_0 : FVec F S_ .f32 := constant S_ .f32 0x7F800000#32
  let main_v5 : FVec F S4x12x4096x64 .f32 := broadcastInDim S4x12x4096x64 ![] bcast_S_S4x12x4096x64 main_cst_0
  let main_v6 : IVec S4x12x4096x64 1 := cmpf .olt main_v4 main_v5
  let main_c_1 : IVec S_ 1 := constantI S_ 1 1#1
  let main_v7 : IVec S_ 1 := (fun x v => Host.reduce IntOp.andi x v reducesTo_S4x12x4096x64_S_d0_1_2_3 h_S_) main_v6 main_c_1
  let main_v8 : IVec S_ 1 := andi main_v3 main_v7
  let main_v9 : FVec F S4x12x4096x64 .f32 := Host.absf main_arg2
  let main_cst_2 : FVec F S_ .f32 := constant S_ .f32 0x7F800000#32
  let main_v10 : FVec F S4x12x4096x64 .f32 := broadcastInDim S4x12x4096x64 ![] bcast_S_S4x12x4096x64 main_cst_2
  let main_v11 : IVec S4x12x4096x64 1 := cmpf .olt main_v9 main_v10
  let main_c_3 : IVec S_ 1 := constantI S_ 1 1#1
  let main_v12 : IVec S_ 1 := (fun x v => Host.reduce IntOp.andi x v reducesTo_S4x12x4096x64_S_d0_1_2_3 h_S_) main_v11 main_c_3
  let main_v13 : IVec S_ 1 := andi main_v8 main_v12
  let main_v14 : FVec F S4x1x1x4096 .f32 := Host.absf main_arg3
  let main_cst_4 : FVec F S_ .f32 := constant S_ .f32 0x7F800000#32
  let main_v15 : FVec F S4x1x1x4096 .f32 := broadcastInDim S4x1x1x4096 ![] bcast_S_S4x1x1x4096 main_cst_4
  let main_v16 : IVec S4x1x1x4096 1 := cmpf .olt main_v14 main_v15
  fn_part1 (F := F) main_v13 main_v16
-- ==== Kernel.lean ====
abbrev S4x12x4096x64 : Shape := ⟨4, ![4, 12, 4096, 64]⟩
abbrev S4x1x1x4096 : Shape := ⟨4, ![4, 1, 1, 4096]⟩
abbrev S48x4096x64 : Shape := ⟨3, ![48, 4096, 64]⟩
abbrev S4x12x1x4096 : Shape := ⟨4, ![4, 12, 1, 4096]⟩
abbrev S48x1x4096 : Shape := ⟨3, ![48, 1, 4096]⟩
abbrev S8x256x64 : Shape := ⟨3, ![8, 256, 64]⟩
abbrev S8x1x256 : Shape := ⟨3, ![8, 1, 256]⟩
abbrev S8x256x256 : Shape := ⟨3, ![8, 256, 256]⟩
abbrev S8x256 : Shape := ⟨2, ![8, 256]⟩
abbrev S8x256x1 : Shape := ⟨3, ![8, 256, 1]⟩
abbrev S4x12x128x64 : Shape := ⟨4, ![4, 12, 128, 64]⟩
abbrev S4x12x3840x64 : Shape := ⟨4, ![4, 12, 3840, 64]⟩
abbrev S_ : Shape := ⟨0, ![]⟩
abbrev S48x3840x64 : Shape := ⟨3, ![48, 3840, 64]⟩
abbrev S4x1x1x3840 : Shape := ⟨4, ![4, 1, 1, 3840]⟩
abbrev S4x12x1x3840 : Shape := ⟨4, ![4, 12, 1, 3840]⟩
abbrev S48x1x3840 : Shape := ⟨3, ![48, 1, 3840]⟩

abbrev nBuf : Space → Nat
  | .hbm => 33
  | .vmem => 20
  | .smem => 0
  | _ => 0

abbrev bufTy : (tb : Table) → Fin (tcTables nBuf tb) → BufTy
  | .hbm, ⟨0, _⟩ => ⟨S4x12x4096x64, .f32⟩
  | .hbm, ⟨1, _⟩ => ⟨S4x12x4096x64, .f32⟩
  | .hbm, ⟨2, _⟩ => ⟨S4x12x4096x64, .f32⟩
  | .hbm, ⟨3, _⟩ => ⟨S4x1x1x4096, .f32⟩
  | .hbm, ⟨4, _⟩ => ⟨S48x4096x64, .f32⟩
  | .hbm, ⟨5, _⟩ => ⟨S48x4096x64, .f32⟩
  | .hbm, ⟨6, _⟩ => ⟨S48x4096x64, .f32⟩
  | .hbm, ⟨7, _⟩ => ⟨S4x12x1x4096, .f32⟩
  | .hbm, ⟨8, _⟩ => ⟨S48x1x4096, .f32⟩
  | .hbm, ⟨9, _⟩ => ⟨S48x4096x64, .f32⟩
  | .hbm, ⟨10, _⟩ => ⟨S4x12x4096x64, .f32⟩
  | .hbm, ⟨11, _⟩ => ⟨S4x12x128x64, .f32⟩
  | .hbm, ⟨12, _⟩ => ⟨S4x12x128x64, .f32⟩
  | .hbm, ⟨13, _⟩ => ⟨S4x12x3840x64, .f32⟩
  | .hbm, ⟨14, _⟩ => ⟨S_, .f32⟩
  | .hbm, ⟨15, _⟩ => ⟨S4x12x3840x64, .f32⟩
  | .hbm, ⟨16, _⟩ => ⟨S4x12x3840x64, .f32⟩
  | .hbm, ⟨17, _⟩ => ⟨S4x12x3840x64, .f32⟩
  | .hbm, ⟨18, _⟩ => ⟨S48x3840x64, .f32⟩
  | .hbm, ⟨19, _⟩ => ⟨S4x12x3840x64, .f32⟩
  | .hbm, ⟨20, _⟩ => ⟨S48x3840x64, .f32⟩
  | .hbm, ⟨21, _⟩ => ⟨S4x12x3840x64, .f32⟩
  | .hbm, ⟨22, _⟩ => ⟨S48x3840x64, .f32⟩
  | .hbm, ⟨23, _⟩ => ⟨S4x1x1x3840, .f32⟩
  | .hbm, ⟨24, _⟩ => ⟨S4x12x1x3840, .f32⟩
  | .hbm, ⟨25, _⟩ => ⟨S48x1x3840, .f32⟩
  | .hbm, ⟨26, _⟩ => ⟨S48x3840x64, .f32⟩
  | .hbm, ⟨27, _⟩ => ⟨S4x12x3840x64, .f32⟩
  | .hbm, ⟨28, _⟩ => ⟨S_, .f32⟩
  | .hbm, ⟨29, _⟩ => ⟨S4x12x3840x64, .f32⟩
  | .hbm, ⟨30, _⟩ => ⟨S4x12x3840x64, .f32⟩
  | .hbm, ⟨31, _⟩ => ⟨S4x12x3840x64, .f32⟩
  | .hbm, ⟨32, _⟩ => ⟨S4x12x4096x64, .f32⟩
  | .local _ .vmem, ⟨0, _⟩ => ⟨S8x256x64, .f32⟩
  | .local _ .vmem, ⟨1, _⟩ => ⟨S8x256x64, .f32⟩
  | .local _ .vmem, ⟨2, _⟩ => ⟨S8x256x64, .f32⟩
  | .local _ .vmem, ⟨3, _⟩ => ⟨S8x256x64, .f32⟩
  | .local _ .vmem, ⟨4, _⟩ => ⟨S8x256x64, .f32⟩
  | .local _ .vmem, ⟨5, _⟩ => ⟨S8x256x64, .f32⟩
  | .local _ .vmem, ⟨6, _⟩ => ⟨S8x1x256, .f32⟩
  | .local _ .vmem, ⟨7, _⟩ => ⟨S8x1x256, .f32⟩
  | .local _ .vmem, ⟨8, _⟩ => ⟨S8x256x64, .f32⟩
  | .local _ .vmem, ⟨9, _⟩ => ⟨S8x256x64, .f32⟩
  | .local _ .vmem, ⟨10, _⟩ => ⟨S8x256x64, .f32⟩
  | .local _ .vmem, ⟨11, _⟩ => ⟨S8x256x64, .f32⟩
  | .local _ .vmem, ⟨12, _⟩ => ⟨S8x256x64, .f32⟩
  | .local _ .vmem, ⟨13, _⟩ => ⟨S8x256x64, .f32⟩
  | .local _ .vmem, ⟨14, _⟩ => ⟨S8x256x64, .f32⟩
  | .local _ .vmem, ⟨15, _⟩ => ⟨S8x256x64, .f32⟩
  | .local _ .vmem, ⟨16, _⟩ => ⟨S8x1x256, .f32⟩
  | .local _ .vmem, ⟨17, _⟩ => ⟨S8x1x256, .f32⟩
  | .local _ .vmem, ⟨18, _⟩ => ⟨S8x256x64, .f32⟩
  | .local _ .vmem, ⟨19, _⟩ => ⟨S8x256x64, .f32⟩
  | _, _ => ⟨S4x12x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![6, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![6, 15], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S8x256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S4x12x4096x64_S48x4096x64 : S4x12x4096x64.ShapeCasts S48x4096x64
  bcast_S4x1x1x4096_S4x12x1x4096_0_1_2_3 : S4x1x1x4096.BroadcastsInDim S4x12x1x4096 (![0, 1, 2, 3] : Fin 4 → Fin S4x12x1x4096.rank)
  shapeCasts_S4x12x1x4096_S48x1x4096 : S4x12x1x4096.ShapeCasts S48x1x4096
  inb_S8x256x64_S8x256x64_0_0_0 : ∀ a, (![0, 0, 0] : Fin 3 → Nat) a + S8x256x64.size a ≤ S8x256x64.size a
  h_S8x256x64 : 0 < S8x256x64.numel
  shapeCasts_S8x256x64_S8x256x64 : S8x256x64.ShapeCasts S8x256x64
  bitsLt_bf16_f32 : FTy.bits .bf16 < FTy.bits .f32
  inb_S8x1x256_S8x1x256_0_0_0 : ∀ a, (![0, 0, 0] : Fin 3 → Nat) a + S8x1x256.size a ≤ S8x1x256.size a
  h_S8x1x256 : 0 < S8x1x256.numel
  shapeCasts_S8x1x256_S8x1x256 : S8x1x256.ShapeCasts S8x1x256
  broadcasts_S8x1x256_S8x256x256 : S8x1x256.Broadcasts S8x256x256
  reduces_S8x256x256_S8x256 : S8x256x256.Reduces [2] S8x256
  shapeCasts_S8x256_S8x256x1 : S8x256.ShapeCasts S8x256x1
  broadcasts_S8x256x1_S8x256x256 : S8x256x1.Broadcasts S8x256x256
  shapeCasts_S48x4096x64_S4x12x4096x64 : S48x4096x64.ShapeCasts S4x12x4096x64
  slices_S4x12x4096x64_S4x12x128x64_0_0_0_0 : S4x12x4096x64.Slices ![0, 0, 0, 0] S4x12x128x64
  slices_S4x12x4096x64_S4x12x128x64_0_0_3968_0 : S4x12x4096x64.Slices ![0, 0, 3968, 0] S4x12x128x64
  slices_S4x12x4096x64_S4x12x3840x64_0_0_128_0 : S4x12x4096x64.Slices ![0, 0, 128, 0] S4x12x3840x64
  bcast_S_S4x12x3840x64 : S_.BroadcastsInDim S4x12x3840x64 (![] : Fin 0 → Fin S4x12x3840x64.rank)
  shapeCasts_S4x12x3840x64_S48x3840x64 : S4x12x3840x64.ShapeCasts S48x3840x64
  slices_S4x1x1x4096_S4x1x1x3840_0_0_0_128 : S4x1x1x4096.Slices ![0, 0, 0, 128] S4x1x1x3840
  bcast_S4x1x1x3840_S4x12x1x3840_0_1_2_3 : S4x1x1x3840.BroadcastsInDim S4x12x1x3840 (![0, 1, 2, 3] : Fin 4 → Fin S4x12x1x3840.rank)
  shapeCasts_S4x12x1x3840_S48x1x3840 : S4x12x1x3840.ShapeCasts S48x1x3840
  shapeCasts_S48x3840x64_S4x12x3840x64 : S48x3840x64.ShapeCasts S4x12x3840x64
  concatenates_S4x12x128x64_S4x12x3840x64_S4x12x128x64_S4x12x4096x64_d2 : Shape.Concatenates [S4x12x128x64, S4x12x3840x64, S4x12x128x64] S4x12x4096x64 2
  dot_S8x256x64_S8x256x64_S8x256x256_2_2_1_1_0_0_wf : DotDims.WF S8x256x64 S8x256x64 S8x256x256 [2] [2] [1] [1] [0] [0]
  dot_S8x256x256_S8x256x64_S8x256x64_2_1_1_2_0_0_wf : DotDims.WF S8x256x256 S8x256x64 S8x256x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x64.size a ≤ S48x4096x64.size a
  hwx0_0 : ∀ i : grid0.Coords, EltTy.bits .f32 = 32 ∨ (Rect.block (s := S48x4096x64) S8x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x64.size a ≤ S48x4096x64.size a
  hwx0_1 : ∀ i : grid0.Coords, EltTy.bits .f32 = 32 ∨ (Rect.block (s := S48x4096x64) S8x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x64.size a ≤ S48x4096x64.size a
  hwx0_2 : ∀ i : grid0.Coords, EltTy.bits .f32 = 32 ∨ (Rect.block (s := S48x4096x64) S8x256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1x256.size a ≤ S48x1x4096.size a
  hwx0_3 : ∀ i : grid0.Coords, EltTy.bits .f32 = 32 ∨ (Rect.block (s := S48x1x4096) S8x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256x64.size a ≤ S48x4096x64.size a
  hwx0_4 : ∀ i : grid0.Coords, EltTy.bits .f32 = 32 ∨ (Rect.block (s := S48x4096x64) S8x256x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x64.size a ≤ S48x3840x64.size a
  hwx1_0 : ∀ i : grid1.Coords, EltTy.bits .f32 = 32 ∨ (Rect.block (s := S48x3840x64) S8x256x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x64.size a ≤ S48x3840x64.size a
  hwx1_1 : ∀ i : grid1.Coords, EltTy.bits .f32 = 32 ∨ (Rect.block (s := S48x3840x64) S8x256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256x64.size a ≤ S48x3840x64.size a
  hwx1_2 : ∀ i : grid1.Coords, EltTy.bits .f32 = 32 ∨ (Rect.block (s := S48x3840x64) S8x256x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x1x256.size a ≤ S48x1x3840.size a
  hwx1_3 : ∀ i : grid1.Coords, EltTy.bits .f32 = 32 ∨ (Rect.block (s := S48x1x3840) S8x1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x256x64.size a ≤ S48x3840x64.size a
  hwx1_4 : ∀ i : grid1.Coords, EltTy.bits .f32 = 32 ∨ (Rect.block (s := S48x3840x64) S8x256x64.size (cc1_transform_4 i) (hinb1_4 i)).WholeWords (EltTy.packing .f32)

variable [Facts₀]

def dot_S8x256x64_S8x256x64_S8x256x256_2_2_1_1_0_0 : DotDims S8x256x64 S8x256x64 S8x256x256 where
  lhsContracting := [2]
  rhsContracting := [2]
  lhsNonContracting := [1]
  rhsNonContracting := [1]
  lhsBatch := [0]
  rhsBatch := [0]
  wf := dot_S8x256x64_S8x256x64_S8x256x256_2_2_1_1_0_0_wf
def dot_S8x256x256_S8x256x64_S8x256x64_2_1_1_2_0_0 : DotDims S8x256x256 S8x256x64 S8x256x64 where
  lhsContracting := [2]
  rhsContracting := [1]
  lhsNonContracting := [1]
  rhsNonContracting := [2]
  lhsBatch := [0]
  rhsBatch := [0]
  wf := dot_S8x256x256_S8x256x64_S8x256x64_2_1_1_2_0_0_wf

abbrev win0_0 : Pipeline.Window sig grid0 :=
  Pipeline.Window.ofSpec (Memref.whole main_v0) S8x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S8x256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v13) S8x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S8x256x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S8x256x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S8x1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S8x256x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x12x4096x64 : Shape := ⟨4, ![4, 12, 4096, 64]⟩
abbrev S4x1x1x4096 : Shape := ⟨4, ![4, 1, 1, 4096]⟩
abbrev S4x12x16x256x64 : Shape := ⟨5, ![4, 12, 16, 256, 64]⟩
abbrev S4x1x16x1x256 : Shape := ⟨5, ![4, 1, 16, 1, 256]⟩
abbrev S4x12x16x256x256 : Shape := ⟨5, ![4, 12, 16, 256, 256]⟩
abbrev S_ : Shape := ⟨0, ![]⟩
abbrev S4x12x16x256 : Shape := ⟨4, ![4, 12, 16, 256]⟩
abbrev S4x12x16x256x1 : Shape := ⟨5, ![4, 12, 16, 256, 1]⟩
abbrev S4x12x128x64 : Shape := ⟨4, ![4, 12, 128, 64]⟩
abbrev S4x12x3840x64 : Shape := ⟨4, ![4, 12, 3840, 64]⟩
abbrev S4x1x1x3840 : Shape := ⟨4, ![4, 1, 1, 3840]⟩
abbrev S4x12x15x256x64 : Shape := ⟨5, ![4, 12, 15, 256, 64]⟩
abbrev S4x1x15x1x256 : Shape := ⟨5, ![4, 1, 15, 1, 256]⟩
abbrev S4x12x15x256x256 : Shape := ⟨5, ![4, 12, 15, 256, 256]⟩
abbrev S4x12x15x256 : Shape := ⟨4, ![4, 12, 15, 256]⟩
abbrev S4x12x15x256x1 : Shape := ⟨5, ![4, 12, 15, 256, 1]⟩

abbrev nBuf : Space → Nat
  | .hbm => 71
  | .vmem => 0
  | .smem => 0
  | _ => 0

abbrev bufTy : (tb : Table) → Fin (tcTables nBuf tb) → BufTy
  | .hbm, ⟨0, _⟩ => ⟨S4x12x4096x64, .f32⟩
  | .hbm, ⟨1, _⟩ => ⟨S4x12x4096x64, .f32⟩
  | .hbm, ⟨2, _⟩ => ⟨S4x12x4096x64, .f32⟩
  | .hbm, ⟨3, _⟩ => ⟨S4x1x1x4096, .f32⟩
  | .hbm, ⟨4, _⟩ => ⟨S4x12x16x256x64, .f32⟩
  | .hbm, ⟨5, _⟩ => ⟨S4x12x16x256x64, .f32⟩
  | .hbm, ⟨6, _⟩ => ⟨S4x12x16x256x64, .f32⟩
  | .hbm, ⟨7, _⟩ => ⟨S4x1x16x1x256, .f32⟩
  | .hbm, ⟨8, _⟩ => ⟨S4x12x16x256x256, .f32⟩
  | .hbm, ⟨9, _⟩ => ⟨S_, .f32⟩
  | .hbm, ⟨10, _⟩ => ⟨S4x12x16x256x256, .f32⟩
  | .hbm, ⟨11, _⟩ => ⟨S4x12x16x256x256, .f32⟩
  | .hbm, ⟨12, _⟩ => ⟨S4x12x16x256x256, .f32⟩
  | .hbm, ⟨13, _⟩ => ⟨S4x12x16x256x256, .f32⟩
  | .hbm, ⟨14, _⟩ => ⟨S_, .f32⟩
  | .hbm, ⟨15, _⟩ => ⟨S4x12x16x256, .f32⟩
  | .hbm, ⟨16, _⟩ => ⟨S_, .f32⟩
  | .hbm, ⟨17, _⟩ => ⟨S4x12x16x256, .f32⟩
  | .hbm, ⟨18, _⟩ => ⟨S4x12x16x256, .f32⟩
  | .hbm, ⟨19, _⟩ => ⟨S4x12x16x256x1, .f32⟩
  | .hbm, ⟨20, _⟩ => ⟨S4x12x16x256x256, .f32⟩
  | .hbm, ⟨21, _⟩ => ⟨S4x12x16x256x256, .f32⟩
  | .hbm, ⟨22, _⟩ => ⟨S4x12x16x256x256, .f32⟩
  | .hbm, ⟨23, _⟩ => ⟨S_, .f32⟩
  | .hbm, ⟨24, _⟩ => ⟨S4x12x16x256, .f32⟩
  | .hbm, ⟨25, _⟩ => ⟨S4x12x16x256x1, .f32⟩
  | .hbm, ⟨26, _⟩ => ⟨S4x12x16x256x256, .f32⟩
  | .hbm, ⟨27, _⟩ => ⟨S4x12x16x256x256, .f32⟩
  | .hbm, ⟨28, _⟩ => ⟨S4x12x16x256x64, .f32⟩
  | .hbm, ⟨29, _⟩ => ⟨S4x12x4096x64, .f32⟩
  | .hbm, ⟨30, _⟩ => ⟨S4x12x128x64, .f32⟩
  | .hbm, ⟨31, _⟩ => ⟨S4x12x128x64, .f32⟩
  | .hbm, ⟨32, _⟩ => ⟨S4x12x3840x64, .f32⟩
  | .hbm, ⟨33, _⟩ => ⟨S_, .f32⟩
  | .hbm, ⟨34, _⟩ => ⟨S4x12x3840x64, .f32⟩
  | .hbm, ⟨35, _⟩ => ⟨S4x12x3840x64, .f32⟩
  | .hbm, ⟨36, _⟩ => ⟨S4x12x3840x64, .f32⟩
  | .hbm, ⟨37, _⟩ => ⟨S4x12x3840x64, .f32⟩
  | .hbm, ⟨38, _⟩ => ⟨S4x12x3840x64, .f32⟩
  | .hbm, ⟨39, _⟩ => ⟨S4x1x1x3840, .f32⟩
  | .hbm, ⟨40, _⟩ => ⟨S4x12x15x256x64, .f32⟩
  | .hbm, ⟨41, _⟩ => ⟨S4x12x15x256x64, .f32⟩
  | .hbm, ⟨42, _⟩ => ⟨S4x12x15x256x64, .f32⟩
  | .hbm, ⟨43, _⟩ => ⟨S4x1x15x1x256, .f32⟩
  | .hbm, ⟨44, _⟩ => ⟨S4x12x15x256x256, .f32⟩
  | .hbm, ⟨45, _⟩ => ⟨S_, .f32⟩
  | .hbm, ⟨46, _⟩ => ⟨S4x12x15x256x256, .f32⟩
  | .hbm, ⟨47, _⟩ => ⟨S4x12x15x256x256, .f32⟩
  | .hbm, ⟨48, _⟩ => ⟨S4x12x15x256x256, .f32⟩
  | .hbm, ⟨49, _⟩ => ⟨S4x12x15x256x256, .f32⟩
  | .hbm, ⟨50, _⟩ => ⟨S_, .f32⟩
  | .hbm, ⟨51, _⟩ => ⟨S4x12x15x256, .f32⟩
  | .hbm, ⟨52, _⟩ => ⟨S_, .f32⟩
  | .hbm, ⟨53, _⟩ => ⟨S4x12x15x256, .f32⟩
  | .hbm, ⟨54, _⟩ => ⟨S4x12x15x256, .f32⟩
  | .hbm, ⟨55, _⟩ => ⟨S4x12x15x256x1, .f32⟩
  | .hbm, ⟨56, _⟩ => ⟨S4x12x15x256x256, .f32⟩
  | .hbm, ⟨57, _⟩ => ⟨S4x12x15x256x256, .f32⟩
  | .hbm, ⟨58, _⟩ => ⟨S4x12x15x256x256, .f32⟩
  | .hbm, ⟨59, _⟩ => ⟨S_, .f32⟩
  | .hbm, ⟨60, _⟩ => ⟨S4x12x15x256, .f32⟩
  | .hbm, ⟨61, _⟩ => ⟨S4x12x15x256x1, .f32⟩
  | .hbm, ⟨62, _⟩ => ⟨S4x12x15x256x256, .f32⟩
  | .hbm, ⟨63, _⟩ => ⟨S4x12x15x256x256, .f32⟩
  | .hbm, ⟨64, _⟩ => ⟨S4x12x15x256x64, .f32⟩
  | .hbm, ⟨65, _⟩ => ⟨S4x12x3840x64, .f32⟩
  | .hbm, ⟨66, _⟩ => ⟨S_, .f32⟩
  | .hbm, ⟨67, _⟩ => ⟨S4x12x3840x64, .f32⟩
  | .hbm, ⟨68, _⟩ => ⟨S4x12x3840x64, .f32⟩
  | .hbm, ⟨69, _⟩ => ⟨S4x12x3840x64, .f32⟩
  | .hbm, ⟨70, _⟩ => ⟨S4x12x4096x64, .f32⟩
  | _, _ => ⟨S4x12x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩

abbrev nD : Nat := 1
abbrev τ : Topo := Topo.v7x

variable {F : FTy → Type} [FloatOps F]

class Facts₀ : Prop where
  shapeCasts_S4x12x4096x64_S4x12x16x256x64 : S4x12x4096x64.ShapeCasts S4x12x16x256x64
  shapeCasts_S4x1x1x4096_S4x1x16x1x256 : S4x1x1x4096.ShapeCasts S4x1x16x1x256
  bcast_S_S4x12x16x256x256 : S_.BroadcastsInDim S4x12x16x256x256 (![] : Fin 0 → Fin S4x12x16x256x256.rank)
  bcast_S4x1x16x1x256_S4x12x16x256x256_0_1_2_3_4 : S4x1x16x1x256.BroadcastsInDim S4x12x16x256x256 (![0, 1, 2, 3, 4] : Fin 5 → Fin S4x12x16x256x256.rank)
  reducesTo_S4x12x16x256x256_S4x12x16x256_d4 : S4x12x16x256x256.ReducesTo [4] S4x12x16x256
  h_S_ : 0 < S_.numel
  bcast_S_S4x12x16x256 : S_.BroadcastsInDim S4x12x16x256 (![] : Fin 0 → Fin S4x12x16x256.rank)
  bcast_S4x12x16x256_S4x12x16x256x1_0_1_2_3 : S4x12x16x256.BroadcastsInDim S4x12x16x256x1 (![0, 1, 2, 3] : Fin 4 → Fin S4x12x16x256x1.rank)
  bcast_S4x12x16x256x1_S4x12x16x256x256_0_1_2_3_4 : S4x12x16x256x1.BroadcastsInDim S4x12x16x256x256 (![0, 1, 2, 3, 4] : Fin 5 → Fin S4x12x16x256x256.rank)
  shapeCasts_S4x12x16x256x64_S4x12x4096x64 : S4x12x16x256x64.ShapeCasts S4x12x4096x64
  slices_S4x12x4096x64_S4x12x128x64_0_0_0_0 : S4x12x4096x64.Slices ![0, 0, 0, 0] S4x12x128x64
  slices_S4x12x4096x64_S4x12x128x64_0_0_3968_0 : S4x12x4096x64.Slices ![0, 0, 3968, 0] S4x12x128x64
  slices_S4x12x4096x64_S4x12x3840x64_0_0_128_0 : S4x12x4096x64.Slices ![0, 0, 128, 0] S4x12x3840x64
  bcast_S_S4x12x3840x64 : S_.BroadcastsInDim S4x12x3840x64 (![] : Fin 0 → Fin S4x12x3840x64.rank)
  slices_S4x1x1x4096_S4x1x1x3840_0_0_0_128 : S4x1x1x4096.Slices ![0, 0, 0, 128] S4x1x1x3840
  shapeCasts_S4x12x3840x64_S4x12x15x256x64 : S4x12x3840x64.ShapeCasts S4x12x15x256x64
  shapeCasts_S4x1x1x3840_S4x1x15x1x256 : S4x1x1x3840.ShapeCasts S4x1x15x1x256
  bcast_S_S4x12x15x256x256 : S_.BroadcastsInDim S4x12x15x256x256 (![] : Fin 0 → Fin S4x12x15x256x256.rank)
  bcast_S4x1x15x1x256_S4x12x15x256x256_0_1_2_3_4 : S4x1x15x1x256.BroadcastsInDim S4x12x15x256x256 (![0, 1, 2, 3, 4] : Fin 5 → Fin S4x12x15x256x256.rank)
  reducesTo_S4x12x15x256x256_S4x12x15x256_d4 : S4x12x15x256x256.ReducesTo [4] S4x12x15x256
  bcast_S_S4x12x15x256 : S_.BroadcastsInDim S4x12x15x256 (![] : Fin 0 → Fin S4x12x15x256.rank)
  bcast_S4x12x15x256_S4x12x15x256x1_0_1_2_3 : S4x12x15x256.BroadcastsInDim S4x12x15x256x1 (![0, 1, 2, 3] : Fin 4 → Fin S4x12x15x256x1.rank)
  bcast_S4x12x15x256x1_S4x12x15x256x256_0_1_2_3_4 : S4x12x15x256x1.BroadcastsInDim S4x12x15x256x256 (![0, 1, 2, 3, 4] : Fin 5 → Fin S4x12x15x256x256.rank)
  shapeCasts_S4x12x15x256x64_S4x12x3840x64 : S4x12x15x256x64.ShapeCasts S4x12x3840x64
  concatenates_S4x12x128x64_S4x12x3840x64_S4x12x128x64_S4x12x4096x64_d2 : Shape.Concatenates [S4x12x128x64, S4x12x3840x64, S4x12x128x64] S4x12x4096x64 2
  dot_S4x12x16x256x64_S4x12x16x256x64_S4x12x16x256x256_4_4_3_3_012_012_wf : DotDims.WF S4x12x16x256x64 S4x12x16x256x64 S4x12x16x256x256 [4] [4] [3] [3] [0, 1, 2] [0, 1, 2]
  dot_S4x12x16x256x256_S4x12x16x256x64_S4x12x16x256x64_4_3_3_4_012_012_wf : DotDims.WF S4x12x16x256x256 S4x12x16x256x64 S4x12x16x256x64 [4] [3] [3] [4] [0, 1, 2] [0, 1, 2]
  dot_S4x12x15x256x64_S4x12x15x256x64_S4x12x15x256x256_4_4_3_3_012_012_wf : DotDims.WF S4x12x15x256x64 S4x12x15x256x64 S4x12x15x256x256 [4] [4] [3] [3] [0, 1, 2] [0, 1, 2]
  dot_S4x12x15x256x256_S4x12x15x256x64_S4x12x15x256x64_4_3_3_4_012_012_wf : DotDims.WF S4x12x15x256x256 S4x12x15x256x64 S4x12x15x256x64 [4] [3] [3] [4] [0, 1, 2] [0, 1, 2]

variable [Facts₀]

def dot_S4x12x16x256x64_S4x12x16x256x64_S4x12x16x256x256_4_4_3_3_012_012 : DotDims S4x12x16x256x64 S4x12x16x256x64 S4x12x16x256x256 where
  lhsContracting := [4]
  rhsContracting := [4]
  lhsNonContracting := [3]
  rhsNonContracting := [3]
  lhsBatch := [0, 1, 2]
  rhsBatch := [0, 1, 2]
  wf := dot_S4x12x16x256x64_S4x12x16x256x64_S4x12x16x256x256_4_4_3_3_012_012_wf
def dot_S4x12x16x256x256_S4x12x16x256x64_S4x12x16x256x64_4_3_3_4_012_012 : DotDims S4x12x16x256x256 S4x12x16x256x64 S4x12x16x256x64 where
  lhsContracting := [4]
  rhsContracting := [3]
  lhsNonContracting := [3]
  rhsNonContracting := [4]
  lhsBatch := [0, 1, 2]
  rhsBatch := [0, 1, 2]
  wf := dot_S4x12x16x256x256_S4x12x16x256x64_S4x12x16x256x64_4_3_3_4_012_012_wf
def dot_S4x12x15x256x64_S4x12x15x256x64_S4x12x15x256x256_4_4_3_3_012_012 : DotDims S4x12x15x256x64 S4x12x15x256x64 S4x12x15x256x256 where
  lhsContracting := [4]
  rhsContracting := [4]
  lhsNonContracting := [3]
  rhsNonContracting := [3]
  lhsBatch := [0, 1, 2]
  rhsBatch := [0, 1, 2]
  wf := dot_S4x12x15x256x64_S4x12x15x256x64_S4x12x15x256x256_4_4_3_3_012_012_wf
def dot_S4x12x15x256x256_S4x12x15x256x64_S4x12x15x256x64_4_3_3_4_012_012 : DotDims S4x12x15x256x256 S4x12x15x256x64 S4x12x15x256x64 where
  lhsContracting := [4]
  rhsContracting := [3]
  lhsNonContracting := [3]
  rhsNonContracting := [4]
  lhsBatch := [0, 1, 2]
  rhsBatch := [0, 1, 2]
  wf := dot_S4x12x15x256x256_S4x12x15x256x64_S4x12x15x256x64_4_3_3_4_012_012_wf

class Facts : Prop extends Facts₀ where

variable [Facts]
-- ==== Proof.Kernel.Body.lean ====
/-
  The program's two pallas_calls, each at a parameter `V` for what its arrays hold when it is entered.

  Each is a grid of independent attentions: at grid point (g, n) the body loads the [8, 256, 64] blocks of the
  queries, keys and values of rows 8g … 8g+7 at positions 256n … 256n+255 and the [8, 1, 256] block of the additive
  mask, and stores one [8, 256, 64] block: for each row and query position the softmax, over the 256 key positions,
  of (q · k) / 8 + mask, applied to the values. Nothing is carried from one grid point to the next, so a point's
  output block is a function of its four input blocks alone (`outA`, `outB`), and that is all the pipeline's
  bookkeeping needs: the body's triple, the proof data saying what each staging buffer holds after the body, and the
  obligation the pipeline asks of the body at every point.
-/
import proofs.«143526_j20564303413308_1_alg».proof.Proof.Gen.Kernel.Launch
import proofs.«143526_j20564303413308_1_alg».proof.Proof.Gen.Kernel.Skeleton
import proofs.«143526_j20564303413308_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the attention of one group of eight (batch, head) rows on one chunk of 256 positions -/

/-- Window `w`'s block at grid point `t`, cut out of its array as the region finds it. -/
def blkA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of input window 0 holds that window's block at every grid point, whether or not the point
    fetches it: an unfetched point has the same block index as the one before it. -/
theorem heldA_0_of {c : Dev nD} (dat : Dat τ (Elt F) Unit ℕ (UR sig nD τ) ℕ cfg0 c) (hA : dat.A 0 = V c (Pipeline.arrRef spec0 0))
    (hafter : ∀ t, dat.after 0 t = blkA V c 0 t) (t : Fin cfg0.N) (d) : dat.before 0 t d = blkA V c 0 t :=
  (dat.before_in_eq_fetched 0 rfl (fun _ => rfl) (fun _ _ _ => rfl) (fun t => by rw [hafter]; unfold Dat.blockOf blkA; rw [hA]; try rfl) t d).trans
    (by unfold Dat.fetched Dat.blockOf blkA; rw [hA]; try rfl)

/-- The staging buffer of input window 1 holds that window's block at every grid point, whether or not the point
    fetches it: an unfetched point has the same block index as the one before it. -/
theorem heldA_1_of {c : Dev nD} (dat : Dat τ (Elt F) Unit ℕ (UR sig nD τ) ℕ cfg0 c) (hA : dat.A 1 = V c (Pipeline.arrRef spec0 1))
    (hafter : ∀ t, dat.after 1 t = blkA V c 1 t) (t : Fin cfg0.N) (d) : dat.before 1 t d = blkA V c 1 t :=
  (dat.before_in_eq_fetched 1 rfl (fun _ => rfl) (fun _ _ _ => rfl) (fun t => by rw [hafter]; unfold Dat.blockOf blkA; rw [hA]; try rfl) t d).trans
    (by unfold Dat.fetched Dat.blockOf blkA; rw [hA]; try rfl)

/-- The staging buffer of input window 2 holds that window's block at every grid point, whether or not the point
    fetches it: an unfetched point has the same block index as the one before it. -/
theorem heldA_2_of {c : Dev nD} (dat : Dat τ (Elt F) Unit ℕ (UR sig nD τ) ℕ cfg0 c) (hA : dat.A 2 = V c (Pipeline.arrRef spec0 2))
    (hafter : ∀ t, dat.after 2 t = blkA V c 2 t) (t : Fin cfg0.N) (d) : dat.before 2 t d = blkA V c 2 t :=
  (dat.before_in_eq_fetched 2 rfl (fun _ => rfl) (fun _ _ _ => rfl) (fun t => by rw [hafter]; unfold Dat.blockOf blkA; rw [hA]; try rfl) t d).trans
    (by unfold Dat.fetched Dat.blockOf blkA; rw [hA]; try rfl)

/-- The staging buffer of input window 3 holds that window's block at every grid point, whether or not the point
    fetches it: an unfetched point has the same block index as the one before it. -/
theorem heldA_3_of {c : Dev nD} (dat : Dat τ (Elt F) Unit ℕ (UR sig nD τ) ℕ cfg0 c) (hA : dat.A 3 = V c (Pipeline.arrRef spec0 3))
    (hafter : ∀ t, dat.after 3 t = blkA V c 3 t) (t : Fin cfg0.N) (d) : dat.before 3 t d = blkA V c 3 t :=
  (dat.before_in_eq_fetched 3 rfl (fun _ => rfl) (fun _ _ _ => rfl) (fun t => by rw [hafter]; unfold Dat.blockOf blkA; rw [hA]; try rfl) t d).trans
    (by unfold Dat.fetched Dat.blockOf blkA; rw [hA]; try rfl)

/-- The whole [8, 256, 64] staging block, and the whole [8, 1, 256] mask block: the rectangles the body loads and stores. -/
abbrev wholeA : Rect S8x256x64 := Rect.unit (s := S8x256x64) ![0, 0, 0] S8x256x64.size inb_S8x256x64_S8x256x64_0_0_0
abbrev wholeMaskA : Rect S8x1x256 := Rect.unit (s := S8x1x256) ![0, 0, 0] S8x1x256.size inb_S8x1x256_S8x1x256_0_0_0

/-- What the body leaves in the output's staging buffer, from the four input blocks: its one store, of the attention
    payload of the loaded blocks, over the whole buffer. -/
def outA (q k v : Vec F S8x256x64 .f32) (msk : Vec F S8x1x256 .f32) : Vec F S8x256x64 .f32 :=
  View.canon [⟨wholeA, k0_pay1 (View.ld q wholeA) (View.ld k wholeA) (View.ld v wholeA) (View.ld msk wholeMaskA)⟩]

/-- That one store covers the buffer. -/
theorem coveredA (p0 : Vec F S8x256x64 .f32) (y : S8x256x64.Idx) :
    ∃ pc ∈ ([⟨wholeA, p0⟩] : List (View.Piece (Elt F) S8x256x64 .f32)), y ∈ pc.1.set :=
  View.cover_of_tiled [⟨wholeA, p0⟩] S8x256x64.size (by rfl) y

set_option maxHeartbeats 1000000 in
/-- The body on whole staging buffers: the four inputs at given contents, the output at anything. It reads the inputs,
    leaves them as they were, and leaves the output's buffer at `outA` of them. -/
theorem bodyA_runs (c : Dev nD) (E : Set ℕ) (i : grid0.Coords)
    (arg2 : Memref sig .tc .vmem S8x256x64 .f32) (harg2 : arg2.IsWhole) (arg3 : Memref sig .tc .vmem S8x256x64 .f32) (harg3 : arg3.IsWhole)
    (arg4 : Memref sig .tc .vmem S8x256x64 .f32) (harg4 : arg4.IsWhole) (arg5 : Memref sig .tc .vmem S8x1x256 .f32) (harg5 : arg5.IsWhole)
    (arg6 : Memref sig .tc .vmem S8x256x64 .f32) (harg6 : arg6.IsWhole)
    (q k v : Vec F S8x256x64 .f32) (msk : Vec F S8x1x256 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare msk ∗ (∃ d, owns (c : Thread nD τ) arg6 fullShare d)
        ∗ (iprop(owns (c : Thread nD τ) arg2 fullShare q ∗ owns (c : Thread nD τ) arg3 fullShare k ∗ owns (c : Thread nD τ) arg4 fullShare v
            ∗ owns (c : Thread nD τ) arg5 fullShare msk ∗ owns (c : Thread nD τ) arg6 fullShare (outA q k v msk)) -∗ K ⟨⟩))
      ⊢ wp frame (wpE (defs₀ (F := F)) Variants.none c none) E (cc0__chunk_attn_kernel i arg2 harg2 arg3 harg3 arg4 harg4 arg5 harg5 arg6 harg6) K := by
  simp only [cc0__chunk_attn_kernel_eq_skeleton]; unfold cc0__chunk_attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coveredA _)

/-- The pipeline's proof data on core `c`: its arrays as the region finds them; after the body at point `t` each input's
    buffer still at its block and the output's at `outA` of the four input blocks; nothing owed, full shares. -/
def datA (c : Dev nD) : Dat τ (Elt F) Unit ℕ (UR sig nD τ) ℕ cfg0 c where
  A w := V c (Pipeline.arrRef spec0 w)
  after w t := match w with
    | ⟨0, _⟩ => blkA V c 0 t
    | ⟨1, _⟩ => blkA V c 1 t
    | ⟨2, _⟩ => blkA V c 2 t
    | ⟨3, _⟩ => blkA V c 3 t
    | ⟨4, _⟩ => outA (blkA V c 0 t) (blkA V c 1 t) (blkA V c 2 t) (blkA V c 3 t)
  Φ _ := Pipeline.ΦA spec0 c
  q _ := fullShare
  owed _ := 0

theorem arrA (c : Dev nD) (w : Fin cfg0.W) : (datA V c).A w = V c (Pipeline.arrRef spec0 w) := by
  dsimp only [datA]
theorem afterA_0 (c : Dev nD) (t : Fin cfg0.N) : (datA V c).after 0 t = blkA V c 0 t := by dsimp only [datA]
theorem afterA_1 (c : Dev nD) (t : Fin cfg0.N) : (datA V c).after 1 t = blkA V c 1 t := by dsimp only [datA]
theorem afterA_2 (c : Dev nD) (t : Fin cfg0.N) : (datA V c).after 2 t = blkA V c 2 t := by dsimp only [datA]
theorem afterA_3 (c : Dev nD) (t : Fin cfg0.N) : (datA V c).after 3 t = blkA V c 3 t := by dsimp only [datA]
theorem afterA_4 (c : Dev nD) (t : Fin cfg0.N) :
    (datA V c).after 4 t = outA (blkA V c 0 t) (blkA V c 1 t) (blkA V c 2 t) (blkA V c 3 t) := by dsimp only [datA]
theorem heldA_0 (c : Dev nD) (t : Fin cfg0.N) (d) : (datA V c).before 0 t d = blkA V c 0 t :=
  heldA_0_of V (datA V c) (arrA V c 0) (afterA_0 V c) t d
theorem heldA_1 (c : Dev nD) (t : Fin cfg0.N) (d) : (datA V c).before 1 t d = blkA V c 1 t :=
  heldA_1_of V (datA V c) (arrA V c 1) (afterA_1 V c) t d
theorem heldA_2 (c : Dev nD) (t : Fin cfg0.N) (d) : (datA V c).before 2 t d = blkA V c 2 t :=
  heldA_2_of V (datA V c) (arrA V c 2) (afterA_2 V c) t d
theorem heldA_3 (c : Dev nD) (t : Fin cfg0.N) (d) : (datA V c).before 3 t d = blkA V c 3 t :=
  heldA_3_of V (datA V c) (arrA V c 3) (afterA_3 V c) t d

/-- What the body is called with at point `t`, window by window, -/
def bodyPreA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d))
    ∗ (∃ d, owns (c : Thread nD τ) (st0_3 t) fullShare ((datA V c).before 3 t d))
    ∗ (∃ d, owns (c : Thread nD τ) (st0_4 t) fullShare ((datA V c).before 4 t d)))

/-- and what it returns. -/
def bodyPostA (c : Dev nD) (t : Fin cfg0.N) : sProp 𝕄 :=
  iprop((datA V c).Φ t.succ ∗ (datA V c).owesAt () t.succ
    ∗ owns (c : Thread nD τ) (st0_0 t) fullShare ((datA V c).after 0 t)
    ∗ owns (c : Thread nD τ) (st0_1 t) fullShare ((datA V c).after 1 t)
    ∗ owns (c : Thread nD τ) (st0_2 t) fullShare ((datA V c).after 2 t)
    ∗ owns (c : Thread nD τ) (st0_3 t) fullShare ((datA V c).after 3 t)
    ∗ owns (c : Thread nD τ) (st0_4 t) fullShare ((datA V c).after 4 t))

/-- The body at any point: the inputs' buffers hold their blocks, so `bodyA_runs` applies; the invariant and what the
    core owes pass through unread. -/
theorem bodyA_at (c : Dev nD) (t : Fin cfg0.N) :
    bodyPreA V c t ⊢ wp frame (wpE (defs₀ (F := F)) Variants.none c none) Set.univ (bodyAt0 t) (fun _ => bodyPostA V c t) := by
  unfold bodyPreA bodyPostA bodyAt0
  simp only [heldA_0, heldA_1, heldA_2, heldA_3]
  rw [show (datA V c).Φ t.succ = (datA V c).Φ t.castSucc from rfl,
    show (datA V c).owesAt () t.succ = (datA V c).owesAt () t.castSucc from rfl,
    afterA_0, afterA_1, afterA_2, afterA_3, afterA_4]
  iintro ⟨HΦ, Ho, ⟨%d0, H0⟩, ⟨%d1, H1⟩, ⟨%d2, H2⟩, ⟨%d3, H3⟩, ⟨%d4, H4⟩⟩
  iapply (bodyA_runs c Set.univ _ _ _ _ _ _ _ _ _ _ _ (blkA V c 0 t) (blkA V c 1 t) (blkA V c 2 t) (blkA V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem bodyA_obligation (c : Dev nD) : BodyObligation (datA (F := F) V c) (defs₀ (F := F)) Variants.none () Set.univ := fun t => by
  rw [bigSep_W0, bigSep_W0]
  exact bodyA_at V c t

/-! ## Region 1: the attention of one group of eight (batch, head) rows on one chunk of 256 positions -/

/-- Window `w`'s block at grid point `t`, cut out of its array as the region finds it. -/
def blkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of input window 0 holds that window's block at every grid point, whether or not the point
    fetches it: an unfetched point has the same block index as the one before it. -/
theorem heldB_0_of {c : Dev nD} (dat : Dat τ (Elt F) Unit ℕ (UR sig nD τ) ℕ cfg1 c) (hA : dat.A 0 = V c (Pipeline.arrRef spec1 0))
    (hafter : ∀ t, dat.after 0 t = blkB V c 0 t) (t : Fin cfg1.N) (d) : dat.before 0 t d = blkB V c 0 t :=
  (dat.before_in_eq_fetched 0 rfl (fun _ => rfl) (fun _ _ _ => rfl) (fun t => by rw [hafter]; unfold Dat.blockOf blkB; rw [hA]; try rfl) t d).trans
    (by unfold Dat.fetched Dat.blockOf blkB; rw [hA]; try rfl)

/-- The staging buffer of input window 1 holds that window's block at every grid point, whether or not the point
    fetches it: an unfetched point has the same block index as the one before it. -/
theorem heldB_1_of {c : Dev nD} (dat : Dat τ (Elt F) Unit ℕ (UR sig nD τ) ℕ cfg1 c) (hA : dat.A 1 = V c (Pipeline.arrRef spec1 1))
    (hafter : ∀ t, dat.after 1 t = blkB V c 1 t) (t : Fin cfg1.N) (d) : dat.before 1 t d = blkB V c 1 t :=
  (dat.before_in_eq_fetched 1 rfl (fun _ => rfl) (fun _ _ _ => rfl) (fun t => by rw [hafter]; unfold Dat.blockOf blkB; rw [hA]; try rfl) t d).trans
    (by unfold Dat.fetched Dat.blockOf blkB; rw [hA]; try rfl)

/-- The staging buffer of input window 2 holds that window's block at every grid point, whether or not the point
    fetches it: an unfetched point has the same block index as the one before it. -/
theorem heldB_2_of {c : Dev nD} (dat : Dat τ (Elt F) Unit ℕ (UR sig nD τ) ℕ cfg1 c) (hA : dat.A 2 = V c (Pipeline.arrRef spec1 2))
    (hafter : ∀ t, dat.after 2 t = blkB V c 2 t) (t : Fin cfg1.N) (d) : dat.before 2 t d = blkB V c 2 t :=
  (dat.before_in_eq_fetched 2 rfl (fun _ => rfl) (fun _ _ _ => rfl) (fun t => by rw [hafter]; unfold Dat.blockOf blkB; rw [hA]; try rfl) t d).trans
    (by unfold Dat.fetched Dat.blockOf blkB; rw [hA]; try rfl)

/-- The staging buffer of input window 3 holds that window's block at every grid point, whether or not the point
    fetches it: an unfetched point has the same block index as the one before it. -/
theorem heldB_3_of {c : Dev nD} (dat : Dat τ (Elt F) Unit ℕ (UR sig nD τ) ℕ cfg1 c) (hA : dat.A 3 = V c (Pipeline.arrRef spec1 3))
    (hafter : ∀ t, dat.after 3 t = blkB V c 3 t) (t : Fin cfg1.N) (d) : dat.before 3 t d = blkB V c 3 t :=
  (dat.before_in_eq_fetched 3 rfl (fun _ => rfl) (fun _ _ _ => rfl) (fun t => by rw [hafter]; unfold Dat.blockOf blkB; rw [hA]; try rfl) t d).trans
    (by unfold Dat.fetched Dat.blockOf blkB; rw [hA]; try rfl)

/-- The whole [8, 256, 64] staging block, and the whole [8, 1, 256] mask block: the rectangles the body loads and stores. -/
abbrev wholeB : Rect S8x256x64 := Rect.unit (s := S8x256x64) ![0, 0, 0] S8x256x64.size inb_S8x256x64_S8x256x64_0_0_0
abbrev wholeMaskB : Rect S8x1x256 := Rect.unit (s := S8x1x256) ![0, 0, 0] S8x1x256.size inb_S8x1x256_S8x1x256_0_0_0

/-- What the body leaves in the output's staging buffer, from the four input blocks: its one store, of the attention
    payload of the loaded blocks, over the whole buffer. -/
def outB (q k v : Vec F S8x256x64 .f32) (msk : Vec F S8x1x256 .f32) : Vec F S8x256x64 .f32 :=
  View.canon [⟨wholeB, k1_pay1 (View.ld q wholeB) (View.ld k wholeB) (View.ld v wholeB) (View.ld msk wholeMaskB)⟩]

/-- That one store covers the buffer. -/
theorem coveredB (p0 : Vec F S8x256x64 .f32) (y : S8x256x64.Idx) :
    ∃ pc ∈ ([⟨wholeB, p0⟩] : List (View.Piece (Elt F) S8x256x64 .f32)), y ∈ pc.1.set :=
  View.cover_of_tiled [⟨wholeB, p0⟩] S8x256x64.size (by rfl) y

set_option maxHeartbeats 1000000 in
/-- The body on whole staging buffers: the four inputs at given contents, the output at anything. It reads the inputs,
    leaves them as they were, and leaves the output's buffer at `outB` of them. -/
theorem bodyB_runs (c : Dev nD) (E : Set ℕ) (i : grid1.Coords)
    (arg2 : Memref sig .tc .vmem S8x256x64 .f32) (harg2 : arg2.IsWhole) (arg3 : Memref sig .tc .vmem S8x256x64 .f32) (harg3 : arg3.IsWhole)
    (arg4 : Memref sig .tc .vmem S8x256x64 .f32) (harg4 : arg4.IsWhole) (arg5 : Memref sig .tc .vmem S8x1x256 .f32) (harg5 : arg5.IsWhole)
    (arg6 : Memref sig .tc .vmem S8x256x64 .f32) (harg6 : arg6.IsWhole)
    (q k v : Vec F S8x256x64 .f32) (msk : Vec F S8x1x256 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare msk ∗ (∃ d, owns (c : Thread nD τ) arg6 fullShare d)
        ∗ (iprop(owns (c : Thread nD τ) arg2 fullShare q ∗ owns (c : Thread nD τ) arg3 fullShare k ∗ owns (c : Thread nD τ) arg4 fullShare v
            ∗ owns (c : Thread nD τ) arg5 fullShare msk ∗ owns (c : Thread nD τ) arg6 fullShare (outB q k v msk)) -∗ K ⟨⟩))
      ⊢ wp frame (wpE (defs₀ (F := F)) Variants.none c none) E (cc1__chunk_attn_kernel i arg2 harg2 arg3 harg3 arg4 harg4 arg5 harg5 arg6 harg6) K := by
  simp only [cc1__chunk_attn_kernel_eq_skeleton]; unfold cc1__chunk_attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coveredB _)

/-- The pipeline's proof data on core `c`: its arrays as the region finds them; after the body at point `t` each input's
    buffer still at its block and the output's at `outB` of the four input blocks; nothing owed, full shares. -/
def datB (c : Dev nD) : Dat τ (Elt F) Unit ℕ (UR sig nD τ) ℕ cfg1 c where
  A w := V c (Pipeline.arrRef spec1 w)
  after w t := match w with
    | ⟨0, _⟩ => blkB V c 0 t
    | ⟨1, _⟩ => blkB V c 1 t
    | ⟨2, _⟩ => blkB V c 2 t
    | ⟨3, _⟩ => blkB V c 3 t
    | ⟨4, _⟩ => outB (blkB V c 0 t) (blkB V c 1 t) (blkB V c 2 t) (blkB V c 3 t)
  Φ _ := Pipeline.ΦA spec1 c
  q _ := fullShare
  owed _ := 0

theorem arrB (c : Dev nD) (w : Fin cfg1.W) : (datB V c).A w = V c (Pipeline.arrRef spec1 w) := by
  dsimp only [datB]
theorem afterB_0 (c : Dev nD) (t : Fin cfg1.N) : (datB V c).after 0 t = blkB V c 0 t := by dsimp only [datB]
theorem afterB_1 (c : Dev nD) (t : Fin cfg1.N) : (datB V c).after 1 t = blkB V c 1 t := by dsimp only [datB]
theorem afterB_2 (c : Dev nD) (t : Fin cfg1.N) : (datB V c).after 2 t = blkB V c 2 t := by dsimp only [datB]
theorem afterB_3 (c : Dev nD) (t : Fin cfg1.N) : (datB V c).after 3 t = blkB V c 3 t := by dsimp only [datB]
theorem afterB_4 (c : Dev nD) (t : Fin cfg1.N) :
    (datB V c).after 4 t = outB (blkB V c 0 t) (blkB V c 1 t) (blkB V c 2 t) (blkB V c 3 t) := by dsimp only [datB]
theorem heldB_0 (c : Dev nD) (t : Fin cfg1.N) (d) : (datB V c).before 0 t d = blkB V c 0 t :=
  heldB_0_of V (datB V c) (arrB V c 0) (afterB_0 V c) t d
theorem heldB_1 (c : Dev nD) (t : Fin cfg1.N) (d) : (datB V c).before 1 t d = blkB V c 1 t :=
  heldB_1_of V (datB V c) (arrB V c 1) (afterB_1 V c) t d
theorem heldB_2 (c : Dev nD) (t : Fin cfg1.N) (d) : (datB V c).before 2 t d = blkB V c 2 t :=
  heldB_2_of V (datB V c) (arrB V c 2) (afterB_2 V c) t d
theorem heldB_3 (c : Dev nD) (t : Fin cfg1.N) (d) : (datB V c).before 3 t d = blkB V c 3 t :=
  heldB_3_of V (datB V c) (arrB V c 3) (afterB_3 V c) t d

/-- What the body is called with at point `t`, window by window, -/
def bodyPreB (c : Dev nD) (t : Fin cfg1.N) : sProp 𝕄 :=
  iprop((datB V c).Φ t.castSucc ∗ (datB V c).owesAt () t.castSucc
    ∗ (∃ d, owns (c : Thread nD τ) (st1_0 t) fullShare ((datB V c).before 0 t d))
    ∗ (∃ d, owns (c : Thread nD τ) (st1_1 t) fullShare ((datB V c).before 1 t d))
    ∗ (∃ d, owns (c : Thread nD τ) (st1_2 t) fullShare ((datB V c).before 2 t d))
    ∗ (∃ d, owns (c : Thread nD τ) (st1_3 t) fullShare ((datB V c).before 3 t d))
    ∗ (∃ d, owns (c : Thread nD τ) (st1_4 t) fullShare ((datB V c).before 4 t d)))

/-- and what it returns. -/
def bodyPostB (c : Dev nD) (t : Fin cfg1.N) : sProp 𝕄 :=
  iprop((datB V c).Φ t.succ ∗ (datB V c).owesAt () t.succ
    ∗ owns (c : Thread nD τ) (st1_0 t) fullShare ((datB V c).after 0 t)
    ∗ owns (c : Thread nD τ) (st1_1 t) fullShare ((datB V c).after 1 t)
    ∗ owns (c : Thread nD τ) (st1_2 t) fullShare ((datB V c).after 2 t)
    ∗ owns (c : Thread nD τ) (st1_3 t) fullShare ((datB V c).after 3 t)
    ∗ owns (c : Thread nD τ) (st1_4 t) fullShare ((datB V c).after 4 t))

/-- The body at any point: the inputs' buffers hold their blocks, so `bodyB_runs` applies; the invariant and what the
    core owes pass through unread. -/
theorem bodyB_at (c : Dev nD) (t : Fin cfg1.N) :
    bodyPreB V c t ⊢ wp frame (wpE (defs₀ (F := F)) Variants.none c none) Set.univ (bodyAt1 t) (fun _ => bodyPostB V c t) := by
  unfold bodyPreB bodyPostB bodyAt1
  simp only [heldB_0, heldB_1, heldB_2, heldB_3]
  rw [show (datB V c).Φ t.succ = (datB V c).Φ t.castSucc from rfl,
    show (datB V c).owesAt () t.succ = (datB V c).owesAt () t.castSucc from rfl,
    afterB_0, afterB_1, afterB_2, afterB_3, afterB_4]
  iintro ⟨HΦ, Ho, ⟨%d0, H0⟩, ⟨%d1, H1⟩, ⟨%d2, H2⟩, ⟨%d3, H3⟩, ⟨%d4, H4⟩⟩
  iapply (bodyB_runs c Set.univ _ _ _ _ _ _ _ _ _ _ _ (blkB V c 0 t) (blkB V c 1 t) (blkB V c 2 t) (blkB V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem bodyB_obligation (c : Dev nD) : BodyObligation (datB (F := F) V c) (defs₀ (F := F)) Variants.none () Set.univ := fun t => by
  rw [bigSep_W1, bigSep_W1]
  exact bodyB_at V c t

end Cert.Kernel.Attn

end
-- ==== Proof.Kernel.Run.lean ====
/-
  The run of @main: three stretches of host operations around the two pallas_calls.

  The contents of every HBM buffer are followed from the launch to the return as a chain of six valuations: the launch
  memory; after the reshapes and the mask broadcast that prepare the first call's operands; after the first call, whose
  output array holds what its grid points wrote back and whose other arrays are untouched; after the slices, scalings
  and reshapes between the calls; after the second call; and after the final scaling, sum and concatenation. Each
  pallas_call is entered with the buffers at one valuation and left with them at the next, and every weakly fair
  execution of @main terminates with each HBM buffer at the last valuation. From that one statement follow both
  that the four argument arrays end as launched and what the result array holds.
-/
import proofs.«143526_j20564303413308_1_alg».proof.Proof.Kernel.Body
import proofs.«143526_j20564303413308_1_alg».proof.Proof.Gen.Kernel.Regions

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers at each boundary -/

/-- Core `c`'s buffers at launch. -/
abbrev W0 : Dev nD → Valuation τ sig (Elt F) := fun c b => (s₀ m ρ).mem ((c : Dev nD), b)
/-- After the first host stretch: the first call's operands are in place. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first call: its arrays at what the pipeline leaves, every other buffer as entered. -/
def W2 (c : Dev nD) : Valuation τ sig (Elt F) :=
  Pipeline.withArrays spec0 c (W1 m ρ c) fun w => (datA (V1 m ρ) c).arrAt w cfg0.N
theorem W2_arr (c : Dev nD) (w : Fin cfg0.W) :
    W2 m ρ c (Proc.devRef .tc (Pipeline.arrRef spec0 w)) = (datA (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem leftA (c : Dev nD) (w : Fin cfg0.W) : (datA (V1 m ρ) c).arrAt w cfg0.N = V2 m ρ c (Pipeline.arrRef spec0 w) :=
  (W2_arr m ρ c w).symm
theorem keptA (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: the second call's operands are in place. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second call. -/
def W4 (c : Dev nD) : Valuation τ sig (Elt F) :=
  Pipeline.withArrays spec1 c (W3 m ρ c) fun w => (datB (V3 m ρ) c).arrAt w cfg1.N
theorem W4_arr (c : Dev nD) (w : Fin cfg1.W) :
    W4 m ρ c (Proc.devRef .tc (Pipeline.arrRef spec1 w)) = (datB (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem leftB (c : Dev nD) (w : Fin cfg1.W) : (datB (V3 m ρ) c).arrAt w cfg1.N = V4 m ρ c (Pipeline.arrRef spec1 w) :=
  (W4_arr m ρ c w).symm
theorem keptB (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the return. -/
abbrev W5 : Dev nD → Valuation τ sig (Elt F) := fun c => StableHlo.after hostOps2 (W4 m ρ c)

/-! ## The arguments end as launched -/

/-- `main_arg0` ends as launched: no host operation writes it and it is no window's array. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` ends as launched: no host operation writes it and it is no window's array. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- `main_arg2` ends as launched: no host operation writes it and it is no window's array. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` ends as launched: no host operation writes it and it is no window's array. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ## The proof data of the two pipelines, and what rides beside the buffers -/

/-- Each pipeline's proof data at its own entry contents. -/
def pdats : (p : Fin 2) → (c : Dev nD) → Dat τ (Elt F) Unit ℕ (UR sig nD τ) ℕ (Pipeline.pin (pcfgs (F := F)) adm p) c
  | ⟨0, _⟩ => fun c => datA (V1 m ρ) c
  | ⟨1, _⟩ => fun c => datB (V3 m ρ) c
abbrev 𝒱₀ : Variants := Variants.none
abbrev L : GSem nD τ sig → Finset Unit := fun _ => ∅
abbrev lv : GSem nD τ sig → Unit → ℕ := fun _ _ => 0
/-- Beside the buffers through every segment: the core's generator register at some state, and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tlast (c : Dev nD) : sProp 𝕄 := iprop(StableHlo.held (c : Thread nD τ) (Pipeline.ucRefs τ sig) (W5 m ρ c) ∗ ∃ r, prngReg c r)

/-- The last host stretch ends with the buffers at the last contents beside the register and what is owed: regrouped, the
    last thread state beside the core owing nothing. -/
theorem last_link (c : Dev nD) :
    (iprop(StableHlo.held (c : Thread nD τ) (Pipeline.ucRefs τ sig) (W5 m ρ c) ∗ R c) : sProp 𝕄)
      ⊢ iprop(Tlast m ρ c ∗ ∃ W, owes (c : Thread nD τ) (0 : CellTallies nD τ sig Unit) W) := by
  iintro ⟨Hh, Hp, Ho⟩
  isplitr [Ho]
  · isplitl [Hh]; · iexact Hh
    iexact Hp
  iexact Ho

/-! ## The two pallas_calls as segments -/

set_option backward.isDefEq.respectTransparency.types false in
/-- Region 0 as a segment of @main: entered with every unscoped buffer at `W1`, left with them at `W2`. Its five arrays are
    split out of the unscoped buffers on entry and put back at what the write-backs leave on exit; the generator
    register goes into the pipeline's invariant and comes out; nothing is owed. -/
def regA : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (bodyA_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (leftA m ρ c) (keptA m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at `W3`, left with them at `W4`. Its five arrays are
    split out of the unscoped buffers on entry and put back at what the write-backs leave on exit; the generator
    register goes into the pipeline's invariant and comes out; nothing is owed. -/
def regB : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (bodyB_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (leftB m ρ c) (keptB m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its five segments, and the run -/

abbrev segs : List (Pipeline.Seg (pcfgs (F := F)) adm (pdats m ρ) () defs₀ 𝒱₀ L lv) :=
  [ .host (hostSeg hostOps0 hostOps0_sub hostOps0_fresh (W0 m ρ)),
    .region (regA m ρ),
    .host (hostSeg hostOps1 hostOps1_sub hostOps1_fresh (W2 m ρ)),
    .region (regB m ρ),
    .host (hostSeg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution of @main from `m` with zero counters terminates, nothing faulting, and every HBM buffer of
    every core ends at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tlast m ρ)
    (hch := ⟨fun _ => .rfl, fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

/-- The same run with the result array named: it ends at the last valuation's contents of `main_v26`. -/
theorem run_result : θ_run defs (onTc (τ := τ) (main (F := F))) ⟨m, fun _ => 0, ρ⟩ (fun r => ∀ c : Dev nD,
      r.2.mem ((c.tc : Thread nD τ).loc main_v26) = W5 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v26 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.Kernel.Attn

end
-- ==== Proof.KernelIdeal.Body.lean ====
/-
  The program's two pallas_calls, each at a parameter `V` for what its arrays hold when it is entered.

  Each is a grid of independent attentions: at grid point (g, n) the body loads the [8, 256, 64] blocks of the
  queries, keys and values of rows 8g … 8g+7 at positions 256n … 256n+255 and the [8, 1, 256] block of the additive
  mask, and stores one [8, 256, 64] block: for each row and query position the softmax, over the 256 key positions,
  of (q · k) / 8 + mask, applied to the values. Nothing is carried from one grid point to the next, so a point's
  output block is a function of its four input blocks alone (`outA`, `outB`), and that is all the pipeline's
  bookkeeping needs: the body's triple, the proof data saying what each staging buffer holds after the body, and the
  obligation the pipeline asks of the body at every point.
-/
import proofs.«143526_j20564303413308_1_alg».proof.Proof.Gen.KernelIdeal.Launch
import proofs.«143526_j20564303413308_1_alg».proof.Proof.Gen.KernelIdeal.Skeleton
import proofs.«143526_j20564303413308_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the attention of one group of eight (batch, head) rows on one chunk of 256 positions -/

/-- Window `w`'s block at grid point `t`, cut out of its array as the region finds it. -/
def blkA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of input window 0 holds that window's block at every grid point, whether or not the point
    fetches it: an unfetched point has the same block index as the one before it. -/
theorem heldA_0_of {c : Dev nD} (dat : Dat τ (Elt F) Unit ℕ (UR sig nD τ) ℕ cfg0 c) (hA : dat.A 0 = V c (Pipeline.arrRef spec0 0))
    (hafter : ∀ t, dat.after 0 t = blkA V c 0 t) (t : Fin cfg0.N) (d) : dat.before 0 t d = blkA V c 0 t :=
  (dat.before_in_eq_fetched 0 rfl (fun _ => rfl) (fun _ _ _ => rfl) (fun t => by rw [hafter]; unfold Dat.blockOf blkA; rw [hA]; try rfl) t d).trans
    (by unfold Dat.fetched Dat.blockOf blkA; rw [hA]; try rfl)

/-- The staging buffer of input window 1 holds that window's block at every grid point, whether or not the point
    fetches it: an unfetched point has the same block index as the one before it. -/
theorem heldA_1_of {c : Dev nD} (dat : Dat τ (Elt F) Unit ℕ (UR sig nD τ) ℕ cfg0 c) (hA : dat.A 1 = V c (Pipeline.arrRef spec0 1))
    (hafter : ∀ t, dat.after 1 t = blkA V c 1 t) (t : Fin cfg0.N) (d) : dat.before 1 t d = blkA V c 1 t :=
  (dat.before_in_eq_fetched 1 rfl (fun _ => rfl) (fun _ _ _ => rfl) (fun t => by rw [hafter]; unfold Dat.blockOf blkA; rw [hA]; try rfl) t d).trans
    (by unfold Dat.fetched Dat.blockOf blkA; rw [hA]; try rfl)

/-- The staging buffer of input window 2 holds that window's block at every grid point, whether or not the point
    fetches it: an unfetched point has the same block index as the one before it. -/
theorem heldA_2_of {c : Dev nD} (dat : Dat τ (Elt F) Unit ℕ (UR sig nD τ) ℕ cfg0 c) (hA : dat.A 2 = V c (Pipeline.arrRef spec0 2))
    (hafter : ∀ t, dat.after 2 t = blkA V c 2 t) (t : Fin cfg0.N) (d) : dat.before 2 t d = blkA V c 2 t :=
  (dat.before_in_eq_fetched 2 rfl (fun _ => rfl) (fun _ _ _ => rfl) (fun t => by rw [hafter]; unfold Dat.blockOf blkA; rw [hA]; try rfl) t d).trans
    (by unfold Dat.fetched Dat.blockOf blkA; rw [hA]; try rfl)

/-- The staging buffer of input window 3 holds that window's block at every grid point, whether or not the point
    fetches it: an unfetched point has the same block index as the one before it. -/
theorem heldA_3_of {c : Dev nD} (dat : Dat τ (Elt F) Unit ℕ (UR sig nD τ) ℕ cfg0 c) (hA : dat.A 3 = V c (Pipeline.arrRef spec0 3))
    (hafter : ∀ t, dat.after 3 t = blkA V c 3 t) (t : Fin cfg0.N) (d) : dat.before 3 t d = blkA V c 3 t :=
  (dat.before_in_eq_fetched 3 rfl (fun _ => rfl) (fun _ _ _ => rfl) (fun t => by rw [hafter]; unfold Dat.blockOf blkA; rw [hA]; try rfl) t d).trans
    (by unfold Dat.fetched Dat.blockOf blkA; rw [hA]; try rfl)

/-- The whole [8, 256, 64] staging block, and the whole [8, 1, 256] mask block: the rectangles the body loads and stores. -/
abbrev wholeA : Rect S8x256x64 := Rect.unit (s := S8x256x64) ![0, 0, 0] S8x256x64.size inb_S8x256x64_S8x256x64_0_0_0
abbrev wholeMaskA : Rect S8x1x256 := Rect.unit (s := S8x1x256) ![0, 0, 0] S8x1x256.size inb_S8x1x256_S8x1x256_0_0_0

/-- What the body leaves in the output's staging buffer, from the four input blocks: its one store, of the attention
    payload of the loaded blocks, over the whole buffer. -/
def outA (q k v : Vec F S8x256x64 .f32) (msk : Vec F S8x1x256 .f32) : Vec F S8x256x64 .f32 :=
  View.canon [⟨wholeA, k0_pay1 (View.ld q wholeA) (View.ld k wholeA) (View.ld v wholeA) (View.ld msk wholeMaskA)⟩]

/-- That one store covers the buffer. -/
theorem coveredA (p0 : Vec F S8x256x64 .f32) (y : S8x256x64.Idx) :
    ∃ pc ∈ ([⟨wholeA, p0⟩] : List (View.Piece (Elt F) S8x256x64 .f32)), y ∈ pc.1.set :=
  View.cover_of_tiled [⟨wholeA, p0⟩] S8x256x64.size (by rfl) y

set_option maxHeartbeats 1000000 in
/-- The body on whole staging buffers: the four inputs at given contents, the output at anything. It reads the inputs,
    leaves them as they were, and leaves the output's buffer at `outA` of them. -/
theorem bodyA_runs (c : Dev nD) (E : Set ℕ) (i : grid0.Coords)
    (arg2 : Memref sig .tc .vmem S8x256x64 .f32) (harg2 : arg2.IsWhole) (arg3 : Memref sig .tc .vmem S8x256x64 .f32) (harg3 : arg3.IsWhole)
    (arg4 : Memref sig .tc .vmem S8x256x64 .f32) (harg4 : arg4.IsWhole) (arg5 : Memref sig .tc .vmem S8x1x256 .f32) (harg5 : arg5.IsWhole)
    (arg6 : Memref sig .tc .vmem S8x256x64 .f32) (harg6 : arg6.IsWhole)
    (q k v : Vec F S8x256x64 .f32) (msk : Vec F S8x1x256 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare msk ∗ (∃ d, owns (c : Thread nD τ) arg6 fullShare d)
        ∗ (iprop(owns (c : Thread nD τ) arg2 fullShare q ∗ owns (c : Thread nD τ) arg3 fullShare k ∗ owns (c : Thread nD τ) arg4 fullShare v
            ∗ owns (c : Thread nD τ) arg5 fullShare msk ∗ owns (c : Thread nD τ) arg6 fullShare (outA q k v msk)) -∗ K ⟨⟩))
      ⊢ wp frame (wpE (defs₀ (F := F)) Variants.none c none) E (cc0__chunk_attn_kernel i arg2 harg2 arg3 harg3 arg4 harg4 arg5 harg5 arg6 harg6) K := by
  simp only [cc0__chunk_attn_kernel_eq_skeleton]; unfold cc0__chunk_attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coveredA _)

/-- The pipeline's proof data on core `c`: its arrays as the region finds them; after the body at point `t` each input's
    buffer still at its block and the output's at `outA` of the four input blocks; nothing owed, full shares. -/
def datA (c : Dev nD) : Dat τ (Elt F) Unit ℕ (UR sig nD τ) ℕ cfg0 c where
  A w := V c (Pipeline.arrRef spec0 w)
  after w t := match w with
    | ⟨0, _⟩ => blkA V c 0 t
    | ⟨1, _⟩ => blkA V c 1 t
    | ⟨2, _⟩ => blkA V c 2 t
    | ⟨3, _⟩ => blkA V c 3 t
    | ⟨4, _⟩ => outA (blkA V c 0 t) (blkA V c 1 t) (blkA V c 2 t) (blkA V c 3 t)
  Φ _ := Pipeline.ΦA spec0 c
  q _ := fullShare
  owed _ := 0

theorem arrA (c : Dev nD) (w : Fin cfg0.W) : (datA V c).A w = V c (Pipeline.arrRef spec0 w) := by
  dsimp only [datA]
theorem afterA_0 (c : Dev nD) (t : Fin cfg0.N) : (datA V c).after 0 t = blkA V c 0 t := by dsimp only [datA]
theorem afterA_1 (c : Dev nD) (t : Fin cfg0.N) : (datA V c).after 1 t = blkA V c 1 t := by dsimp only [datA]
theorem afterA_2 (c : Dev nD) (t : Fin cfg0.N) : (datA V c).after 2 t = blkA V c 2 t := by dsimp only [datA]
theorem afterA_3 (c : Dev nD) (t : Fin cfg0.N) : (datA V c).after 3 t = blkA V c 3 t := by dsimp only [datA]
theorem afterA_4 (c : Dev nD) (t : Fin cfg0.N) :
    (datA V c).after 4 t = outA (blkA V c 0 t) (blkA V c 1 t) (blkA V c 2 t) (blkA V c 3 t) := by dsimp only [datA]
theorem heldA_0 (c : Dev nD) (t : Fin cfg0.N) (d) : (datA V c).before 0 t d = blkA V c 0 t :=
  heldA_0_of V (datA V c) (arrA V c 0) (afterA_0 V c) t d
theorem heldA_1 (c : Dev nD) (t : Fin cfg0.N) (d) : (datA V c).before 1 t d = blkA V c 1 t :=
  heldA_1_of V (datA V c) (arrA V c 1) (afterA_1 V c) t d
theorem heldA_2 (c : Dev nD) (t : Fin cfg0.N) (d) : (datA V c).before 2 t d = blkA V c 2 t :=
  heldA_2_of V (datA V c) (arrA V c 2) (afterA_2 V c) t d
theorem heldA_3 (c : Dev nD) (t : Fin cfg0.N) (d) : (datA V c).before 3 t d = blkA V c 3 t :=
  heldA_3_of V (datA V c) (arrA V c 3) (afterA_3 V c) t d

/-- What the body is called with at point `t`, window by window, -/
def bodyPreA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d))
    ∗ (∃ d, owns (c : Thread nD τ) (st0_3 t) fullShare ((datA V c).before 3 t d))
    ∗ (∃ d, owns (c : Thread nD τ) (st0_4 t) fullShare ((datA V c).before 4 t d)))

/-- and what it returns. -/
def bodyPostA (c : Dev nD) (t : Fin cfg0.N) : sProp 𝕄 :=
  iprop((datA V c).Φ t.succ ∗ (datA V c).owesAt () t.succ
    ∗ owns (c : Thread nD τ) (st0_0 t) fullShare ((datA V c).after 0 t)
    ∗ owns (c : Thread nD τ) (st0_1 t) fullShare ((datA V c).after 1 t)
    ∗ owns (c : Thread nD τ) (st0_2 t) fullShare ((datA V c).after 2 t)
    ∗ owns (c : Thread nD τ) (st0_3 t) fullShare ((datA V c).after 3 t)
    ∗ owns (c : Thread nD τ) (st0_4 t) fullShare ((datA V c).after 4 t))

/-- The body at any point: the inputs' buffers hold their blocks, so `bodyA_runs` applies; the invariant and what the
    core owes pass through unread. -/
theorem bodyA_at (c : Dev nD) (t : Fin cfg0.N) :
    bodyPreA V c t ⊢ wp frame (wpE (defs₀ (F := F)) Variants.none c none) Set.univ (bodyAt0 t) (fun _ => bodyPostA V c t) := by
  unfold bodyPreA bodyPostA bodyAt0
  simp only [heldA_0, heldA_1, heldA_2, heldA_3]
  rw [show (datA V c).Φ t.succ = (datA V c).Φ t.castSucc from rfl,
    show (datA V c).owesAt () t.succ = (datA V c).owesAt () t.castSucc from rfl,
    afterA_0, afterA_1, afterA_2, afterA_3, afterA_4]
  iintro ⟨HΦ, Ho, ⟨%d0, H0⟩, ⟨%d1, H1⟩, ⟨%d2, H2⟩, ⟨%d3, H3⟩, ⟨%d4, H4⟩⟩
  iapply (bodyA_runs c Set.univ _ _ _ _ _ _ _ _ _ _ _ (blkA V c 0 t) (blkA V c 1 t) (blkA V c 2 t) (blkA V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem bodyA_obligation (c : Dev nD) : BodyObligation (datA (F := F) V c) (defs₀ (F := F)) Variants.none () Set.univ := fun t => by
  rw [bigSep_W0, bigSep_W0]
  exact bodyA_at V c t

/-! ## Region 1: the attention of one group of eight (batch, head) rows on one chunk of 256 positions -/

/-- Window `w`'s block at grid point `t`, cut out of its array as the region finds it. -/
def blkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer of input window 0 holds that window's block at every grid point, whether or not the point
    fetches it: an unfetched point has the same block index as the one before it. -/
theorem heldB_0_of {c : Dev nD} (dat : Dat τ (Elt F) Unit ℕ (UR sig nD τ) ℕ cfg1 c) (hA : dat.A 0 = V c (Pipeline.arrRef spec1 0))
    (hafter : ∀ t, dat.after 0 t = blkB V c 0 t) (t : Fin cfg1.N) (d) : dat.before 0 t d = blkB V c 0 t :=
  (dat.before_in_eq_fetched 0 rfl (fun _ => rfl) (fun _ _ _ => rfl) (fun t => by rw [hafter]; unfold Dat.blockOf blkB; rw [hA]; try rfl) t d).trans
    (by unfold Dat.fetched Dat.blockOf blkB; rw [hA]; try rfl)

/-- The staging buffer of input window 1 holds that window's block at every grid point, whether or not the point
    fetches it: an unfetched point has the same block index as the one before it. -/
theorem heldB_1_of {c : Dev nD} (dat : Dat τ (Elt F) Unit ℕ (UR sig nD τ) ℕ cfg1 c) (hA : dat.A 1 = V c (Pipeline.arrRef spec1 1))
    (hafter : ∀ t, dat.after 1 t = blkB V c 1 t) (t : Fin cfg1.N) (d) : dat.before 1 t d = blkB V c 1 t :=
  (dat.before_in_eq_fetched 1 rfl (fun _ => rfl) (fun _ _ _ => rfl) (fun t => by rw [hafter]; unfold Dat.blockOf blkB; rw [hA]; try rfl) t d).trans
    (by unfold Dat.fetched Dat.blockOf blkB; rw [hA]; try rfl)

/-- The staging buffer of input window 2 holds that window's block at every grid point, whether or not the point
    fetches it: an unfetched point has the same block index as the one before it. -/
theorem heldB_2_of {c : Dev nD} (dat : Dat τ (Elt F) Unit ℕ (UR sig nD τ) ℕ cfg1 c) (hA : dat.A 2 = V c (Pipeline.arrRef spec1 2))
    (hafter : ∀ t, dat.after 2 t = blkB V c 2 t) (t : Fin cfg1.N) (d) : dat.before 2 t d = blkB V c 2 t :=
  (dat.before_in_eq_fetched 2 rfl (fun _ => rfl) (fun _ _ _ => rfl) (fun t => by rw [hafter]; unfold Dat.blockOf blkB; rw [hA]; try rfl) t d).trans
    (by unfold Dat.fetched Dat.blockOf blkB; rw [hA]; try rfl)

/-- The staging buffer of input window 3 holds that window's block at every grid point, whether or not the point
    fetches it: an unfetched point has the same block index as the one before it. -/
theorem heldB_3_of {c : Dev nD} (dat : Dat τ (Elt F) Unit ℕ (UR sig nD τ) ℕ cfg1 c) (hA : dat.A 3 = V c (Pipeline.arrRef spec1 3))
    (hafter : ∀ t, dat.after 3 t = blkB V c 3 t) (t : Fin cfg1.N) (d) : dat.before 3 t d = blkB V c 3 t :=
  (dat.before_in_eq_fetched 3 rfl (fun _ => rfl) (fun _ _ _ => rfl) (fun t => by rw [hafter]; unfold Dat.blockOf blkB; rw [hA]; try rfl) t d).trans
    (by unfold Dat.fetched Dat.blockOf blkB; rw [hA]; try rfl)

/-- The whole [8, 256, 64] staging block, and the whole [8, 1, 256] mask block: the rectangles the body loads and stores. -/
abbrev wholeB : Rect S8x256x64 := Rect.unit (s := S8x256x64) ![0, 0, 0] S8x256x64.size inb_S8x256x64_S8x256x64_0_0_0
abbrev wholeMaskB : Rect S8x1x256 := Rect.unit (s := S8x1x256) ![0, 0, 0] S8x1x256.size inb_S8x1x256_S8x1x256_0_0_0

/-- What the body leaves in the output's staging buffer, from the four input blocks: its one store, of the attention
    payload of the loaded blocks, over the whole buffer. -/
def outB (q k v : Vec F S8x256x64 .f32) (msk : Vec F S8x1x256 .f32) : Vec F S8x256x64 .f32 :=
  View.canon [⟨wholeB, k1_pay1 (View.ld q wholeB) (View.ld k wholeB) (View.ld v wholeB) (View.ld msk wholeMaskB)⟩]

/-- That one store covers the buffer. -/
theorem coveredB (p0 : Vec F S8x256x64 .f32) (y : S8x256x64.Idx) :
    ∃ pc ∈ ([⟨wholeB, p0⟩] : List (View.Piece (Elt F) S8x256x64 .f32)), y ∈ pc.1.set :=
  View.cover_of_tiled [⟨wholeB, p0⟩] S8x256x64.size (by rfl) y

set_option maxHeartbeats 1000000 in
/-- The body on whole staging buffers: the four inputs at given contents, the output at anything. It reads the inputs,
    leaves them as they were, and leaves the output's buffer at `outB` of them. -/
theorem bodyB_runs (c : Dev nD) (E : Set ℕ) (i : grid1.Coords)
    (arg2 : Memref sig .tc .vmem S8x256x64 .f32) (harg2 : arg2.IsWhole) (arg3 : Memref sig .tc .vmem S8x256x64 .f32) (harg3 : arg3.IsWhole)
    (arg4 : Memref sig .tc .vmem S8x256x64 .f32) (harg4 : arg4.IsWhole) (arg5 : Memref sig .tc .vmem S8x1x256 .f32) (harg5 : arg5.IsWhole)
    (arg6 : Memref sig .tc .vmem S8x256x64 .f32) (harg6 : arg6.IsWhole)
    (q k v : Vec F S8x256x64 .f32) (msk : Vec F S8x1x256 .f32) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare msk ∗ (∃ d, owns (c : Thread nD τ) arg6 fullShare d)
        ∗ (iprop(owns (c : Thread nD τ) arg2 fullShare q ∗ owns (c : Thread nD τ) arg3 fullShare k ∗ owns (c : Thread nD τ) arg4 fullShare v
            ∗ owns (c : Thread nD τ) arg5 fullShare msk ∗ owns (c : Thread nD τ) arg6 fullShare (outB q k v msk)) -∗ K ⟨⟩))
      ⊢ wp frame (wpE (defs₀ (F := F)) Variants.none c none) E (cc1__chunk_attn_kernel i arg2 harg2 arg3 harg3 arg4 harg4 arg5 harg5 arg6 harg6) K := by
  simp only [cc1__chunk_attn_kernel_eq_skeleton]; unfold cc1__chunk_attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coveredB _)

/-- The pipeline's proof data on core `c`: its arrays as the region finds them; after the body at point `t` each input's
    buffer still at its block and the output's at `outB` of the four input blocks; nothing owed, full shares. -/
def datB (c : Dev nD) : Dat τ (Elt F) Unit ℕ (UR sig nD τ) ℕ cfg1 c where
  A w := V c (Pipeline.arrRef spec1 w)
  after w t := match w with
    | ⟨0, _⟩ => blkB V c 0 t
    | ⟨1, _⟩ => blkB V c 1 t
    | ⟨2, _⟩ => blkB V c 2 t
    | ⟨3, _⟩ => blkB V c 3 t
    | ⟨4, _⟩ => outB (blkB V c 0 t) (blkB V c 1 t) (blkB V c 2 t) (blkB V c 3 t)
  Φ _ := Pipeline.ΦA spec1 c
  q _ := fullShare
  owed _ := 0

theorem arrB (c : Dev nD) (w : Fin cfg1.W) : (datB V c).A w = V c (Pipeline.arrRef spec1 w) := by
  dsimp only [datB]
theorem afterB_0 (c : Dev nD) (t : Fin cfg1.N) : (datB V c).after 0 t = blkB V c 0 t := by dsimp only [datB]
theorem afterB_1 (c : Dev nD) (t : Fin cfg1.N) : (datB V c).after 1 t = blkB V c 1 t := by dsimp only [datB]
theorem afterB_2 (c : Dev nD) (t : Fin cfg1.N) : (datB V c).after 2 t = blkB V c 2 t := by dsimp only [datB]
theorem afterB_3 (c : Dev nD) (t : Fin cfg1.N) : (datB V c).after 3 t = blkB V c 3 t := by dsimp only [datB]
theorem afterB_4 (c : Dev nD) (t : Fin cfg1.N) :
    (datB V c).after 4 t = outB (blkB V c 0 t) (blkB V c 1 t) (blkB V c 2 t) (blkB V c 3 t) := by dsimp only [datB]
theorem heldB_0 (c : Dev nD) (t : Fin cfg1.N) (d) : (datB V c).before 0 t d = blkB V c 0 t :=
  heldB_0_of V (datB V c) (arrB V c 0) (afterB_0 V c) t d
theorem heldB_1 (c : Dev nD) (t : Fin cfg1.N) (d) : (datB V c).before 1 t d = blkB V c 1 t :=
  heldB_1_of V (datB V c) (arrB V c 1) (afterB_1 V c) t d
theorem heldB_2 (c : Dev nD) (t : Fin cfg1.N) (d) : (datB V c).before 2 t d = blkB V c 2 t :=
  heldB_2_of V (datB V c) (arrB V c 2) (afterB_2 V c) t d
theorem heldB_3 (c : Dev nD) (t : Fin cfg1.N) (d) : (datB V c).before 3 t d = blkB V c 3 t :=
  heldB_3_of V (datB V c) (arrB V c 3) (afterB_3 V c) t d

/-- What the body is called with at point `t`, window by window, -/
def bodyPreB (c : Dev nD) (t : Fin cfg1.N) : sProp 𝕄 :=
  iprop((datB V c).Φ t.castSucc ∗ (datB V c).owesAt () t.castSucc
    ∗ (∃ d, owns (c : Thread nD τ) (st1_0 t) fullShare ((datB V c).before 0 t d))
    ∗ (∃ d, owns (c : Thread nD τ) (st1_1 t) fullShare ((datB V c).before 1 t d))
    ∗ (∃ d, owns (c : Thread nD τ) (st1_2 t) fullShare ((datB V c).before 2 t d))
    ∗ (∃ d, owns (c : Thread nD τ) (st1_3 t) fullShare ((datB V c).before 3 t d))
    ∗ (∃ d, owns (c : Thread nD τ) (st1_4 t) fullShare ((datB V c).before 4 t d)))

/-- and what it returns. -/
def bodyPostB (c : Dev nD) (t : Fin cfg1.N) : sProp 𝕄 :=
  iprop((datB V c).Φ t.succ ∗ (datB V c).owesAt () t.succ
    ∗ owns (c : Thread nD τ) (st1_0 t) fullShare ((datB V c).after 0 t)
    ∗ owns (c : Thread nD τ) (st1_1 t) fullShare ((datB V c).after 1 t)
    ∗ owns (c : Thread nD τ) (st1_2 t) fullShare ((datB V c).after 2 t)
    ∗ owns (c : Thread nD τ) (st1_3 t) fullShare ((datB V c).after 3 t)
    ∗ owns (c : Thread nD τ) (st1_4 t) fullShare ((datB V c).after 4 t))

/-- The body at any point: the inputs' buffers hold their blocks, so `bodyB_runs` applies; the invariant and what the
    core owes pass through unread. -/
theorem bodyB_at (c : Dev nD) (t : Fin cfg1.N) :
    bodyPreB V c t ⊢ wp frame (wpE (defs₀ (F := F)) Variants.none c none) Set.univ (bodyAt1 t) (fun _ => bodyPostB V c t) := by
  unfold bodyPreB bodyPostB bodyAt1
  simp only [heldB_0, heldB_1, heldB_2, heldB_3]
  rw [show (datB V c).Φ t.succ = (datB V c).Φ t.castSucc from rfl,
    show (datB V c).owesAt () t.succ = (datB V c).owesAt () t.castSucc from rfl,
    afterB_0, afterB_1, afterB_2, afterB_3, afterB_4]
  iintro ⟨HΦ, Ho, ⟨%d0, H0⟩, ⟨%d1, H1⟩, ⟨%d2, H2⟩, ⟨%d3, H3⟩, ⟨%d4, H4⟩⟩
  iapply (bodyB_runs c Set.univ _ _ _ _ _ _ _ _ _ _ _ (blkB V c 0 t) (blkB V c 1 t) (blkB V c 2 t) (blkB V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem bodyB_obligation (c : Dev nD) : BodyObligation (datB (F := F) V c) (defs₀ (F := F)) Variants.none () Set.univ := fun t => by
  rw [bigSep_W1, bigSep_W1]
  exact bodyB_at V c t

end Cert.KernelIdeal.Attn

end
-- ==== Proof.KernelIdeal.Run.lean ====
/-
  The run of @main: three stretches of host operations around the two pallas_calls.

  The contents of every HBM buffer are followed from the launch to the return as a chain of six valuations: the launch
  memory; after the reshapes and the mask broadcast that prepare the first call's operands; after the first call, whose
  output array holds what its grid points wrote back and whose other arrays are untouched; after the slices, scalings
  and reshapes between the calls; after the second call; and after the final scaling, sum and concatenation. Each
  pallas_call is entered with the buffers at one valuation and left with them at the next, and every weakly fair
  execution of @main terminates with each HBM buffer at the last valuation. From that one statement follow both
  that the four argument arrays end as launched and what the result array holds.
-/
import proofs.«143526_j20564303413308_1_alg».proof.Proof.KernelIdeal.Body
import proofs.«143526_j20564303413308_1_alg».proof.Proof.Gen.KernelIdeal.Regions

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers at each boundary -/

/-- Core `c`'s buffers at launch. -/
abbrev W0 : Dev nD → Valuation τ sig (Elt F) := fun c b => (s₀ m ρ).mem ((c : Dev nD), b)
/-- After the first host stretch: the first call's operands are in place. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first call: its arrays at what the pipeline leaves, every other buffer as entered. -/
def W2 (c : Dev nD) : Valuation τ sig (Elt F) :=
  Pipeline.withArrays spec0 c (W1 m ρ c) fun w => (datA (V1 m ρ) c).arrAt w cfg0.N
theorem W2_arr (c : Dev nD) (w : Fin cfg0.W) :
    W2 m ρ c (Proc.devRef .tc (Pipeline.arrRef spec0 w)) = (datA (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem leftA (c : Dev nD) (w : Fin cfg0.W) : (datA (V1 m ρ) c).arrAt w cfg0.N = V2 m ρ c (Pipeline.arrRef spec0 w) :=
  (W2_arr m ρ c w).symm
theorem keptA (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: the second call's operands are in place. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second call. -/
def W4 (c : Dev nD) : Valuation τ sig (Elt F) :=
  Pipeline.withArrays spec1 c (W3 m ρ c) fun w => (datB (V3 m ρ) c).arrAt w cfg1.N
theorem W4_arr (c : Dev nD) (w : Fin cfg1.W) :
    W4 m ρ c (Proc.devRef .tc (Pipeline.arrRef spec1 w)) = (datB (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem leftB (c : Dev nD) (w : Fin cfg1.W) : (datB (V3 m ρ) c).arrAt w cfg1.N = V4 m ρ c (Pipeline.arrRef spec1 w) :=
  (W4_arr m ρ c w).symm
theorem keptB (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the return. -/
abbrev W5 : Dev nD → Valuation τ sig (Elt F) := fun c => StableHlo.after hostOps2 (W4 m ρ c)

/-! ## The arguments end as launched -/

/-- `main_arg0` ends as launched: no host operation writes it and it is no window's array. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

/-- `main_arg1` ends as launched: no host operation writes it and it is no window's array. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- `main_arg2` ends as launched: no host operation writes it and it is no window's array. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

/-- `main_arg3` ends as launched: no host operation writes it and it is no window's array. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ## The proof data of the two pipelines, and what rides beside the buffers -/

/-- Each pipeline's proof data at its own entry contents. -/
def pdats : (p : Fin 2) → (c : Dev nD) → Dat τ (Elt F) Unit ℕ (UR sig nD τ) ℕ (Pipeline.pin (pcfgs (F := F)) adm p) c
  | ⟨0, _⟩ => fun c => datA (V1 m ρ) c
  | ⟨1, _⟩ => fun c => datB (V3 m ρ) c
abbrev 𝒱₀ : Variants := Variants.none
abbrev L : GSem nD τ sig → Finset Unit := fun _ => ∅
abbrev lv : GSem nD τ sig → Unit → ℕ := fun _ _ => 0
/-- Beside the buffers through every segment: the core's generator register at some state, and the core owing nothing. -/
abbrev R (c : Dev nD) : sProp 𝕄 := iprop((∃ r, prngReg c r) ∗ ∃ W, owes (c : Thread nD τ) (0 : CellTallies nD τ sig Unit) W)
/-- A stretch of host operations as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tlast (c : Dev nD) : sProp 𝕄 := iprop(StableHlo.held (c : Thread nD τ) (Pipeline.ucRefs τ sig) (W5 m ρ c) ∗ ∃ r, prngReg c r)

/-- The last host stretch ends with the buffers at the last contents beside the register and what is owed: regrouped, the
    last thread state beside the core owing nothing. -/
theorem last_link (c : Dev nD) :
    (iprop(StableHlo.held (c : Thread nD τ) (Pipeline.ucRefs τ sig) (W5 m ρ c) ∗ R c) : sProp 𝕄)
      ⊢ iprop(Tlast m ρ c ∗ ∃ W, owes (c : Thread nD τ) (0 : CellTallies nD τ sig Unit) W) := by
  iintro ⟨Hh, Hp, Ho⟩
  isplitr [Ho]
  · isplitl [Hh]; · iexact Hh
    iexact Hp
  iexact Ho

/-! ## The two pallas_calls as segments -/

set_option backward.isDefEq.respectTransparency.types false in
/-- Region 0 as a segment of @main: entered with every unscoped buffer at `W1`, left with them at `W2`. Its five arrays are
    split out of the unscoped buffers on entry and put back at what the write-backs leave on exit; the generator
    register goes into the pipeline's invariant and comes out; nothing is owed. -/
def regA : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (bodyA_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (leftA m ρ c) (keptA m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main: entered with every unscoped buffer at `W3`, left with them at `W4`. Its five arrays are
    split out of the unscoped buffers on entry and put back at what the write-backs leave on exit; the generator
    register goes into the pipeline's invariant and comes out; nothing is owed. -/
def regB : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (bodyB_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (leftB m ρ c) (keptB m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its five segments, and the run -/

abbrev segs : List (Pipeline.Seg (pcfgs (F := F)) adm (pdats m ρ) () defs₀ 𝒱₀ L lv) :=
  [ .host (hostSeg hostOps0 hostOps0_sub hostOps0_fresh (W0 m ρ)),
    .region (regA m ρ),
    .host (hostSeg hostOps1 hostOps1_sub hostOps1_fresh (W2 m ρ)),
    .region (regB m ρ),
    .host (hostSeg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution of @main from `m` with zero counters terminates, nothing faulting, and every HBM buffer of
    every core ends at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tlast m ρ)
    (hch := ⟨fun _ => .rfl, fun _ => .rfl, fun _ => .rfl, fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

/-- The same run with the result array named: it ends at the last valuation's contents of `main_v26`. -/
theorem run_result : θ_run defs (onTc (τ := τ) (main (F := F))) ⟨m, fun _ => 0, ρ⟩ (fun r => ∀ c : Dev nD,
      r.2.mem ((c.tc : Thread nD τ).loc main_v26) = W5 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v26 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.KernelIdeal.Attn

end
-- ==== Proof.Spec.lean ====
/-
  What the program computes, as plain functions of the four argument arrays.

  One CHUNK of attention: 256 query rows against 256 key and value rows of width 64 and an additive mask of one entry
  per key.  Row `r`'s score against key `j` is (q r · k j) · ⅛ + mask j; the row's weights are exp (score − row
  maximum), the maximum taken from −∞; the output row is the weights, each divided by their sum, applied to the values.

  The FULL pass cuts the 4096 positions of every (batch, head) row into 16 chunks 256 n … 256 n + 255; the SHIFTED pass
  drops 128 positions at either end and cuts the remaining 3840 into 15 chunks, which sit at positions
  128 + 256 n … 128 + 256 n + 255 of the original sequence.  The result keeps the full pass on the first and the last
  128 positions and is the mean of the two passes in between.
-/
import Idealize.ShloMosaic.PureOps
import Idealize.ShloMosaic.PureOps.Ideal
import Idealize.ShloMosaic.Lib.ValueIdx

noncomputable section

namespace Cert.Spec

open Idealize.ShloMosaic Idealize.ShloMosaic.ValueIdx

/-! ## One chunk -/

/-- Row `r`'s score against key `j`: the inner product times the f32 word of ⅛, plus the mask's entry. -/
def score (q k : Fin 256 → Fin 64 → EReal) (msk : Fin 256 → EReal) (r j : Fin 256) : EReal :=
  (∑ e : Fin 64, q r e * k j e) * Ideal.ofBits .f32 0x3E000000#32 + msk j

/-- A row's maximum, folded from −∞ (and once more against −∞, as the softmax guards an empty row). -/
def rowMax (s : Fin 256 → EReal) : EReal :=
  max (Ideal.ofBits .f32 0xFF800000#32) ((Finset.univ : Finset (Fin 256)).fold max (Ideal.ofBits .f32 0xFF800000#32) s)

/-- A row's unnormalized weights. -/
def weight (s : Fin 256 → EReal) (j : Fin 256) : EReal := Ideal.exp (s j - rowMax s)

/-- The chunk's output at row `r`, column `d`. -/
def chunk (q k v : Fin 256 → Fin 64 → EReal) (msk : Fin 256 → EReal) (r : Fin 256) (d : Fin 64) : EReal :=
  ∑ j : Fin 256, Ideal.div (weight (score q k msk r) j) (∑ j' : Fin 256, weight (score q k msk r) j') * v j d

/-! ## The two passes -/

abbrev Seq : Shape := ⟨4, ![4, 12, 4096, 64]⟩
abbrev Mid : Shape := ⟨4, ![4, 12, 3840, 64]⟩
abbrev Edge : Shape := ⟨4, ![4, 12, 128, 64]⟩
abbrev Mask : Shape := ⟨4, ![4, 1, 1, 4096]⟩
abbrev Scalar0 : Shape := ⟨0, ![]⟩

/-- Position `r` of chunk `n` of the full pass. -/
def fullPos (n : Fin 16) (r : Fin 256) : Fin 4096 := ⟨256 * n.val + r.val, by omega⟩
/-- Position `r` of chunk `n` of the shifted pass, in the original sequence … -/
def shiftPos (n : Fin 15) (r : Fin 256) : Fin 4096 := ⟨128 + 256 * n.val + r.val, by omega⟩
/-- … and in the shortened one. -/
def midPos (n : Fin 15) (r : Fin 256) : Fin 3840 := ⟨256 * n.val + r.val, by omega⟩

/-- The full pass at (batch b, head h, chunk n, row r, column d). -/
def fullAt (q k v : Seq.Idx → EReal) (mask : Mask.Idx → EReal) (b : Fin 4) (h : Fin 12) (n : Fin 16) (r : Fin 256) (d : Fin 64) : EReal :=
  chunk (fun r' e => q (ix4 b h (fullPos n r') e)) (fun j e => k (ix4 b h (fullPos n j) e)) (fun j e => v (ix4 b h (fullPos n j) e))
    (fun j => mask (ix4 b (0 : Fin 1) (0 : Fin 1) (fullPos n j))) r d

/-- The shifted pass at (batch b, head h, chunk n, row r, column d). -/
def shiftAt (q k v : Seq.Idx → EReal) (mask : Mask.Idx → EReal) (b : Fin 4) (h : Fin 12) (n : Fin 15) (r : Fin 256) (d : Fin 64) : EReal :=
  chunk (fun r' e => q (ix4 b h (shiftPos n r') e)) (fun j e => k (ix4 b h (shiftPos n j) e)) (fun j e => v (ix4 b h (shiftPos n j) e))
    (fun j => mask (ix4 b (0 : Fin 1) (0 : Fin 1) (shiftPos n j))) r d

/-- Every position below 4096 is a row of a chunk of the full pass. -/
theorem exists_fullPos (s : Fin 4096) : ∃ (n : Fin 16) (r : Fin 256), s = fullPos n r :=
  ⟨⟨s.val / 256, by have := s.isLt; omega⟩, ⟨s.val % 256, Nat.mod_lt _ (by norm_num)⟩, Fin.ext (by show s.val = 256 * (s.val / 256) + s.val % 256; omega)⟩

/-- Every position below 3840 is a row of a chunk of the shifted pass. -/
theorem exists_midPos (s : Fin 3840) : ∃ (n : Fin 15) (r : Fin 256), s = midPos n r :=
  ⟨⟨s.val / 256, by have := s.isLt; omega⟩, ⟨s.val % 256, Nat.mod_lt _ (by norm_num)⟩, Fin.ext (by show s.val = 256 * (s.val / 256) + s.val % 256; omega)⟩

/-- The full pass as an array over [4, 12, 4096, 64]. -/
def full (q k v : Seq.Idx → EReal) (mask : Mask.Idx → EReal) : Seq.Idx → EReal := fun i =>
  fullAt q k v mask (i 0) (i 1) ⟨(i 2).val / 256, by have := (i 2).isLt; show (i 2).val / 256 < 16; have : (i 2).val < 4096 := (i 2).isLt; omega⟩
    ⟨(i 2).val % 256, Nat.mod_lt _ (by norm_num)⟩ (i 3)

/-- The shifted pass as an array over [4, 12, 3840, 64]. -/
def shifted (q k v : Seq.Idx → EReal) (mask : Mask.Idx → EReal) : Mid.Idx → EReal := fun i =>
  shiftAt q k v mask (i 0) (i 1) ⟨(i 2).val / 256, by show (i 2).val / 256 < 15; have : (i 2).val < 3840 := (i 2).isLt; omega⟩
    ⟨(i 2).val % 256, Nat.mod_lt _ (by norm_num)⟩ (i 3)

theorem full_apply (q k v : Seq.Idx → EReal) (mask : Mask.Idx → EReal) (b : Fin 4) (h : Fin 12) (n : Fin 16) (r : Fin 256) (d : Fin 64) :
    full q k v mask (ix4 b h (fullPos n r) d) = fullAt q k v mask b h n r d := by
  have hn : (⟨(fullPos n r).val / 256, by show (256 * n.val + r.val) / 256 < 16; have := n.isLt; have := r.isLt; omega⟩ : Fin 16) = n :=
    Fin.ext (by show (256 * n.val + r.val) / 256 = n.val; have := r.isLt; omega)
  have hr : (⟨(fullPos n r).val % 256, Nat.mod_lt _ (by norm_num)⟩ : Fin 256) = r :=
    Fin.ext (by show (256 * n.val + r.val) % 256 = r.val; have := r.isLt; omega)
  show fullAt q k v mask b h ⟨(fullPos n r).val / 256, _⟩ ⟨(fullPos n r).val % 256, _⟩ d = _
  rw [hn, hr]

theorem shifted_apply (q k v : Seq.Idx → EReal) (mask : Mask.Idx → EReal) (b : Fin 4) (h : Fin 12) (n : Fin 15) (r : Fin 256) (d : Fin 64) :
    shifted q k v mask (ix4 b h (midPos n r) d) = shiftAt q k v mask b h n r d := by
  have hn : (⟨(midPos n r).val / 256, by show (256 * n.val + r.val) / 256 < 15; have := n.isLt; have := r.isLt; omega⟩ : Fin 15) = n :=
    Fin.ext (by show (256 * n.val + r.val) / 256 = n.val; have := r.isLt; omega)
  have hr : (⟨(midPos n r).val % 256, Nat.mod_lt _ (by norm_num)⟩ : Fin 256) = r :=
    Fin.ext (by show (256 * n.val + r.val) % 256 = r.val; have := r.isLt; omega)
  show shiftAt q k v mask b h ⟨(midPos n r).val / 256, _⟩ ⟨(midPos n r).val % 256, _⟩ d = _
  rw [hn, hr]

/-- An array over [4, 12, 4096, 64] is the full pass as soon as it is at every (b, h, chunk, row, column). -/
theorem eq_full (q k v : Seq.Idx → EReal) (mask : Mask.Idx → EReal) (X : Seq.Idx → EReal)
    (hX : ∀ b h n r d, X (ix4 b h (fullPos n r) d) = fullAt q k v mask b h n r d) : X = full q k v mask := by
  funext i
  obtain ⟨n, r, hs⟩ := exists_fullPos (i 2)
  have hi : i = ix4 (i 0 : Fin 4) (i 1 : Fin 12) (fullPos n r) (i 3 : Fin 64) :=
    (eq_ix4 i).trans (congrArg (fun s : Fin 4096 => ix4 (i 0 : Fin 4) (i 1 : Fin 12) s (i 3 : Fin 64)) hs)
  exact (congrArg X hi).trans ((hX _ _ n r _).trans ((full_apply q k v mask _ _ n r _).symm.trans (congrArg (full q k v mask) hi.symm)))

/-- An array over [4, 12, 3840, 64] is the shifted pass as soon as it is at every (b, h, chunk, row, column). -/
theorem eq_shifted (q k v : Seq.Idx → EReal) (mask : Mask.Idx → EReal) (X : Mid.Idx → EReal)
    (hX : ∀ b h n r d, X (ix4 b h (midPos n r) d) = shiftAt q k v mask b h n r d) : X = shifted q k v mask := by
  funext i
  obtain ⟨n, r, hs⟩ := exists_midPos (i 2)
  have hi : i = ix4 (i 0 : Fin 4) (i 1 : Fin 12) (midPos n r) (i 3 : Fin 64) :=
    (eq_ix4 i).trans (congrArg (fun s : Fin 3840 => ix4 (i 0 : Fin 4) (i 1 : Fin 12) s (i 3 : Fin 64)) hs)
  exact (congrArg X hi).trans ((hX _ _ n r _).trans ((shifted_apply q k v mask _ _ n r _).symm.trans (congrArg (shifted q k v mask) hi.symm)))

/-! ## The result -/

theorem edge_lo : Seq.Slices ![0, 0, 0, 0] Edge := by decide
theorem edge_hi : Seq.Slices ![0, 0, 3968, 0] Edge := by decide
theorem middle : Seq.Slices ![0, 0, 128, 0] Mid := by decide
theorem splat : Scalar0.BroadcastsInDim Mid (![] : Fin 0 → Fin Mid.rank) := by decide
theorem joined : Shape.Concatenates [Edge, Mid, Edge] Seq 2 := by decide

/-- From the full pass `A` and the shifted pass `B`: the first 128 positions of `A`, then ½ · (the middle 3840 of `A`) +
    ½ · `B`, then the last 128 positions of `A`, joined along the sequence axis. -/
def assemble (A : FVec Ideal Seq .f32) (B : FVec Ideal Mid .f32) : FVec Ideal Seq .f32 :=
  concatenate Seq 2
    [⟨Edge, extractStridedSlice Edge ![0, 0, 0, 0] A edge_lo⟩,
     ⟨Mid, addf (mulf (broadcastInDim Mid ![] splat (constant (F := Ideal) Scalar0 .f32 0x3F000000#32)) (extractStridedSlice Mid ![0, 0, 128, 0] A middle))
              (mulf (broadcastInDim Mid ![] splat (constant (F := Ideal) Scalar0 .f32 0x3F000000#32)) B)⟩,
     ⟨Edge, extractStridedSlice Edge ![0, 0, 3968, 0] A edge_hi⟩] joined

/-- The program's result, of the four argument arrays. -/
def result (q k v : FVec Ideal Seq .f32) (mask : FVec Ideal Mask .f32) : FVec Ideal Seq .f32 :=
  assemble (full q k v mask) (shifted q k v mask)

end Cert.Spec

end
-- ==== Proof.LibReduceLast.lean ====
/-
  Reductions over the last of three axes, in coordinates.

  Reducing a three-axis array over its last axis leaves a two-axis index (p, q); the source indices that reduce to it
  are (p, q, k) for k along the reduced axis.  So at the ideal values a sum over the last axis is the finite sum of the
  entries (p, q, k) over k, and a maximum over the last axis is the fold of `max` over the same entries from the
  accumulator's value.
-/
import Idealize.ShloMosaic.Lib.ValueIdx
import Idealize.ShloMosaic.PureOps.Reduce
import Idealize.ShloMosaic.PureOps.Ideal.Laws

noncomputable section

namespace Cert.Layer

open Idealize.ShloMosaic Idealize.ShloMosaic.ValueIdx

/-- The reduced index (p, q) with coordinate k put back on the last axis is (p, q, k). -/
theorem lift_last {a b n : ℕ} (h : (⟨3, ![a, b, n]⟩ : Shape).Reduces [2] (⟨2, ![a, b]⟩ : Shape)) (p : Fin a) (q : Fin b)
    (k : Fin ((⟨3, ![a, b, n]⟩ : Shape).size 2)) : h.lift (ix2 p q) k = ix3 p q (⟨k.val, k.isLt⟩ : Fin n) := by
  funext c; apply Fin.ext
  match c with
  | ⟨0, _⟩ => rfl
  | ⟨1, _⟩ => rfl
  | ⟨2, _⟩ => rfl

/-- A lane sum from the zero word, at (p, q): the sum over k of the entries (p, q, k). -/
theorem sumLast_apply {a b n : ℕ} (src : FVec Ideal (⟨3, ![a, b, n]⟩ : Shape) .f32)
    (h : (⟨3, ![a, b, n]⟩ : Shape).Reduces [2] (⟨2, ![a, b]⟩ : Shape)) (hφ : FKind.Formats .f32)
    (hacc : (0x00000000#32 : BitVec 32) = 0x00000000#32) (p : Fin a) (q : Fin b) :
    multiReduction .add [2] (⟨2, ![a, b]⟩ : Shape) src 0x00000000#32 h hφ hacc (ix2 p q) = ∑ k : Fin n, src (ix3 p q k) :=
  (Ideal.multiReduction_add_single src 0x00000000#32 h hφ hacc (ix2 p q)).trans
    (Finset.sum_congr rfl fun k _ => congrArg src (lift_last h p q k))

/-- A lane maximum from minus infinity, at (p, q): the fold of `max` over k of the entries (p, q, k). -/
theorem maxLast_apply {a b n : ℕ} (src : FVec Ideal (⟨3, ![a, b, n]⟩ : Shape) .f32)
    (h : (⟨3, ![a, b, n]⟩ : Shape).Reduces [2] (⟨2, ![a, b]⟩ : Shape)) (hφ : FKind.Formats .f32)
    (hacc : (0xFF800000#32 : BitVec 32) = 0xFF800000#32) (p : Fin a) (q : Fin b) :
    multiReduction .maximumf [2] (⟨2, ![a, b]⟩ : Shape) src 0xFF800000#32 h hφ hacc (ix2 p q)
      = (Finset.univ : Finset (Fin n)).fold max (Ideal.ofBits .f32 0xFF800000#32) (fun k => src (ix3 p q k)) :=
  (Ideal.multiReduction_maximumf_single src 0xFF800000#32 h hφ hacc (ix2 p q)).trans
    (congrArg (fun f => Finset.fold max (Ideal.ofBits .f32 0xFF800000#32) f Finset.univ)
      (funext fun k => congrArg src (lift_last h p q k)))

end Cert.Layer

end
-- ==== Proof.LibTrailingUnit.lean ====
/-
  Two layout steps read at an index, for a matrix carried as a column of its entries along a new last axis.

  A `[a, b]` matrix viewed as `[a, b, 1]` (a trailing unit axis) has the same row-major order, so its entry
  `(p, q, 0)` is the matrix's entry `(p, q)`.  Broadcasting `[a, b, 1]` along the last axis to `[a, b, n]` repeats
  each entry `n` times: the result's entry `(p, q, k)` is the operand's entry `(p, q, 0)` for every `k`.  Together
  they read `x[:, :, None]` broadcast against a last axis of extent `n` as `x(p, q)` at `(p, q, k)`.
-/
import Idealize.ShloMosaic.Lib.ValueIdx
import Idealize.ShloMosaic.Lib.Pipeline.Value

noncomputable section

namespace Cert.Lib.TrailingUnit

open Idealize.ShloMosaic Idealize.ShloMosaic.ValueIdx

variable {α : Type}

/-- A matrix viewed with a trailing unit axis reads `(p, q, 0)` at `(p, q)`: both indices have row-major position
    `p · b + q`. -/
theorem shapeCast_trailingUnit_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h (ix3 p q z) (ix2 p q) ?_
  rw [Shape.rowMajor_val_two, Shape.rowMajor_val_three]
  show p.val * b + q.val = (p.val * b + q.val) * 1 + z.val
  have hz : z.val = 0 := by have := z.isLt; omega
  omega

/-- A column `[a, b, 1]` broadcast along its last axis to `[a, b, n]` reads `(p, q, k)` at `(p, q, 0)`: the
    first two coordinates are kept (an axis of extent 1 only has the coordinate 0), the last is the unit axis's 0. -/
theorem broadcastTo_lastAxis_apply {a b n : ℕ} (x : (⟨3, ![a, b, 1]⟩ : Shape).Idx → α)
    (h : (⟨3, ![a, b, 1]⟩ : Shape).Broadcasts ⟨3, ![a, b, n]⟩) (p : Fin a) (q : Fin b) (k : Fin n) :
    broadcastTo ⟨3, ![a, b, n]⟩ x h (ix3 p q k) = x (ix3 p q (0 : Fin 1)) := by
  refine broadcastTo_apply x h (ix3 p q k) (ix3 p q (0 : Fin 1)) ?_
  intro d
  match d with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show 0 = if (1 : ℕ) = 1 then 0 else k.val
    rw [if_pos rfl]

end Cert.Lib.TrailingUnit

end
-- ==== Proof.KernelIdeal.Payload.lean ====
/-
  The kernel body's arithmetic, read at one index.

  The body of either call is one pure term of its four loaded blocks: queries, keys and values of shape [8, 256, 64] and
  an additive mask of shape [8, 1, 256], the leading axis being the (batch, head) rows the block carries.  At the ideal
  values the narrowing to bf16 and the casts to the same shape are the identity, so at (g, r, d) the term is

    scores   s(r, j) = (∑ e, q(g, r, e) · k(g, j, e)) · ⅛ + mask(g, 0, j)
    maximum  m(r)    = max (−∞) (the fold of max over j of s(r, j), from −∞)
    weights  w(r, j) = exp (s(r, j) − m(r))
    result           = ∑ j, (w(r, j) / ∑ j', w(r, j')) · v(g, j, d)

  which is the specification's `chunk` of row g of the four blocks.  Each step is read at an index by one small lemma
  over variables: the two batched products (a sum over the one contracted axis), the mask's broadcast over the rows, the
  two reductions over the last axis, and the column [8, 256] → [8, 256, 1] → [8, 256, 256] that carries a row's maximum
  and a row's sum back against the scores.
-/
import proofs.«143526_j20564303413308_1_alg».proof.Proof.Gen.KernelIdeal.Skeleton
import proofs.«143526_j20564303413308_1_alg».proof.Proof.Spec
import proofs.«143526_j20564303413308_1_alg».proof.Proof.LibReduceLast
import proofs.«143526_j20564303413308_1_alg».proof.Proof.LibTrailingUnit
import Idealize.ShloMosaic.Lib.ValueIdx
import Idealize.ShloMosaic.Lib.Pipeline.Value
import Idealize.ShloMosaic.PureOps.Ideal.Laws

noncomputable section

namespace Cert.KernelIdeal.Payload

open Idealize.ShloMosaic Idealize.ShloMosaic.ValueIdx
open Cert.KernelIdeal

/-! ## The two batched products -/

/-- The dimension numbers of q·kᵀ: batch axis 0 of both operands, axis 2 of both contracted. -/
abbrev dQK : DotDims S8x256x64 S8x256x64 S8x256x256 := dot_S8x256x64_S8x256x64_S8x256x256_2_2_1_1_0_0
/-- The dimension numbers of p·v: batch axis 0 of both operands, axis 2 of the left against axis 1 of the right. -/
abbrev dPV : DotDims S8x256x256 S8x256x64 S8x256x64 := dot_S8x256x256_S8x256x64_S8x256x64_2_1_1_2_0_0

/-- The operand indices of q·kᵀ, axis by axis: the batch axis reads the result's axis 0, the rows the result's axis 1
    (left) or 2 (right), the contracted axis the contraction coordinate. -/
theorem qk_lhs_0 (i : S8x256x256.Idx) (q : dQK.contr.Idx) : (dQK.lhsIdx i q 0).val = (i 0).val := by
  unfold DotDims.lhsIdx
  rw [dif_pos (show (0 : Fin S8x256x64.rank) ∈ dQK.lhsBatch by decide)]
  rfl
theorem qk_lhs_1 (i : S8x256x256.Idx) (q : dQK.contr.Idx) : (dQK.lhsIdx i q 1).val = (i 1).val := by
  unfold DotDims.lhsIdx
  rw [dif_neg (show ¬(1 : Fin S8x256x64.rank) ∈ dQK.lhsBatch by decide),
    dif_pos (show (1 : Fin S8x256x64.rank) ∈ dQK.lhsNonContracting by decide)]
  rfl
theorem qk_lhs_2 (i : S8x256x256.Idx) (q : dQK.contr.Idx) : (dQK.lhsIdx i q 2).val = (q ⟨0, by decide⟩).val :=
  dQK.lhsIdx_val_of_single rfl i q
theorem qk_rhs_0 (i : S8x256x256.Idx) (q : dQK.contr.Idx) : (dQK.rhsIdx i q 0).val = (i 0).val := by
  unfold DotDims.rhsIdx
  rw [dif_pos (show (0 : Fin S8x256x64.rank) ∈ dQK.rhsBatch by decide)]
  rfl
theorem qk_rhs_1 (i : S8x256x256.Idx) (q : dQK.contr.Idx) : (dQK.rhsIdx i q 1).val = (i 2).val := by
  unfold DotDims.rhsIdx
  rw [dif_neg (show ¬(1 : Fin S8x256x64.rank) ∈ dQK.rhsBatch by decide),
    dif_pos (show (1 : Fin S8x256x64.rank) ∈ dQK.rhsNonContracting by decide)]
  rfl
theorem qk_rhs_2 (i : S8x256x256.Idx) (q : dQK.contr.Idx) : (dQK.rhsIdx i q 2).val = (q ⟨0, by decide⟩).val :=
  dQK.rhsIdx_val_of_single rfl i q

/-- The left operand of q·kᵀ at result index (g, r, j) and contraction coordinate e is read at (g, r, e). -/
theorem qk_lhsIdx (g : Fin 8) (r j : Fin 256) (e : Fin 64) :
    dQK.lhsIdx (ix3 g r j) ((contrEquiv1 dQK 64 rfl rfl).symm e) = ix3 g r e :=
  funext fun a => Fin.ext (by
    match a with
    | ⟨0, _⟩ => exact qk_lhs_0 _ _
    | ⟨1, _⟩ => exact qk_lhs_1 _ _
    | ⟨2, _⟩ => exact (qk_lhs_2 _ _).trans (contrEquiv1_symm_val dQK 64 rfl rfl e))

/-- The right operand of q·kᵀ at result index (g, r, j) and contraction coordinate e is read at (g, j, e). -/
theorem qk_rhsIdx (g : Fin 8) (r j : Fin 256) (e : Fin 64) :
    dQK.rhsIdx (ix3 g r j) ((contrEquiv1 dQK 64 rfl rfl).symm e) = ix3 g j e :=
  funext fun a => Fin.ext (by
    match a with
    | ⟨0, _⟩ => exact qk_rhs_0 _ _
    | ⟨1, _⟩ => exact qk_rhs_1 _ _
    | ⟨2, _⟩ => exact (qk_rhs_2 _ _).trans (contrEquiv1_symm_val dQK 64 rfl rfl e))

/-- q·kᵀ into the zero splat, at (g, r, j): the inner product of query row r and key row j of row g. -/
theorem qk_apply {φ₁ φ₂ : FTy} (a : FVec Ideal S8x256x64 φ₁) (b : FVec Ideal S8x256x64 φ₂) (g : Fin 8) (r j : Fin 256) :
    matmul dQK none a b (constant S8x256x256 .f32 0x00000000#32) (ix3 g r j) = ∑ e : Fin 64, a (ix3 g r e) * b (ix3 g j e) := by
  refine (Ideal.matmul_constant_zero_apply dQK none a b (ix3 g r j)).trans ?_
  rw [← Equiv.sum_comp (contrEquiv1 dQK 64 rfl rfl).symm]
  refine Finset.sum_congr rfl fun e _ => ?_
  rw [qk_lhsIdx, qk_rhsIdx]

/-- The operand indices of p·v, axis by axis. -/
theorem pv_lhs_0 (i : S8x256x64.Idx) (q : dPV.contr.Idx) : (dPV.lhsIdx i q 0).val = (i 0).val := by
  unfold DotDims.lhsIdx
  rw [dif_pos (show (0 : Fin S8x256x256.rank) ∈ dPV.lhsBatch by decide)]
  rfl
theorem pv_lhs_1 (i : S8x256x64.Idx) (q : dPV.contr.Idx) : (dPV.lhsIdx i q 1).val = (i 1).val := by
  unfold DotDims.lhsIdx
  rw [dif_neg (show ¬(1 : Fin S8x256x256.rank) ∈ dPV.lhsBatch by decide),
    dif_pos (show (1 : Fin S8x256x256.rank) ∈ dPV.lhsNonContracting by decide)]
  rfl
theorem pv_lhs_2 (i : S8x256x64.Idx) (q : dPV.contr.Idx) : (dPV.lhsIdx i q 2).val = (q ⟨0, by decide⟩).val :=
  dPV.lhsIdx_val_of_single rfl i q
theorem pv_rhs_0 (i : S8x256x64.Idx) (q : dPV.contr.Idx) : (dPV.rhsIdx i q 0).val = (i 0).val := by
  unfold DotDims.rhsIdx
  rw [dif_pos (show (0 : Fin S8x256x64.rank) ∈ dPV.rhsBatch by decide)]
  rfl
theorem pv_rhs_1 (i : S8x256x64.Idx) (q : dPV.contr.Idx) : (dPV.rhsIdx i q 1).val = (q ⟨0, by decide⟩).val :=
  dPV.rhsIdx_val_of_single rfl i q
theorem pv_rhs_2 (i : S8x256x64.Idx) (q : dPV.contr.Idx) : (dPV.rhsIdx i q 2).val = (i 2).val := by
  unfold DotDims.rhsIdx
  rw [dif_neg (show ¬(2 : Fin S8x256x64.rank) ∈ dPV.rhsBatch by decide),
    dif_pos (show (2 : Fin S8x256x64.rank) ∈ dPV.rhsNonContracting by decide)]
  rfl

/-- The left operand of p·v at result index (g, r, d) and contraction coordinate j is read at (g, r, j). -/
theorem pv_lhsIdx (g : Fin 8) (r : Fin 256) (d : Fin 64) (j : Fin 256) :
    dPV.lhsIdx (ix3 g r d) ((contrEquiv1 dPV 256 rfl rfl).symm j) = ix3 g r j :=
  funext fun a => Fin.ext (by
    match a with
    | ⟨0, _⟩ => exact pv_lhs_0 _ _
    | ⟨1, _⟩ => exact pv_lhs_1 _ _
    | ⟨2, _⟩ => exact (pv_lhs_2 _ _).trans (contrEquiv1_symm_val dPV 256 rfl rfl j))

/-- The right operand of p·v at result index (g, r, d) and contraction coordinate j is read at (g, j, d). -/
theorem pv_rhsIdx (g : Fin 8) (r : Fin 256) (d : Fin 64) (j : Fin 256) :
    dPV.rhsIdx (ix3 g r d) ((contrEquiv1 dPV 256 rfl rfl).symm j) = ix3 g j d :=
  funext fun a => Fin.ext (by
    match a with
    | ⟨0, _⟩ => exact pv_rhs_0 _ _
    | ⟨1, _⟩ => exact (pv_rhs_1 _ _).trans (contrEquiv1_symm_val dPV 256 rfl rfl j)
    | ⟨2, _⟩ => exact pv_rhs_2 _ _)

/-- p·v into the zero splat, at (g, r, d): row r of p against column d of v, of row g. -/
theorem pv_apply {φ₁ φ₂ : FTy} (p : FVec Ideal S8x256x256 φ₁) (v : FVec Ideal S8x256x64 φ₂) (g : Fin 8) (r : Fin 256) (d : Fin 64) :
    matmul dPV none p v (constant S8x256x64 .f32 0x00000000#32) (ix3 g r d) = ∑ j : Fin 256, p (ix3 g r j) * v (ix3 g j d) := by
  refine (Ideal.matmul_constant_zero_apply dPV none p v (ix3 g r d)).trans ?_
  rw [← Equiv.sum_comp (contrEquiv1 dPV 256 rfl rfl).symm]
  refine Finset.sum_congr rfl fun j _ => ?_
  rw [pv_lhsIdx, pv_rhsIdx]

/-! ## The layout steps -/

/-- The mask block [8, 1, 256] broadcast over the 256 rows: (g, r, j) reads (g, 0, j). -/
theorem maskRows_apply {α : Type} (m : S8x1x256.Idx → α) (h : S8x1x256.Broadcasts S8x256x256) (g : Fin 8) (r j : Fin 256) :
    broadcastTo S8x256x256 m h (ix3 g r j) = m (ix3 g (0 : Fin 1) j) := by
  refine broadcastTo_apply m h (ix3 g r j) (ix3 g (0 : Fin 1) j) ?_
  intro d
  match d with
  | ⟨0, _⟩ =>
    show g.val = if (8 : ℕ) = 1 then 0 else g.val
    rw [if_neg (by decide)]
  | ⟨1, _⟩ =>
    show 0 = if (1 : ℕ) = 1 then 0 else r.val
    rw [if_pos rfl]
  | ⟨2, _⟩ =>
    show j.val = if (256 : ℕ) = 1 then 0 else j.val
    rw [if_neg (by decide)]

/-- A per-row quantity [8, 256] carried back against the scores — viewed [8, 256, 1], then broadcast along the last
    axis to [8, 256, 256] — reads (g, r) at every (g, r, j). -/
theorem column_apply {α : Type} (v : S8x256.Idx → α) (hc : S8x256.ShapeCasts S8x256x1) (hb : S8x256x1.Broadcasts S8x256x256)
    (g : Fin 8) (r j : Fin 256) :
    broadcastTo S8x256x256 (shapeCast S8x256x1 v hc) hb (ix3 g r j) = v (ix2 g r) :=
  (Cert.Lib.TrailingUnit.broadcastTo_lastAxis_apply (shapeCast S8x256x1 v hc) hb g r j).trans
    (Cert.Lib.TrailingUnit.shapeCast_trailingUnit_apply v hc g r (0 : Fin 1))

/-! ## The body, step by step -/

/-- The scores: q·kᵀ of the narrowed blocks, times the word of ⅛, plus the mask broadcast over the rows. -/
def scores (x0 x1 : Vec Ideal S8x256x64 .f32) (x3 : Vec Ideal S8x1x256 .f32) : FVec Ideal S8x256x256 .f32 :=
  addf
    (mulf
      (matmul dQK none (truncf .bf16 (shapeCast S8x256x64 x0 Gen.shapeCasts_S8x256x64_S8x256x64) Gen.bitsLt_bf16_f32)
        (truncf .bf16 (shapeCast S8x256x64 x1 Gen.shapeCasts_S8x256x64_S8x256x64) Gen.bitsLt_bf16_f32)
        (constant S8x256x256 .f32 0x00000000#32))
      (broadcast S8x256x256 (Scalar.ofBits .f32 0x3E000000#32)))
    (broadcastTo S8x256x256 (shapeCast S8x1x256 x3 Gen.shapeCasts_S8x1x256_S8x1x256) Gen.broadcasts_S8x1x256_S8x256x256)

/-- A row's maximum over the last axis from −∞, once more against the −∞ splat. -/
def rowMaxes (s : FVec Ideal S8x256x256 .f32) : FVec Ideal S8x256 .f32 :=
  maximumf (broadcast S8x256 (Scalar.ofBits .f32 0xFF800000#32))
    (multiReduction .maximumf [2] S8x256 s 0xFF800000#32 Gen.reduces_S8x256x256_S8x256 (.inl rfl) rfl)

/-- A per-row quantity against the scores' shape. -/
def column (v : FVec Ideal S8x256 .f32) : FVec Ideal S8x256x256 .f32 :=
  broadcastTo S8x256x256 (shapeCast S8x256x1 v Gen.shapeCasts_S8x256_S8x256x1) Gen.broadcasts_S8x256x1_S8x256x256

/-- The unnormalized weights: exp (score − row maximum). -/
def weights (s : FVec Ideal S8x256x256 .f32) : FVec Ideal S8x256x256 .f32 :=
  exp (subf s (column (rowMaxes s)))

/-- A row's sum over the last axis from the zero word. -/
def rowSums (w : FVec Ideal S8x256x256 .f32) : FVec Ideal S8x256 .f32 :=
  multiReduction .add [2] S8x256 w 0x00000000#32 Gen.reduces_S8x256x256_S8x256 (.inl rfl) rfl

/-- The weights, each divided by its row's sum. -/
def probs (w : FVec Ideal S8x256x256 .f32) : FVec Ideal S8x256x256 .f32 :=
  divf w (column (rowSums w))

/-- The narrowed weights applied to the narrowed value block. -/
def applied (p : FVec Ideal S8x256x256 .f32) (x2 : Vec Ideal S8x256x64 .f32) : FVec Ideal S8x256x64 .f32 :=
  matmul dPV none (truncf .bf16 p Gen.bitsLt_bf16_f32)
    (truncf .bf16 (shapeCast S8x256x64 x2 Gen.shapeCasts_S8x256x64_S8x256x64) Gen.bitsLt_bf16_f32)
    (constant S8x256x64 .f32 0x00000000#32)

/-- The first call's body is these steps composed. -/
theorem payA_eq (x0 x1 x2 : Vec Ideal S8x256x64 .f32) (x3 : Vec Ideal S8x1x256 .f32) :
    Gen.k0_pay1 (F := Ideal) x0 x1 x2 x3 = applied (probs (weights (scores x0 x1 x3))) x2 := rfl

/-- The second call's body is the same steps composed. -/
theorem payB_eq (x0 x1 x2 : Vec Ideal S8x256x64 .f32) (x3 : Vec Ideal S8x1x256 .f32) :
    Gen.k1_pay1 (F := Ideal) x0 x1 x2 x3 = applied (probs (weights (scores x0 x1 x3))) x2 := rfl

/-! ## Each step at an index -/

/-- The scores at (g, r, j): row r's score against key j, of row g of the blocks. -/
theorem scores_apply (x0 x1 : Vec Ideal S8x256x64 .f32) (x3 : Vec Ideal S8x1x256 .f32) (g : Fin 8) (r j : Fin 256) :
    scores x0 x1 x3 (ix3 g r j)
      = Cert.Spec.score (fun r' e => x0 (ix3 g r' e)) (fun j' e => x1 (ix3 g j' e)) (fun j' => x3 (ix3 g (0 : Fin 1) j')) r j := by
  show matmul dQK none _ _ _ (ix3 g r j) * Ideal.ofBits .f32 0x3E000000#32 + broadcastTo S8x256x256 _ _ (ix3 g r j) = _
  rw [qk_apply, maskRows_apply, shapeCast_self, shapeCast_self, shapeCast_self]
  rfl

/-- The row maxima at (g, r): the specification's guarded maximum of row r of the scores. -/
theorem rowMaxes_apply (s : FVec Ideal S8x256x256 .f32) (g : Fin 8) (r : Fin 256) :
    rowMaxes s (ix2 g r) = Cert.Spec.rowMax (fun j => s (ix3 g r j)) :=
  congrArg (max (Ideal.ofBits .f32 0xFF800000#32))
    (Cert.Layer.maxLast_apply s Gen.reduces_S8x256x256_S8x256 (.inl rfl) rfl g r)

/-- The weights at (g, r, j): the specification's weight j of row r of the scores. -/
theorem weights_apply (s : FVec Ideal S8x256x256 .f32) (g : Fin 8) (r j : Fin 256) :
    weights s (ix3 g r j) = Cert.Spec.weight (fun j' => s (ix3 g r j')) j := by
  show Ideal.exp (s (ix3 g r j) - column (rowMaxes s) (ix3 g r j)) = Ideal.exp (s (ix3 g r j) - Cert.Spec.rowMax fun j' => s (ix3 g r j'))
  unfold column
  rw [column_apply, rowMaxes_apply]

/-- The row sums at (g, r): the sum of row r. -/
theorem rowSums_apply (w : FVec Ideal S8x256x256 .f32) (g : Fin 8) (r : Fin 256) :
    rowSums w (ix2 g r) = ∑ j : Fin 256, w (ix3 g r j) :=
  Cert.Layer.sumLast_apply w Gen.reduces_S8x256x256_S8x256 (.inl rfl) rfl g r

/-- The normalized weights at (g, r, j): the weight over its row's sum. -/
theorem probs_apply (w : FVec Ideal S8x256x256 .f32) (g : Fin 8) (r j : Fin 256) :
    probs w (ix3 g r j) = Ideal.div (w (ix3 g r j)) (∑ j' : Fin 256, w (ix3 g r j')) := by
  show Ideal.div (w (ix3 g r j)) (column (rowSums w) (ix3 g r j)) = _
  unfold column
  rw [column_apply, rowSums_apply]

/-- The result at (g, r, d): row r of the normalized weights against column d of the values, of row g. -/
theorem applied_apply (p : FVec Ideal S8x256x256 .f32) (x2 : Vec Ideal S8x256x64 .f32) (g : Fin 8) (r : Fin 256) (d : Fin 64) :
    applied p x2 (ix3 g r d) = ∑ j : Fin 256, p (ix3 g r j) * x2 (ix3 g j d) := by
  unfold applied
  rw [pv_apply, shapeCast_self]
  rfl

/-! ## The body at an index -/

/-- The composed steps at (g, r, d): the specification's chunk of row g of the four blocks. -/
theorem steps_apply (x0 x1 x2 : Vec Ideal S8x256x64 .f32) (x3 : Vec Ideal S8x1x256 .f32) (g : Fin 8) (r : Fin 256) (d : Fin 64) :
    applied (probs (weights (scores x0 x1 x3))) x2 (ix3 g r d)
      = Cert.Spec.chunk (fun r' e => x0 (ix3 g r' e)) (fun j e => x1 (ix3 g j e)) (fun j e => x2 (ix3 g j e))
          (fun j => x3 (ix3 g (0 : Fin 1) j)) r d := by
  have hs : (fun j' => scores x0 x1 x3 (ix3 g r j'))
      = Cert.Spec.score (fun r' e => x0 (ix3 g r' e)) (fun j e => x1 (ix3 g j e)) (fun j => x3 (ix3 g (0 : Fin 1) j)) r :=
    funext fun j' => scores_apply x0 x1 x3 g r j'
  have hw : ∀ j : Fin 256, weights (scores x0 x1 x3) (ix3 g r j)
      = Cert.Spec.weight (Cert.Spec.score (fun r' e => x0 (ix3 g r' e)) (fun j e => x1 (ix3 g j e)) (fun j => x3 (ix3 g (0 : Fin 1) j)) r) j :=
    fun j => (weights_apply (scores x0 x1 x3) g r j).trans (congrArg (fun s => Cert.Spec.weight s j) hs)
  refine (applied_apply _ x2 g r d).trans ?_
  unfold Cert.Spec.chunk
  refine Finset.sum_congr rfl fun j _ => ?_
  rw [probs_apply, hw j, Finset.sum_congr rfl fun j' _ => hw j']

theorem payA_apply (x0 x1 x2 : Vec Ideal Cert.KernelIdeal.S8x256x64 .f32) (x3 : Vec Ideal Cert.KernelIdeal.S8x1x256 .f32) (g : Fin 8) (r : Fin 256) (d : Fin 64) :
    Cert.KernelIdeal.Gen.k0_pay1 (F := Ideal) x0 x1 x2 x3 (ix3 g r d)
      = Cert.Spec.chunk (fun r' e => x0 (ix3 g r' e)) (fun j e => x1 (ix3 g j e)) (fun j e => x2 (ix3 g j e)) (fun j => x3 (ix3 g (0 : Fin 1) j)) r d :=
  (congrFun (payA_eq x0 x1 x2 x3) (ix3 g r d)).trans (steps_apply x0 x1 x2 x3 g r d)

theorem payB_apply (x0 x1 x2 : Vec Ideal Cert.KernelIdeal.S8x256x64 .f32) (x3 : Vec Ideal Cert.KernelIdeal.S8x1x256 .f32) (g : Fin 8) (r : Fin 256) (d : Fin 64) :
    Cert.KernelIdeal.Gen.k1_pay1 (F := Ideal) x0 x1 x2 x3 (ix3 g r d)
      = Cert.Spec.chunk (fun r' e => x0 (ix3 g r' e)) (fun j e => x1 (ix3 g j e)) (fun j e => x2 (ix3 g j e)) (fun j => x3 (ix3 g (0 : Fin 1) j)) r d :=
  (congrFun (payB_eq x0 x1 x2 x3) (ix3 g r d)).trans (steps_apply x0 x1 x2 x3 g r d)

end Cert.KernelIdeal.Payload

end
-- ==== Proof.KernelIdeal.Arrays.lean ====
/-
  What the two pallas_calls leave in their output arrays, at the ideal values.

  A call's output array [48, S, 64] is tiled by the grid's output blocks: row-block g (rows 8g … 8g+7) by chunk n
  (positions 256n … 256n+255). Grid point (g, n) writes into that block the body's payload of its four input blocks,
  which are the same rows and positions of the query, key and value arrays and, for the mask, rows 8g … 8g+7 and
  positions 256n … 256n+255 of the [48, 1, S] mask array. Entry (g', r, d) of the payload is the chunk attention of row
  8g + g' — so the whole output array is ONE function of the four operand arrays: at (row, position, column) the chunk
  attention of that row on the chunk the position lies in. The blocks cover the array, so after the call the array is
  that function.
-/
import proofs.«143526_j20564303413308_1_alg».proof.Proof.KernelIdeal.Run
import proofs.«143526_j20564303413308_1_alg».proof.Proof.KernelIdeal.Payload
import proofs.«143526_j20564303413308_1_alg».proof.Proof.Spec
import Idealize.ShloMosaic.Lib.Pipeline.Value
import Idealize.ShloMosaic.Lib.ValueIdx

set_option maxRecDepth 16384

noncomputable section

namespace Cert.KernelIdeal.Attn

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## Call 0: its output array as one function of its four operand arrays -/

/-- One chunk of the pass over [48, 4096, 64] arrays: (batch·head) row `bh`, chunk `n`, query row `r`, column `d`. -/
def passAAt (Q Kk Vv : S48x4096x64.Idx → EReal) (M : S48x1x4096.Idx → EReal) (bh : Fin 48) (n : Fin 16) (r : Fin 256) (d : Fin 64) : EReal :=
  Cert.Spec.chunk (fun r' e => Q (ix3 bh (Cert.Spec.fullPos n r') e)) (fun j e => Kk (ix3 bh (Cert.Spec.fullPos n j) e)) (fun j e => Vv (ix3 bh (Cert.Spec.fullPos n j) e))
    (fun j => M (ix3 bh (0 : Fin 1) (Cert.Spec.fullPos n j))) r d

/-- The pass as an array: position `s` is row `s % 256` of chunk `s / 256`. -/
def passA (Q Kk Vv : S48x4096x64.Idx → EReal) (M : S48x1x4096.Idx → EReal) : S48x4096x64.Idx → EReal := fun i =>
  passAAt Q Kk Vv M (i 0) ⟨(i 1).val / 256, by show (i 1).val / 256 < 16; have : (i 1).val < 4096 := (i 1).isLt; omega⟩
    ⟨(i 1).val % 256, Nat.mod_lt _ (by norm_num)⟩ (i 2)

theorem passA_apply (Q Kk Vv : S48x4096x64.Idx → EReal) (M : S48x1x4096.Idx → EReal) (bh : Fin 48) (n : Fin 16) (r : Fin 256) (d : Fin 64) :
    passA Q Kk Vv M (ix3 bh (Cert.Spec.fullPos n r) d) = passAAt Q Kk Vv M bh n r d := by
  have hn : (⟨(Cert.Spec.fullPos n r).val / 256, by show (256 * n.val + r.val) / 256 < 16; have := n.isLt; have := r.isLt; omega⟩ : Fin 16) = n :=
    Fin.ext (by show (256 * n.val + r.val) / 256 = n.val; have := r.isLt; omega)
  have hr : (⟨(Cert.Spec.fullPos n r).val % 256, Nat.mod_lt _ (by norm_num)⟩ : Fin 256) = r :=
    Fin.ext (by show (256 * n.val + r.val) % 256 = r.val; have := r.isLt; omega)
  show passAAt Q Kk Vv M bh ⟨(Cert.Spec.fullPos n r).val / 256, _⟩ ⟨(Cert.Spec.fullPos n r).val % 256, _⟩ d = _
  rw [hn, hr]

/-- The printed index maps, decided over the grid: the three [8, 256, 64] input windows move with the output window, the
    mask window takes the output's row-block on its first axis and the output's chunk on its last, and the output's
    block indices stay in their ranges. -/
theorem index_factsA : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = win0_4.index t (1 : Fin 3) ∧ win0_1.index t (2 : Fin 3) = 0
    ∧ win0_2.index t (0 : Fin 3) = win0_4.index t (0 : Fin 3) ∧ win0_2.index t (1 : Fin 3) = win0_4.index t (1 : Fin 3) ∧ win0_2.index t (2 : Fin 3) = 0
    ∧ win0_3.index t (0 : Fin 3) = win0_4.index t (0 : Fin 3) ∧ win0_3.index t (1 : Fin 3) = 0 ∧ win0_3.index t (2 : Fin 3) = win0_4.index t (1 : Fin 3)
    ∧ win0_4.index t (0 : Fin 3) ≤ 5 ∧ win0_4.index t (1 : Fin 3) ≤ 15 ∧ win0_4.index t (2 : Fin 3) = 0 :=
  (by decide +kernel : ∀ t : Fin grid0.N, _)

/-- Every (row-block, chunk) pair is some grid point's output block. -/
theorem index_ontoA : ∀ (q0 : Fin 6) (q1 : Fin 16), ∃ t : Fin cfg0.N, win0_4.index t = ![q0.val, q1.val, 0] :=
  (by decide +kernel : ∀ (q0 : Fin 6) (q1 : Fin 16), ∃ t : Fin grid0.N, win0_4.index t = ![q0.val, q1.val, 0])

/-- The (batch·head) row that row `g` of point `t`'s blocks is, and the chunk the point works on. -/
def rowA (t : Fin cfg0.N) (g : Fin 8) : Fin 48 :=
  ⟨win0_4.index t (0 : Fin 3) * 8 + g.val, by have := (index_factsA t).2.2.2.2.2.2.2.2.2.2.2.2.1; have := g.isLt; omega⟩
def chunkA (t : Fin cfg0.N) : Fin 16 :=
  ⟨win0_4.index t (1 : Fin 3), by have := (index_factsA t).2.2.2.2.2.2.2.2.2.2.2.2.2.1; omega⟩

/-- Entry (g, r, e) of input window 0's block at point `t` is entry (row, 256·chunk + r, e) of its array. -/
theorem embA_0 (t : Fin cfg0.N) (g : Fin 8) (r : Fin 256) (e : Fin 64) :
    ((cfg0.win 0).blk t).view.emb (ix3 g r e) = ix3 (rowA t g) (Cert.Spec.fullPos (chunkA t) r) e := by
  obtain ⟨a0, a1, a2, b0, b1, b2, c0, c1, c2, d0, d1, d2, e0, e1, e2⟩ := index_factsA t
  funext a; apply Fin.ext
  match a with
  | ⟨0, _⟩ => show win0_0.index t (0 : Fin 3) * 8 + 1 * g.val = win0_4.index t (0 : Fin 3) * 8 + g.val; omega
  | ⟨1, _⟩ => show win0_0.index t (1 : Fin 3) * 256 + 1 * r.val = 256 * win0_4.index t (1 : Fin 3) + r.val; omega
  | ⟨2, _⟩ => show win0_0.index t (2 : Fin 3) * 64 + 1 * e.val = e.val; omega
theorem readA_0 (c : Dev nD) (t : Fin cfg0.N) (g : Fin 8) (r : Fin 256) (e : Fin 64) :
    blkA V c 0 t (ix3 g r e) = V c main_v0 (ix3 (rowA t g) (Cert.Spec.fullPos (chunkA t) r) e) := by
  show V c main_v0 (((cfg0.win 0).blk t).view.emb (ix3 g r e)) = _
  exact congrArg (V c main_v0) (embA_0 t g r e)

/-- Entry (g, r, e) of input window 1's block at point `t` is entry (row, 256·chunk + r, e) of its array. -/
theorem embA_1 (t : Fin cfg0.N) (g : Fin 8) (r : Fin 256) (e : Fin 64) :
    ((cfg0.win 1).blk t).view.emb (ix3 g r e) = ix3 (rowA t g) (Cert.Spec.fullPos (chunkA t) r) e := by
  obtain ⟨a0, a1, a2, b0, b1, b2, c0, c1, c2, d0, d1, d2, e0, e1, e2⟩ := index_factsA t
  funext a; apply Fin.ext
  match a with
  | ⟨0, _⟩ => show win0_1.index t (0 : Fin 3) * 8 + 1 * g.val = win0_4.index t (0 : Fin 3) * 8 + g.val; omega
  | ⟨1, _⟩ => show win0_1.index t (1 : Fin 3) * 256 + 1 * r.val = 256 * win0_4.index t (1 : Fin 3) + r.val; omega
  | ⟨2, _⟩ => show win0_1.index t (2 : Fin 3) * 64 + 1 * e.val = e.val; omega
theorem readA_1 (c : Dev nD) (t : Fin cfg0.N) (g : Fin 8) (r : Fin 256) (e : Fin 64) :
    blkA V c 1 t (ix3 g r e) = V c main_v1 (ix3 (rowA t g) (Cert.Spec.fullPos (chunkA t) r) e) := by
  show V c main_v1 (((cfg0.win 1).blk t).view.emb (ix3 g r e)) = _
  exact congrArg (V c main_v1) (embA_1 t g r e)

/-- Entry (g, r, e) of input window 2's block at point `t` is entry (row, 256·chunk + r, e) of its array. -/
theorem embA_2 (t : Fin cfg0.N) (g : Fin 8) (r : Fin 256) (e : Fin 64) :
    ((cfg0.win 2).blk t).view.emb (ix3 g r e) = ix3 (rowA t g) (Cert.Spec.fullPos (chunkA t) r) e := by
  obtain ⟨a0, a1, a2, b0, b1, b2, c0, c1, c2, d0, d1, d2, e0, e1, e2⟩ := index_factsA t
  funext a; apply Fin.ext
  match a with
  | ⟨0, _⟩ => show win0_2.index t (0 : Fin 3) * 8 + 1 * g.val = win0_4.index t (0 : Fin 3) * 8 + g.val; omega
  | ⟨1, _⟩ => show win0_2.index t (1 : Fin 3) * 256 + 1 * r.val = 256 * win0_4.index t (1 : Fin 3) + r.val; omega
  | ⟨2, _⟩ => show win0_2.index t (2 : Fin 3) * 64 + 1 * e.val = e.val; omega
theorem readA_2 (c : Dev nD) (t : Fin cfg0.N) (g : Fin 8) (r : Fin 256) (e : Fin 64) :
    blkA V c 2 t (ix3 g r e) = V c main_v2 (ix3 (rowA t g) (Cert.Spec.fullPos (chunkA t) r) e) := by
  show V c main_v2 (((cfg0.win 2).blk t).view.emb (ix3 g r e)) = _
  exact congrArg (V c main_v2) (embA_2 t g r e)

/-- Entry (g, 0, j) of the mask window's block at point `t` is entry (row, 0, 256·chunk + j) of the mask array. -/
theorem embA_3 (t : Fin cfg0.N) (g : Fin 8) (j : Fin 256) :
    ((cfg0.win 3).blk t).view.emb (ix3 g (0 : Fin 1) j) = ix3 (rowA t g) (0 : Fin 1) (Cert.Spec.fullPos (chunkA t) j) := by
  obtain ⟨a0, a1, a2, b0, b1, b2, c0, c1, c2, d0, d1, d2, e0, e1, e2⟩ := index_factsA t
  funext a; apply Fin.ext
  match a with
  | ⟨0, _⟩ => show win0_3.index t (0 : Fin 3) * 8 + 1 * g.val = win0_4.index t (0 : Fin 3) * 8 + g.val; omega
  | ⟨1, _⟩ => show win0_3.index t (1 : Fin 3) * 1 + 1 * 0 = 0; omega
  | ⟨2, _⟩ => show win0_3.index t (2 : Fin 3) * 256 + 1 * j.val = 256 * win0_4.index t (1 : Fin 3) + j.val; omega
theorem readA_3 (c : Dev nD) (t : Fin cfg0.N) (g : Fin 8) (j : Fin 256) :
    blkA V c 3 t (ix3 g (0 : Fin 1) j) = V c main_v4 (ix3 (rowA t g) (0 : Fin 1) (Cert.Spec.fullPos (chunkA t) j)) := by
  show V c main_v4 (((cfg0.win 3).blk t).view.emb (ix3 g (0 : Fin 1) j)) = _
  exact congrArg (V c main_v4) (embA_3 t g j)

/-- Entry (g, r, d) of the output window's block at point `t` is entry (row, 256·chunk + r, d) of the output array. -/
theorem embA_4 (t : Fin cfg0.N) (g : Fin 8) (r : Fin 256) (d : Fin 64) :
    ((cfg0.win 4).blk t).view.emb (ix3 g r d) = ix3 (rowA t g) (Cert.Spec.fullPos (chunkA t) r) d := by
  obtain ⟨a0, a1, a2, b0, b1, b2, c0, c1, c2, d0, d1, d2, e0, e1, e2⟩ := index_factsA t
  funext a; apply Fin.ext
  match a with
  | ⟨0, _⟩ => show win0_4.index t (0 : Fin 3) * 8 + 1 * g.val = win0_4.index t (0 : Fin 3) * 8 + g.val; omega
  | ⟨1, _⟩ => show win0_4.index t (1 : Fin 3) * 256 + 1 * r.val = 256 * win0_4.index t (1 : Fin 3) + r.val; omega
  | ⟨2, _⟩ => show win0_4.index t (2 : Fin 3) * 64 + 1 * d.val = d.val; omega

theorem zero3A : (![0, 0, 0] : Fin 3 → Nat) = fun _ => 0 := funext fun a => by fin_cases a <;> rfl

/-- WHAT POINT `t` WRITES BACK is block `t` of the pass over the four operand arrays as the call finds them: the body's
    payload at (g, r, d) is the chunk of row g of the four blocks, and the blocks are the arrays at row 8·(row-block) + g,
    positions 256·chunk …. -/
theorem flushedA_eq (c : Dev nD) (t : Fin cfg0.N) :
    (datA V c).flushed 4 t
      = ((cfg0.win 4).blk t).view.read (Elt Ideal) (passA (V c main_v0) (V c main_v1) (V c main_v2) (V c main_v4)) := by
  show (cfg0.win 4).cut (grid0.coords t) ((datA V c).after 4 t) = _
  rw [afterA_4]
  unfold outA
  rw [View.canon_unit_zero zero3A]
  simp only [View.ld_unit_zero (S := S8x256x64) zero3A, View.ld_unit_zero (S := S8x1x256) zero3A]
  funext y
  obtain ⟨g, r, d, rfl⟩ : ∃ (g : Fin 8) (r : Fin 256) (d : Fin 64), y = ix3 g r d := ⟨y 0, y 1, y 2, eq_ix3 y⟩
  show k0_pay1 (blkA V c 0 t) (blkA V c 1 t) (blkA V c 2 t) (blkA V c 3 t) (ix3 g r d)
    = passA (V c main_v0) (V c main_v1) (V c main_v2) (V c main_v4) (((cfg0.win 4).blk t).view.emb (ix3 g r d))
  rw [embA_4, passA_apply]
  refine (Cert.KernelIdeal.Payload.payA_apply _ _ _ _ g r d).trans ?_
  unfold passAAt
  simp only [readA_0, readA_1, readA_2, readA_3]

/-- An index of the output array is in point `t`'s block iff each coordinate is in the block's range on its axis. -/
theorem mem_blkA (t : Fin cfg0.N) (i : S48x4096x64.Idx) :
    i ∈ ((cfg0.win 4).blk t).view.set ↔ ∀ a : Fin 3, win0_4.index t a * S8x256x64.size a ≤ (i a).val ∧ (i a).val < win0_4.index t a * S8x256x64.size a + S8x256x64.size a := by
  show i ∈ ((View.whole main_v5).slice (win0_4.rect t)).set ↔ _
  rw [View.set_slice_whole, Rect.mem_set_unit]
  exact Iff.rfl

/-- Every index of the output array is in some grid point's block: row-block `row / 8`, chunk `position / 256`. -/
theorem coverA (i : S48x4096x64.Idx) : ∃ t : Fin cfg0.N, (cfg0.win 4).flush t = true ∧ i ∈ ((cfg0.win 4).blk t).view.set := by
  have hi0 : (i 0).val < 48 := (i 0).isLt
  have hi1 : (i 1).val < 4096 := (i 1).isLt
  have hi2 : (i 2).val < 64 := (i 2).isLt
  obtain ⟨t, ht⟩ := index_ontoA ⟨(i 0).val / 8, by omega⟩ ⟨(i 1).val / 256, by omega⟩
  have q0 : win0_4.index t (0 : Fin 3) = (i 0).val / 8 := congrFun ht 0
  have q1 : win0_4.index t (1 : Fin 3) = (i 1).val / 256 := congrFun ht 1
  have q2 : win0_4.index t (2 : Fin 3) = 0 := congrFun ht 2
  refine ⟨t, flush0_4 t, ?_⟩
  rw [mem_blkA]
  intro a
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 256 ≤ (i 1).val ∧ (i 1).val < win0_4.index t (1 : Fin 3) * 256 + 256; omega
  | ⟨2, _⟩ => show win0_4.index t (2 : Fin 3) * 64 ≤ (i 2).val ∧ (i 2).val < win0_4.index t (2 : Fin 3) * 64 + 64; omega

/-- THE OUTPUT ARRAY after the call: the pass over the four operand arrays as the call finds them. -/
theorem arrayA (c : Dev nD) :
    (datA V c).arrAt 4 cfg0.N = passA (V c main_v0) (V c main_v1) (V c main_v2) (V c main_v4) :=
  (datA V c).arrAt_eq_of_cover 4 _ (fun t _ => flushedA_eq V c t) (coverA)

/-! ## Call 1: its output array as one function of its four operand arrays -/

/-- One chunk of the pass over [48, 3840, 64] arrays: (batch·head) row `bh`, chunk `n`, query row `r`, column `d`. -/
def passBAt (Q Kk Vv : S48x3840x64.Idx → EReal) (M : S48x1x3840.Idx → EReal) (bh : Fin 48) (n : Fin 15) (r : Fin 256) (d : Fin 64) : EReal :=
  Cert.Spec.chunk (fun r' e => Q (ix3 bh (Cert.Spec.midPos n r') e)) (fun j e => Kk (ix3 bh (Cert.Spec.midPos n j) e)) (fun j e => Vv (ix3 bh (Cert.Spec.midPos n j) e))
    (fun j => M (ix3 bh (0 : Fin 1) (Cert.Spec.midPos n j))) r d

/-- The pass as an array: position `s` is row `s % 256` of chunk `s / 256`. -/
def passB (Q Kk Vv : S48x3840x64.Idx → EReal) (M : S48x1x3840.Idx → EReal) : S48x3840x64.Idx → EReal := fun i =>
  passBAt Q Kk Vv M (i 0) ⟨(i 1).val / 256, by show (i 1).val / 256 < 15; have : (i 1).val < 3840 := (i 1).isLt; omega⟩
    ⟨(i 1).val % 256, Nat.mod_lt _ (by norm_num)⟩ (i 2)

theorem passB_apply (Q Kk Vv : S48x3840x64.Idx → EReal) (M : S48x1x3840.Idx → EReal) (bh : Fin 48) (n : Fin 15) (r : Fin 256) (d : Fin 64) :
    passB Q Kk Vv M (ix3 bh (Cert.Spec.midPos n r) d) = passBAt Q Kk Vv M bh n r d := by
  have hn : (⟨(Cert.Spec.midPos n r).val / 256, by show (256 * n.val + r.val) / 256 < 15; have := n.isLt; have := r.isLt; omega⟩ : Fin 15) = n :=
    Fin.ext (by show (256 * n.val + r.val) / 256 = n.val; have := r.isLt; omega)
  have hr : (⟨(Cert.Spec.midPos n r).val % 256, Nat.mod_lt _ (by norm_num)⟩ : Fin 256) = r :=
    Fin.ext (by show (256 * n.val + r.val) % 256 = r.val; have := r.isLt; omega)
  show passBAt Q Kk Vv M bh ⟨(Cert.Spec.midPos n r).val / 256, _⟩ ⟨(Cert.Spec.midPos n r).val % 256, _⟩ d = _
  rw [hn, hr]

/-- The printed index maps, decided over the grid: the three [8, 256, 64] input windows move with the output window, the
    mask window takes the output's row-block on its first axis and the output's chunk on its last, and the output's
    block indices stay in their ranges. -/
theorem index_factsB : ∀ t : Fin cfg1.N,
    win1_0.index t (0 : Fin 3) = win1_4.index t (0 : Fin 3) ∧ win1_0.index t (1 : Fin 3) = win1_4.index t (1 : Fin 3) ∧ win1_0.index t (2 : Fin 3) = 0
    ∧ win1_1.index t (0 : Fin 3) = win1_4.index t (0 : Fin 3) ∧ win1_1.index t (1 : Fin 3) = win1_4.index t (1 : Fin 3) ∧ win1_1.index t (2 : Fin 3) = 0
    ∧ win1_2.index t (0 : Fin 3) = win1_4.index t (0 : Fin 3) ∧ win1_2.index t (1 : Fin 3) = win1_4.index t (1 : Fin 3) ∧ win1_2.index t (2 : Fin 3) = 0
    ∧ win1_3.index t (0 : Fin 3) = win1_4.index t (0 : Fin 3) ∧ win1_3.index t (1 : Fin 3) = 0 ∧ win1_3.index t (2 : Fin 3) = win1_4.index t (1 : Fin 3)
    ∧ win1_4.index t (0 : Fin 3) ≤ 5 ∧ win1_4.index t (1 : Fin 3) ≤ 14 ∧ win1_4.index t (2 : Fin 3) = 0 :=
  (by decide +kernel : ∀ t : Fin grid1.N, _)

/-- Every (row-block, chunk) pair is some grid point's output block. -/
theorem index_ontoB : ∀ (q0 : Fin 6) (q1 : Fin 15), ∃ t : Fin cfg1.N, win1_4.index t = ![q0.val, q1.val, 0] :=
  (by decide +kernel : ∀ (q0 : Fin 6) (q1 : Fin 15), ∃ t : Fin grid1.N, win1_4.index t = ![q0.val, q1.val, 0])

/-- The (batch·head) row that row `g` of point `t`'s blocks is, and the chunk the point works on. -/
def rowB (t : Fin cfg1.N) (g : Fin 8) : Fin 48 :=
  ⟨win1_4.index t (0 : Fin 3) * 8 + g.val, by have := (index_factsB t).2.2.2.2.2.2.2.2.2.2.2.2.1; have := g.isLt; omega⟩
def chunkB (t : Fin cfg1.N) : Fin 15 :=
  ⟨win1_4.index t (1 : Fin 3), by have := (index_factsB t).2.2.2.2.2.2.2.2.2.2.2.2.2.1; omega⟩

/-- Entry (g, r, e) of input window 0's block at point `t` is entry (row, 256·chunk + r, e) of its array. -/
theorem embB_0 (t : Fin cfg1.N) (g : Fin 8) (r : Fin 256) (e : Fin 64) :
    ((cfg1.win 0).blk t).view.emb (ix3 g r e) = ix3 (rowB t g) (Cert.Spec.midPos (chunkB t) r) e := by
  obtain ⟨a0, a1, a2, b0, b1, b2, c0, c1, c2, d0, d1, d2, e0, e1, e2⟩ := index_factsB t
  funext a; apply Fin.ext
  match a with
  | ⟨0, _⟩ => show win1_0.index t (0 : Fin 3) * 8 + 1 * g.val = win1_4.index t (0 : Fin 3) * 8 + g.val; omega
  | ⟨1, _⟩ => show win1_0.index t (1 : Fin 3) * 256 + 1 * r.val = 256 * win1_4.index t (1 : Fin 3) + r.val; omega
  | ⟨2, _⟩ => show win1_0.index t (2 : Fin 3) * 64 + 1 * e.val = e.val; omega
theorem readB_0 (c : Dev nD) (t : Fin cfg1.N) (g : Fin 8) (r : Fin 256) (e : Fin 64) :
    blkB V c 0 t (ix3 g r e) = V c main_v13 (ix3 (rowB t g) (Cert.Spec.midPos (chunkB t) r) e) := by
  show V c main_v13 (((cfg1.win 0).blk t).view.emb (ix3 g r e)) = _
  exact congrArg (V c main_v13) (embB_0 t g r e)

/-- Entry (g, r, e) of input window 1's block at point `t` is entry (row, 256·chunk + r, e) of its array. -/
theorem embB_1 (t : Fin cfg1.N) (g : Fin 8) (r : Fin 256) (e : Fin 64) :
    ((cfg1.win 1).blk t).view.emb (ix3 g r e) = ix3 (rowB t g) (Cert.Spec.midPos (chunkB t) r) e := by
  obtain ⟨a0, a1, a2, b0, b1, b2, c0, c1, c2, d0, d1, d2, e0, e1, e2⟩ := index_factsB t
  funext a; apply Fin.ext
  match a with
  | ⟨0, _⟩ => show win1_1.index t (0 : Fin 3) * 8 + 1 * g.val = win1_4.index t (0 : Fin 3) * 8 + g.val; omega
  | ⟨1, _⟩ => show win1_1.index t (1 : Fin 3) * 256 + 1 * r.val = 256 * win1_4.index t (1 : Fin 3) + r.val; omega
  | ⟨2, _⟩ => show win1_1.index t (2 : Fin 3) * 64 + 1 * e.val = e.val; omega
theorem readB_1 (c : Dev nD) (t : Fin cfg1.N) (g : Fin 8) (r : Fin 256) (e : Fin 64) :
    blkB V c 1 t (ix3 g r e) = V c main_v15 (ix3 (rowB t g) (Cert.Spec.midPos (chunkB t) r) e) := by
  show V c main_v15 (((cfg1.win 1).blk t).view.emb (ix3 g r e)) = _
  exact congrArg (V c main_v15) (embB_1 t g r e)

/-- Entry (g, r, e) of input window 2's block at point `t` is entry (row, 256·chunk + r, e) of its array. -/
theorem embB_2 (t : Fin cfg1.N) (g : Fin 8) (r : Fin 256) (e : Fin 64) :
    ((cfg1.win 2).blk t).view.emb (ix3 g r e) = ix3 (rowB t g) (Cert.Spec.midPos (chunkB t) r) e := by
  obtain ⟨a0, a1, a2, b0, b1, b2, c0, c1, c2, d0, d1, d2, e0, e1, e2⟩ := index_factsB t
  funext a; apply Fin.ext
  match a with
  | ⟨0, _⟩ => show win1_2.index t (0 : Fin 3) * 8 + 1 * g.val = win1_4.index t (0 : Fin 3) * 8 + g.val; omega
  | ⟨1, _⟩ => show win1_2.index t (1 : Fin 3) * 256 + 1 * r.val = 256 * win1_4.index t (1 : Fin 3) + r.val; omega
  | ⟨2, _⟩ => show win1_2.index t (2 : Fin 3) * 64 + 1 * e.val = e.val; omega
theorem readB_2 (c : Dev nD) (t : Fin cfg1.N) (g : Fin 8) (r : Fin 256) (e : Fin 64) :
    blkB V c 2 t (ix3 g r e) = V c main_v17 (ix3 (rowB t g) (Cert.Spec.midPos (chunkB t) r) e) := by
  show V c main_v17 (((cfg1.win 2).blk t).view.emb (ix3 g r e)) = _
  exact congrArg (V c main_v17) (embB_2 t g r e)

/-- Entry (g, 0, j) of the mask window's block at point `t` is entry (row, 0, 256·chunk + j) of the mask array. -/
theorem embB_3 (t : Fin cfg1.N) (g : Fin 8) (j : Fin 256) :
    ((cfg1.win 3).blk t).view.emb (ix3 g (0 : Fin 1) j) = ix3 (rowB t g) (0 : Fin 1) (Cert.Spec.midPos (chunkB t) j) := by
  obtain ⟨a0, a1, a2, b0, b1, b2, c0, c1, c2, d0, d1, d2, e0, e1, e2⟩ := index_factsB t
  funext a; apply Fin.ext
  match a with
  | ⟨0, _⟩ => show win1_3.index t (0 : Fin 3) * 8 + 1 * g.val = win1_4.index t (0 : Fin 3) * 8 + g.val; omega
  | ⟨1, _⟩ => show win1_3.index t (1 : Fin 3) * 1 + 1 * 0 = 0; omega
  | ⟨2, _⟩ => show win1_3.index t (2 : Fin 3) * 256 + 1 * j.val = 256 * win1_4.index t (1 : Fin 3) + j.val; omega
theorem readB_3 (c : Dev nD) (t : Fin cfg1.N) (g : Fin 8) (j : Fin 256) :
    blkB V c 3 t (ix3 g (0 : Fin 1) j) = V c main_v20 (ix3 (rowB t g) (0 : Fin 1) (Cert.Spec.midPos (chunkB t) j)) := by
  show V c main_v20 (((cfg1.win 3).blk t).view.emb (ix3 g (0 : Fin 1) j)) = _
  exact congrArg (V c main_v20) (embB_3 t g j)

/-- Entry (g, r, d) of the output window's block at point `t` is entry (row, 256·chunk + r, d) of the output array. -/
theorem embB_4 (t : Fin cfg1.N) (g : Fin 8) (r : Fin 256) (d : Fin 64) :
    ((cfg1.win 4).blk t).view.emb (ix3 g r d) = ix3 (rowB t g) (Cert.Spec.midPos (chunkB t) r) d := by
  obtain ⟨a0, a1, a2, b0, b1, b2, c0, c1, c2, d0, d1, d2, e0, e1, e2⟩ := index_factsB t
  funext a; apply Fin.ext
  match a with
  | ⟨0, _⟩ => show win1_4.index t (0 : Fin 3) * 8 + 1 * g.val = win1_4.index t (0 : Fin 3) * 8 + g.val; omega
  | ⟨1, _⟩ => show win1_4.index t (1 : Fin 3) * 256 + 1 * r.val = 256 * win1_4.index t (1 : Fin 3) + r.val; omega
  | ⟨2, _⟩ => show win1_4.index t (2 : Fin 3) * 64 + 1 * d.val = d.val; omega

theorem zero3B : (![0, 0, 0] : Fin 3 → Nat) = fun _ => 0 := funext fun a => by fin_cases a <;> rfl

/-- WHAT POINT `t` WRITES BACK is block `t` of the pass over the four operand arrays as the call finds them: the body's
    payload at (g, r, d) is the chunk of row g of the four blocks, and the blocks are the arrays at row 8·(row-block) + g,
    positions 256·chunk …. -/
theorem flushedB_eq (c : Dev nD) (t : Fin cfg1.N) :
    (datB V c).flushed 4 t
      = ((cfg1.win 4).blk t).view.read (Elt Ideal) (passB (V c main_v13) (V c main_v15) (V c main_v17) (V c main_v20)) := by
  show (cfg1.win 4).cut (grid1.coords t) ((datB V c).after 4 t) = _
  rw [afterB_4]
  unfold outB
  rw [View.canon_unit_zero zero3B]
  simp only [View.ld_unit_zero (S := S8x256x64) zero3B, View.ld_unit_zero (S := S8x1x256) zero3B]
  funext y
  obtain ⟨g, r, d, rfl⟩ : ∃ (g : Fin 8) (r : Fin 256) (d : Fin 64), y = ix3 g r d := ⟨y 0, y 1, y 2, eq_ix3 y⟩
  show k1_pay1 (blkB V c 0 t) (blkB V c 1 t) (blkB V c 2 t) (blkB V c 3 t) (ix3 g r d)
    = passB (V c main_v13) (V c main_v15) (V c main_v17) (V c main_v20) (((cfg1.win 4).blk t).view.emb (ix3 g r d))
  rw [embB_4, passB_apply]
  refine (Cert.KernelIdeal.Payload.payB_apply _ _ _ _ g r d).trans ?_
  unfold passBAt
  simp only [readB_0, readB_1, readB_2, readB_3]

/-- An index of the output array is in point `t`'s block iff each coordinate is in the block's range on its axis. -/
theorem mem_blkB (t : Fin cfg1.N) (i : S48x3840x64.Idx) :
    i ∈ ((cfg1.win 4).blk t).view.set ↔ ∀ a : Fin 3, win1_4.index t a * S8x256x64.size a ≤ (i a).val ∧ (i a).val < win1_4.index t a * S8x256x64.size a + S8x256x64.size a := by
  show i ∈ ((View.whole main_v21).slice (win1_4.rect t)).set ↔ _
  rw [View.set_slice_whole, Rect.mem_set_unit]
  exact Iff.rfl

/-- Every index of the output array is in some grid point's block: row-block `row / 8`, chunk `position / 256`. -/
theorem coverB (i : S48x3840x64.Idx) : ∃ t : Fin cfg1.N, (cfg1.win 4).flush t = true ∧ i ∈ ((cfg1.win 4).blk t).view.set := by
  have hi0 : (i 0).val < 48 := (i 0).isLt
  have hi1 : (i 1).val < 3840 := (i 1).isLt
  have hi2 : (i 2).val < 64 := (i 2).isLt
  obtain ⟨t, ht⟩ := index_ontoB ⟨(i 0).val / 8, by omega⟩ ⟨(i 1).val / 256, by omega⟩
  have q0 : win1_4.index t (0 : Fin 3) = (i 0).val / 8 := congrFun ht 0
  have q1 : win1_4.index t (1 : Fin 3) = (i 1).val / 256 := congrFun ht 1
  have q2 : win1_4.index t (2 : Fin 3) = 0 := congrFun ht 2
  refine ⟨t, flush1_4 t, ?_⟩
  rw [mem_blkB]
  intro a
  match a with
  | ⟨0, _⟩ => show win1_4.index t (0 : Fin 3) * 8 ≤ (i 0).val ∧ (i 0).val < win1_4.index t (0 : Fin 3) * 8 + 8; omega
  | ⟨1, _⟩ => show win1_4.index t (1 : Fin 3) * 256 ≤ (i 1).val ∧ (i 1).val < win1_4.index t (1 : Fin 3) * 256 + 256; omega
  | ⟨2, _⟩ => show win1_4.index t (2 : Fin 3) * 64 ≤ (i 2).val ∧ (i 2).val < win1_4.index t (2 : Fin 3) * 64 + 64; omega

/-- THE OUTPUT ARRAY after the call: the pass over the four operand arrays as the call finds them. -/
theorem arrayB (c : Dev nD) :
    (datB V c).arrAt 4 cfg1.N = passB (V c main_v13) (V c main_v15) (V c main_v17) (V c main_v20) :=
  (datB V c).arrAt_eq_of_cover 4 _ (fun t _ => flushedB_eq V c t) (coverB)

end Cert.KernelIdeal.Attn

end
-- ==== Proof.LibHeadRows.lean ====
/-
  Batch and head folded into one axis of rows, read at an index.

  A [B, H, S, D] array viewed as [B·H, S, D] keeps its row-major order: row b·H + h of the view is (batch b, head h), so
  entry (b·H + h, s, e) of the view is entry (b, h, s, e) of the array, and back.  A per-batch mask [B, 1, 1, S]
  repeated over the H heads ([B, H, 1, S]) and viewed as [B·H, 1, S] reads, at (b·H + h, 0, s), the mask's entry
  (b, 0, 0, s).  And a slice that drops `off` positions at the front of the sequence axis reads position `off + s`.
  Stated for B = 4, H = 12, D = 64 and any sequence length S.
-/
import Idealize.ShloMosaic.Lib.ValueIdx
import Idealize.ShloMosaic.Lib.Pipeline.Value

noncomputable section

namespace Cert.Lib.HeadRows

open Idealize.ShloMosaic Idealize.ShloMosaic.ValueIdx

variable {α : Type}

/-- Row b·12 + h of the 48 rows. -/
def row (b : Fin 4) (h : Fin 12) : Fin 48 := ⟨b.val * 12 + h.val, by have := b.isLt; have := h.isLt; omega⟩

/-- [4, 12, S, 64] viewed as [48, S, 64]: entry (row b h, s, e) is entry (b, h, s, e). -/
theorem fold_apply {S : ℕ} (x : (⟨4, ![4, 12, S, 64]⟩ : Shape).Idx → α)
    (hc : (⟨4, ![4, 12, S, 64]⟩ : Shape).ShapeCasts ⟨3, ![48, S, 64]⟩) (b : Fin 4) (h : Fin 12) (s : Fin S) (e : Fin 64) :
    shapeCast ⟨3, ![48, S, 64]⟩ x hc (ix3 (row b h) s e) = x (ix4 b h s e) := by
  refine shapeCast_apply x hc (ix3 (row b h) s e) (ix4 b h s e) ?_
  rw [Shape.rowMajor_val_four, Shape.rowMajor_val_three]
  rfl

/-- [48, S, 64] viewed as [4, 12, S, 64]: entry (b, h, s, e) is entry (row b h, s, e). -/
theorem unfold_apply {S : ℕ} (y : (⟨3, ![48, S, 64]⟩ : Shape).Idx → α)
    (hc : (⟨3, ![48, S, 64]⟩ : Shape).ShapeCasts ⟨4, ![4, 12, S, 64]⟩) (b : Fin 4) (h : Fin 12) (s : Fin S) (e : Fin 64) :
    shapeCast ⟨4, ![4, 12, S, 64]⟩ y hc (ix4 b h s e) = y (ix3 (row b h) s e) := by
  refine shapeCast_apply y hc (ix4 b h s e) (ix3 (row b h) s e) ?_
  rw [Shape.rowMajor_val_four, Shape.rowMajor_val_three]
  rfl

/-- A per-batch mask [4, 1, 1, S] repeated over the heads and viewed as [48, 1, S]: entry (row b h, 0, s) is the mask's
    entry (b, 0, 0, s). -/
theorem maskRows_apply {S : ℕ} (x : (⟨4, ![4, 1, 1, S]⟩ : Shape).Idx → α)
    (hb : (⟨4, ![4, 1, 1, S]⟩ : Shape).BroadcastsInDim ⟨4, ![4, 12, 1, S]⟩ (![0, 1, 2, 3] : Fin 4 → Fin 4))
    (hc : (⟨4, ![4, 12, 1, S]⟩ : Shape).ShapeCasts ⟨3, ![48, 1, S]⟩) (b : Fin 4) (h : Fin 12) (s : Fin S) :
    shapeCast ⟨3, ![48, 1, S]⟩ (broadcastInDim ⟨4, ![4, 12, 1, S]⟩ ![0, 1, 2, 3] hb x) hc (ix3 (row b h) (0 : Fin 1) s)
      = x (ix4 b (0 : Fin 1) (0 : Fin 1) s) := by
  refine (shapeCast_apply _ hc (ix3 (row b h) (0 : Fin 1) s) (ix4 b h (0 : Fin 1) s) ?_).trans ?_
  · rw [Shape.rowMajor_val_four, Shape.rowMajor_val_three]
    rfl
  · refine broadcastInDim_apply _ hb x (ix4 b h (0 : Fin 1) s) (ix4 b (0 : Fin 1) (0 : Fin 1) s) ?_
    intro a
    match a with
    | ⟨0, _⟩ => show b.val = if (4 : ℕ) = 1 then 0 else b.val; rw [if_neg (by decide)]
    | ⟨1, _⟩ => show 0 = if (1 : ℕ) = 1 then 0 else h.val; rw [if_pos rfl]
    | ⟨2, _⟩ => show 0 = if (1 : ℕ) = 1 then 0 else 0; rw [if_pos rfl]
    | ⟨3, _⟩ =>
      show s.val = if S = 1 then 0 else s.val
      split
      · have := s.isLt; omega
      · rfl

/-- A slice of [4, 12, S, 64] that starts at position `off` of the sequence axis: entry (b, h, s, e) is entry
    (b, h, off + s, e). -/
theorem dropFront_apply {S T off : ℕ} (x : (⟨4, ![4, 12, S, 64]⟩ : Shape).Idx → α)
    (hs : (⟨4, ![4, 12, S, 64]⟩ : Shape).Slices ![0, 0, off, 0] ⟨4, ![4, 12, T, 64]⟩) (b : Fin 4) (h : Fin 12) (s : Fin T) (e : Fin 64)
    (hlt : off + s.val < S) :
    extractStridedSlice ⟨4, ![4, 12, T, 64]⟩ ![0, 0, off, 0] x hs (ix4 b h s e) = x (ix4 b h ⟨off + s.val, hlt⟩ e) := by
  refine extractStridedSlice_apply _ x hs (ix4 b h s e) (ix4 b h ⟨off + s.val, hlt⟩ e) ?_
  intro a
  match a with
  | ⟨0, _⟩ => show b.val = 0 + b.val; omega
  | ⟨1, _⟩ => show h.val = 0 + h.val; omega
  | ⟨2, _⟩ => rfl
  | ⟨3, _⟩ => show e.val = 0 + e.val; omega

/-- A slice of a mask [4, 1, 1, S] that starts at position `off`: entry (b, 0, 0, s) is entry (b, 0, 0, off + s). -/
theorem dropFrontMask_apply {S T off : ℕ} (x : (⟨4, ![4, 1, 1, S]⟩ : Shape).Idx → α)
    (hs : (⟨4, ![4, 1, 1, S]⟩ : Shape).Slices ![0, 0, 0, off] ⟨4, ![4, 1, 1, T]⟩) (b : Fin 4) (s : Fin T) (hlt : off + s.val < S) :
    extractStridedSlice ⟨4, ![4, 1, 1, T]⟩ ![0, 0, 0, off] x hs (ix4 b (0 : Fin 1) (0 : Fin 1) s)
      = x (ix4 b (0 : Fin 1) (0 : Fin 1) ⟨off + s.val, hlt⟩) := by
  refine extractStridedSlice_apply _ x hs (ix4 b (0 : Fin 1) (0 : Fin 1) s) (ix4 b (0 : Fin 1) (0 : Fin 1) ⟨off + s.val, hlt⟩) ?_
  intro a
  match a with
  | ⟨0, _⟩ => show b.val = 0 + b.val; omega
  | ⟨1, _⟩ => rfl
  | ⟨2, _⟩ => rfl
  | ⟨3, _⟩ => rfl

end Cert.Lib.HeadRows

end
-- ==== Proof.LibNaryThree.lean ====
/-
  A host operation of three operands read at its result, each operand at its own reference.

  An operation that takes a family of operands `![x, a, b]` and writes `y` leaves in `y` its function applied to the
  family of the operands' contents.  Stated over the family, the contents of operand `k` sit under a binder, at the
  reference `![x, a, b] k`, which is no literal reference, so nothing more can be said about them there.  When the
  function is a curried function `g` of its three operands — a concatenation of three arrays along an axis is one — the
  result is `g` of the contents of `x`, of `a` and of `b`, each at a literal reference, where it can be read further.
-/
import Idealize.ShloMosaic.Lib.StableHlo.Run

noncomputable section

namespace Idealize.ShloMosaic.StableHlo

open Idealize.ShloMosaic Idealize.ShloMosaic.TcCoe

variable {τ : Topo} {sig : RefSig} {Val : EltTy → Type}
variable {x a b y : Ref sig .tc}

/-- The result of a three-operand operation at its own result reference, for a function that is `g` of the family's
    three entries: `g` of the three operands' contents, each read at its own reference. -/
theorem nary3_result_of
    (f : ((k : Fin 3) → ((![x, a, b] : Fin 3 → Ref sig .tc) k).ty.Contents Val) → y.ty.Contents Val) (hxs hy)
    (F : Valuation τ sig Val)
    (g : x.ty.Contents Val → a.ty.Contents Val → b.ty.Contents Val → y.ty.Contents Val)
    (hg : ∀ u : (k : Fin 3) → ((![x, a, b] : Fin 3 → Ref sig .tc) k).ty.Contents Val, f u = g (u 0) (u 1) (u 2)) :
    (nary (τ := τ) ![x, a, b] y f hxs hy).result F (Proc.devRef .tc y)
      = g (F (Proc.devRef .tc x)) (F (Proc.devRef .tc a)) (F (Proc.devRef .tc b)) := by
  rw [nary_result, hg]; rfl

end Idealize.ShloMosaic.StableHlo

namespace Idealize.ShloMosaic

/-- Three arrays joined along an axis, as a curried function of the three: what a three-operand concatenation applies to
    its operands' contents. -/
def join3 {α : Type} (t : Shape) (ax : Fin t.rank) (s1 s2 s3 : Shape) (h : Shape.Concatenates [s1, s2, s3] t ax)
    (X : s1.Idx → α) (A : s2.Idx → α) (B : s3.Idx → α) : t.Idx → α :=
  concatenate t ax [⟨s1, X⟩, ⟨s2, A⟩, ⟨s3, B⟩] h

theorem join3_eq {α : Type} (t : Shape) (ax : Fin t.rank) (s1 s2 s3 : Shape) (h : Shape.Concatenates [s1, s2, s3] t ax)
    (X : s1.Idx → α) (A : s2.Idx → α) (B : s3.Idx → α) :
    join3 t ax s1 s2 s3 h X A B = concatenate t ax [⟨s1, X⟩, ⟨s2, A⟩, ⟨s3, B⟩] h := rfl

end Idealize.ShloMosaic

end
-- ==== Proof.KernelIdeal.Result.lean ====
/-
  The kernel program's result array, at the ideal values, is the specification's result of the four argument arrays.

  The first call's operands are the arguments with batch and head folded into 48 rows (and the mask repeated over the
  heads), so its output array, unfolded back to [4, 12, 4096, 64], is the full pass. The second call's operands are the
  same foldings of the arguments with 128 positions dropped at either end of the sequence, so its output, unfolded to
  [4, 12, 3840, 64], is the shifted pass: position 256·n + r of the shortened sequence is position 128 + 256·n + r of
  the original. The host operations after the calls slice, scale, add and join exactly as the specification's
  `assemble` does.
-/
import proofs.«143526_j20564303413308_1_alg».proof.Proof.KernelIdeal.Arrays
import proofs.«143526_j20564303413308_1_alg».proof.Proof.LibHeadRows
import proofs.«143526_j20564303413308_1_alg».proof.Proof.LibNaryThree
import proofs.«143526_j20564303413308_1_alg».proof.Proof.Spec

set_option maxRecDepth 16384

noncomputable section

namespace Cert.KernelIdeal.Attn

open Cert.KernelIdeal Cert.KernelIdeal.Gen
open Idealize.ShloMosaic Idealize.ShloMosaic.TcCoe Idealize.ShloMosaic.ValueIdx
open Idealize.SL.Sem
open Cert.Lib.HeadRows

variable (m : (ℓ : Loc nD τ sig) → Buf (Elt Ideal) ℓ) (ρ : Dev nD → PrngReg)

/-! ## The arguments are untouched when the second call's operands are made -/

theorem W2_main_arg0 (c : Dev nD) : W2 (F := Ideal) m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W2_main_arg1 (c : Dev nD) : W2 (F := Ideal) m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W2_main_arg2 (c : Dev nD) : W2 (F := Ideal) m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W2_main_arg3 (c : Dev nD) : W2 (F := Ideal) m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ## The first call's operands, read at an index -/

theorem firstOperand0_apply (c : Dev nD) (b : Fin 4) (h : Fin 12) (s : Fin 4096) (e : Fin 64) :
    V1 (F := Ideal) m ρ c main_v0 (ix3 (row b h) s e) = m ((c : Thread nD τ).loc main_arg0) (ix4 b h s e) := by
  have hv : W1 (F := Ideal) m ρ c (Proc.devRef .tc main_v0)
      = fun i => shapeCast main_v0.ty.shape (W0 m ρ c (Proc.devRef .tc main_arg0)) shapeCasts_S4x12x4096x64_S48x4096x64 i := by
    dsimp only [W1]
    simp (disch := decide) only [StableHlo.after_cons, StableHlo.after_nil, StableHlo.nullary_result', StableHlo.unary_result', StableHlo.binary_result', StableHlo.reshape_result', StableHlo.nullary_result_ne', StableHlo.unary_result_ne', StableHlo.binary_result_ne', StableHlo.reshape_result_ne', StableHlo.nary_result_ne']
  show W1 (F := Ideal) m ρ c (Proc.devRef .tc main_v0) (ix3 (row b h) s e) = _
  rw [hv]
  exact fold_apply (S := 4096) (m ((c : Thread nD τ).loc main_arg0)) shapeCasts_S4x12x4096x64_S48x4096x64 b h s e

theorem firstOperand1_apply (c : Dev nD) (b : Fin 4) (h : Fin 12) (s : Fin 4096) (e : Fin 64) :
    V1 (F := Ideal) m ρ c main_v1 (ix3 (row b h) s e) = m ((c : Thread nD τ).loc main_arg1) (ix4 b h s e) := by
  have hv : W1 (F := Ideal) m ρ c (Proc.devRef .tc main_v1)
      = fun i => shapeCast main_v1.ty.shape (W0 m ρ c (Proc.devRef .tc main_arg1)) shapeCasts_S4x12x4096x64_S48x4096x64 i := by
    dsimp only [W1]
    simp (disch := decide) only [StableHlo.after_cons, StableHlo.after_nil, StableHlo.nullary_result', StableHlo.unary_result', StableHlo.binary_result', StableHlo.reshape_result', StableHlo.nullary_result_ne', StableHlo.unary_result_ne', StableHlo.binary_result_ne', StableHlo.reshape_result_ne', StableHlo.nary_result_ne']
  show W1 (F := Ideal) m ρ c (Proc.devRef .tc main_v1) (ix3 (row b h) s e) = _
  rw [hv]
  exact fold_apply (S := 4096) (m ((c : Thread nD τ).loc main_arg1)) shapeCasts_S4x12x4096x64_S48x4096x64 b h s e

theorem firstOperand2_apply (c : Dev nD) (b : Fin 4) (h : Fin 12) (s : Fin 4096) (e : Fin 64) :
    V1 (F := Ideal) m ρ c main_v2 (ix3 (row b h) s e) = m ((c : Thread nD τ).loc main_arg2) (ix4 b h s e) := by
  have hv : W1 (F := Ideal) m ρ c (Proc.devRef .tc main_v2)
      = fun i => shapeCast main_v2.ty.shape (W0 m ρ c (Proc.devRef .tc main_arg2)) shapeCasts_S4x12x4096x64_S48x4096x64 i := by
    dsimp only [W1]
    simp (disch := decide) only [StableHlo.after_cons, StableHlo.after_nil, StableHlo.nullary_result', StableHlo.unary_result', StableHlo.binary_result', StableHlo.reshape_result', StableHlo.nullary_result_ne', StableHlo.unary_result_ne', StableHlo.binary_result_ne', StableHlo.reshape_result_ne', StableHlo.nary_result_ne']
  show W1 (F := Ideal) m ρ c (Proc.devRef .tc main_v2) (ix3 (row b h) s e) = _
  rw [hv]
  exact fold_apply (S := 4096) (m ((c : Thread nD τ).loc main_arg2)) shapeCasts_S4x12x4096x64_S48x4096x64 b h s e

theorem firstMask_apply (c : Dev nD) (b : Fin 4) (h : Fin 12) (s : Fin 4096) :
    V1 (F := Ideal) m ρ c main_v4 (ix3 (row b h) (0 : Fin 1) s) = m ((c : Thread nD τ).loc main_arg3) (ix4 b (0 : Fin 1) (0 : Fin 1) s) := by
  have hv : W1 (F := Ideal) m ρ c (Proc.devRef .tc main_v4)
      = fun i => shapeCast main_v4.ty.shape (broadcastInDim S4x12x1x4096 ![0, 1, 2, 3] bcast_S4x1x1x4096_S4x12x1x4096_0_1_2_3
          (W0 m ρ c (Proc.devRef .tc main_arg3))) shapeCasts_S4x12x1x4096_S48x1x4096 i := by
    dsimp only [W1]
    simp (disch := decide) only [StableHlo.after_cons, StableHlo.after_nil, StableHlo.nullary_result', StableHlo.unary_result', StableHlo.binary_result', StableHlo.reshape_result', StableHlo.nullary_result_ne', StableHlo.unary_result_ne', StableHlo.binary_result_ne', StableHlo.reshape_result_ne', StableHlo.nary_result_ne']
  show W1 (F := Ideal) m ρ c (Proc.devRef .tc main_v4) (ix3 (row b h) (0 : Fin 1) s) = _
  rw [hv]
  exact maskRows_apply (S := 4096) (m ((c : Thread nD τ).loc main_arg3)) bcast_S4x1x1x4096_S4x12x1x4096_0_1_2_3 shapeCasts_S4x12x1x4096_S48x1x4096 b h s

/-! ## The second call's operands, read at an index: 128 positions dropped at the front -/

theorem secondOperand0_apply (c : Dev nD) (b : Fin 4) (h : Fin 12) (n : Fin 15) (r : Fin 256) (e : Fin 64) :
    V3 (F := Ideal) m ρ c main_v13 (ix3 (row b h) (Cert.Spec.midPos n r) e) = m ((c : Thread nD τ).loc main_arg0) (ix4 b h (Cert.Spec.shiftPos n r) e) := by
  have hv : W3 (F := Ideal) m ρ c (Proc.devRef .tc main_v13)
      = fun i => shapeCast main_v13.ty.shape (extractStridedSlice S4x12x3840x64 ![0, 0, 128, 0] (W2 m ρ c (Proc.devRef .tc main_arg0))
          slices_S4x12x4096x64_S4x12x3840x64_0_0_128_0) shapeCasts_S4x12x3840x64_S48x3840x64 i := by
    dsimp only [W3]
    simp (disch := decide) only [StableHlo.after_cons, StableHlo.after_nil, StableHlo.nullary_result', StableHlo.unary_result', StableHlo.binary_result', StableHlo.reshape_result', StableHlo.nullary_result_ne', StableHlo.unary_result_ne', StableHlo.binary_result_ne', StableHlo.reshape_result_ne', StableHlo.nary_result_ne']
  show W3 (F := Ideal) m ρ c (Proc.devRef .tc main_v13) (ix3 (row b h) (Cert.Spec.midPos n r) e) = _
  rw [hv, W2_main_arg0]
  refine (fold_apply (S := 3840) _ shapeCasts_S4x12x3840x64_S48x3840x64 b h (Cert.Spec.midPos n r) e).trans ?_
  refine (dropFront_apply (S := 4096) (T := 3840) (off := 128) (m ((c : Thread nD τ).loc main_arg0)) slices_S4x12x4096x64_S4x12x3840x64_0_0_128_0 b h (Cert.Spec.midPos n r) e
    (by show 128 + (256 * n.val + r.val) < 4096; have := n.isLt; have := r.isLt; omega)).trans ?_
  exact congrArg (fun s => m ((c : Thread nD τ).loc main_arg0) (ix4 b h s e)) (Fin.ext (by show 128 + (256 * n.val + r.val) = 128 + 256 * n.val + r.val; omega))

theorem secondOperand1_apply (c : Dev nD) (b : Fin 4) (h : Fin 12) (n : Fin 15) (r : Fin 256) (e : Fin 64) :
    V3 (F := Ideal) m ρ c main_v15 (ix3 (row b h) (Cert.Spec.midPos n r) e) = m ((c : Thread nD τ).loc main_arg1) (ix4 b h (Cert.Spec.shiftPos n r) e) := by
  have hv : W3 (F := Ideal) m ρ c (Proc.devRef .tc main_v15)
      = fun i => shapeCast main_v15.ty.shape (extractStridedSlice S4x12x3840x64 ![0, 0, 128, 0] (W2 m ρ c (Proc.devRef .tc main_arg1))
          slices_S4x12x4096x64_S4x12x3840x64_0_0_128_0) shapeCasts_S4x12x3840x64_S48x3840x64 i := by
    dsimp only [W3]
    simp (disch := decide) only [StableHlo.after_cons, StableHlo.after_nil, StableHlo.nullary_result', StableHlo.unary_result', StableHlo.binary_result', StableHlo.reshape_result', StableHlo.nullary_result_ne', StableHlo.unary_result_ne', StableHlo.binary_result_ne', StableHlo.reshape_result_ne', StableHlo.nary_result_ne']
  show W3 (F := Ideal) m ρ c (Proc.devRef .tc main_v15) (ix3 (row b h) (Cert.Spec.midPos n r) e) = _
  rw [hv, W2_main_arg1]
  refine (fold_apply (S := 3840) _ shapeCasts_S4x12x3840x64_S48x3840x64 b h (Cert.Spec.midPos n r) e).trans ?_
  refine (dropFront_apply (S := 4096) (T := 3840) (off := 128) (m ((c : Thread nD τ).loc main_arg1)) slices_S4x12x4096x64_S4x12x3840x64_0_0_128_0 b h (Cert.Spec.midPos n r) e
    (by show 128 + (256 * n.val + r.val) < 4096; have := n.isLt; have := r.isLt; omega)).trans ?_
  exact congrArg (fun s => m ((c : Thread nD τ).loc main_arg1) (ix4 b h s e)) (Fin.ext (by show 128 + (256 * n.val + r.val) = 128 + 256 * n.val + r.val; omega))

theorem secondOperand2_apply (c : Dev nD) (b : Fin 4) (h : Fin 12) (n : Fin 15) (r : Fin 256) (e : Fin 64) :
    V3 (F := Ideal) m ρ c main_v17 (ix3 (row b h) (Cert.Spec.midPos n r) e) = m ((c : Thread nD τ).loc main_arg2) (ix4 b h (Cert.Spec.shiftPos n r) e) := by
  have hv : W3 (F := Ideal) m ρ c (Proc.devRef .tc main_v17)
      = fun i => shapeCast main_v17.ty.shape (extractStridedSlice S4x12x3840x64 ![0, 0, 128, 0] (W2 m ρ c (Proc.devRef .tc main_arg2))
          slices_S4x12x4096x64_S4x12x3840x64_0_0_128_0) shapeCasts_S4x12x3840x64_S48x3840x64 i := by
    dsimp only [W3]
    simp (disch := decide) only [StableHlo.after_cons, StableHlo.after_nil, StableHlo.nullary_result', StableHlo.unary_result', StableHlo.binary_result', StableHlo.reshape_result', StableHlo.nullary_result_ne', StableHlo.unary_result_ne', StableHlo.binary_result_ne', StableHlo.reshape_result_ne', StableHlo.nary_result_ne']
  show W3 (F := Ideal) m ρ c (Proc.devRef .tc main_v17) (ix3 (row b h) (Cert.Spec.midPos n r) e) = _
  rw [hv, W2_main_arg2]
  refine (fold_apply (S := 3840) _ shapeCasts_S4x12x3840x64_S48x3840x64 b h (Cert.Spec.midPos n r) e).trans ?_
  refine (dropFront_apply (S := 4096) (T := 3840) (off := 128) (m ((c : Thread nD τ).loc main_arg2)) slices_S4x12x4096x64_S4x12x3840x64_0_0_128_0 b h (Cert.Spec.midPos n r) e
    (by show 128 + (256 * n.val + r.val) < 4096; have := n.isLt; have := r.isLt; omega)).trans ?_
  exact congrArg (fun s => m ((c : Thread nD τ).loc main_arg2) (ix4 b h s e)) (Fin.ext (by show 128 + (256 * n.val + r.val) = 128 + 256 * n.val + r.val; omega))

theorem secondMask_apply (c : Dev nD) (b : Fin 4) (h : Fin 12) (n : Fin 15) (r : Fin 256) :
    V3 (F := Ideal) m ρ c main_v20 (ix3 (row b h) (0 : Fin 1) (Cert.Spec.midPos n r))
      = m ((c : Thread nD τ).loc main_arg3) (ix4 b (0 : Fin 1) (0 : Fin 1) (Cert.Spec.shiftPos n r)) := by
  have hv : W3 (F := Ideal) m ρ c (Proc.devRef .tc main_v20)
      = fun i => shapeCast main_v20.ty.shape (broadcastInDim S4x12x1x3840 ![0, 1, 2, 3] bcast_S4x1x1x3840_S4x12x1x3840_0_1_2_3
          (extractStridedSlice S4x1x1x3840 ![0, 0, 0, 128] (W2 m ρ c (Proc.devRef .tc main_arg3)) slices_S4x1x1x4096_S4x1x1x3840_0_0_0_128))
          shapeCasts_S4x12x1x3840_S48x1x3840 i := by
    dsimp only [W3]
    simp (disch := decide) only [StableHlo.after_cons, StableHlo.after_nil, StableHlo.nullary_result', StableHlo.unary_result', StableHlo.binary_result', StableHlo.reshape_result', StableHlo.nullary_result_ne', StableHlo.unary_result_ne', StableHlo.binary_result_ne', StableHlo.reshape_result_ne', StableHlo.nary_result_ne']
  show W3 (F := Ideal) m ρ c (Proc.devRef .tc main_v20) (ix3 (row b h) (0 : Fin 1) (Cert.Spec.midPos n r)) = _
  rw [hv, W2_main_arg3]
  refine (maskRows_apply (S := 3840) _ bcast_S4x1x1x3840_S4x12x1x3840_0_1_2_3 shapeCasts_S4x12x1x3840_S48x1x3840 b h (Cert.Spec.midPos n r)).trans ?_
  refine (dropFrontMask_apply (S := 4096) (T := 3840) (off := 128) (m ((c : Thread nD τ).loc main_arg3)) slices_S4x1x1x4096_S4x1x1x3840_0_0_0_128 b (Cert.Spec.midPos n r)
    (by show 128 + (256 * n.val + r.val) < 4096; have := n.isLt; have := r.isLt; omega)).trans ?_
  exact congrArg (fun s => m ((c : Thread nD τ).loc main_arg3) (ix4 b (0 : Fin 1) (0 : Fin 1) s)) (Fin.ext (by show 128 + (256 * n.val + r.val) = 128 + 256 * n.val + r.val; omega))

/-! ## The two passes as whole arrays -/

/-- The first call's output array, unfolded to [4, 12, 4096, 64]. -/
def firstOut (c : Dev nD) : (⟨S4x12x4096x64, .f32⟩ : BufTy).Contents (Elt Ideal) :=
  fun i => shapeCast S4x12x4096x64 (W2 (F := Ideal) m ρ c (Proc.devRef .tc main_v5)) shapeCasts_S48x4096x64_S4x12x4096x64 i
/-- The second call's output array, unfolded to [4, 12, 3840, 64]. -/
def secondOut (c : Dev nD) : (⟨S4x12x3840x64, .f32⟩ : BufTy).Contents (Elt Ideal) :=
  fun i => shapeCast S4x12x3840x64 (W4 (F := Ideal) m ρ c (Proc.devRef .tc main_v21)) shapeCasts_S48x3840x64_S4x12x3840x64 i

/-- A chunk depends only on its four row families. -/
theorem chunk_congr {q q' k k' v v' : Fin 256 → Fin 64 → EReal} {msk msk' : Fin 256 → EReal} (hq : q = q') (hk : k = k') (hv : v = v')
    (hm : msk = msk') (r : Fin 256) (d : Fin 64) : Cert.Spec.chunk q k v msk r d = Cert.Spec.chunk q' k' v' msk' r d := by
  subst hq; subst hk; subst hv; subst hm; rfl

/-- The first call's output, unfolded to [4, 12, 4096, 64], is the full pass of the arguments. -/
theorem firstPass (c : Dev nD) :
    firstOut m ρ c
      = Cert.Spec.full (m ((c : Thread nD τ).loc main_arg0)) (m ((c : Thread nD τ).loc main_arg1)) (m ((c : Thread nD τ).loc main_arg2)) (m ((c : Thread nD τ).loc main_arg3)) := by
  refine Cert.Spec.eq_full _ _ _ _ _ fun b h n r d => ?_
  show shapeCast main_v6.ty.shape (W2 (F := Ideal) m ρ c (Proc.devRef .tc (Pipeline.arrRef spec0 4))) shapeCasts_S48x4096x64_S4x12x4096x64
    (ix4 b h (Cert.Spec.fullPos n r) d) = _
  rw [W2_arr, arrayA]
  refine (unfold_apply (S := 4096) _ shapeCasts_S48x4096x64_S4x12x4096x64 b h (Cert.Spec.fullPos n r) d).trans ?_
  rw [passA_apply]
  unfold passAAt Cert.Spec.fullAt
  exact chunk_congr
    (funext fun r' => funext fun e => firstOperand0_apply m ρ c b h (Cert.Spec.fullPos n r') e)
    (funext fun j => funext fun e => firstOperand1_apply m ρ c b h (Cert.Spec.fullPos n j) e)
    (funext fun j => funext fun e => firstOperand2_apply m ρ c b h (Cert.Spec.fullPos n j) e)
    (funext fun j => firstMask_apply m ρ c b h (Cert.Spec.fullPos n j)) r d

/-- The second call's output, unfolded to [4, 12, 3840, 64], is the shifted pass of the arguments. -/
theorem secondPass (c : Dev nD) :
    secondOut m ρ c
      = Cert.Spec.shifted (m ((c : Thread nD τ).loc main_arg0)) (m ((c : Thread nD τ).loc main_arg1)) (m ((c : Thread nD τ).loc main_arg2)) (m ((c : Thread nD τ).loc main_arg3)) := by
  refine Cert.Spec.eq_shifted _ _ _ _ _ fun b h n r d => ?_
  show shapeCast main_v22.ty.shape (W4 (F := Ideal) m ρ c (Proc.devRef .tc (Pipeline.arrRef spec1 4))) shapeCasts_S48x3840x64_S4x12x3840x64
    (ix4 b h (Cert.Spec.midPos n r) d) = _
  rw [W4_arr, arrayB]
  refine (unfold_apply (S := 3840) _ shapeCasts_S48x3840x64_S4x12x3840x64 b h (Cert.Spec.midPos n r) d).trans ?_
  rw [passB_apply]
  unfold passBAt Cert.Spec.shiftAt
  exact chunk_congr
    (funext fun r' => funext fun e => secondOperand0_apply m ρ c b h n r' e)
    (funext fun j => funext fun e => secondOperand1_apply m ρ c b h n j e)
    (funext fun j => funext fun e => secondOperand2_apply m ρ c b h n j e)
    (funext fun j => secondMask_apply m ρ c b h n j) r d

/-! ## The result array -/

/-- What the host operations between the calls leave in the three buffers the last stretch reads: slices of the first
    pass, the middle one scaled by ½. -/
theorem edgeLo_eq (c : Dev nD) : W4 (F := Ideal) m ρ c (Proc.devRef .tc main_v7)
    = extractStridedSlice S4x12x128x64 ![0, 0, 0, 0]
        (firstOut m ρ c)
        slices_S4x12x4096x64_S4x12x128x64_0_0_0_0 := by
  rw [W4_of_ne m ρ c main_v7 (by decide)]
  dsimp only [W3]
  simp (disch := decide) only [StableHlo.after_cons, StableHlo.after_nil, StableHlo.nullary_result', StableHlo.unary_result', StableHlo.binary_result', StableHlo.reshape_result', StableHlo.nullary_result_ne', StableHlo.unary_result_ne', StableHlo.binary_result_ne', StableHlo.reshape_result_ne', StableHlo.nary_result_ne']
  rfl
theorem edgeHi_eq (c : Dev nD) : W4 (F := Ideal) m ρ c (Proc.devRef .tc main_v8)
    = extractStridedSlice S4x12x128x64 ![0, 0, 3968, 0]
        (firstOut m ρ c)
        slices_S4x12x4096x64_S4x12x128x64_0_0_3968_0 := by
  rw [W4_of_ne m ρ c main_v8 (by decide)]
  dsimp only [W3]
  simp (disch := decide) only [StableHlo.after_cons, StableHlo.after_nil, StableHlo.nullary_result', StableHlo.unary_result', StableHlo.binary_result', StableHlo.reshape_result', StableHlo.nullary_result_ne', StableHlo.unary_result_ne', StableHlo.binary_result_ne', StableHlo.reshape_result_ne', StableHlo.nary_result_ne']
  rfl
theorem middleHalf_eq (c : Dev nD) : W4 (F := Ideal) m ρ c (Proc.devRef .tc main_v11)
    = (mulf (broadcastInDim S4x12x3840x64 ![] bcast_S_S4x12x3840x64 (constant (F := Ideal) S_ .f32 0x3F000000#32))
        (extractStridedSlice S4x12x3840x64 ![0, 0, 128, 0]
          (firstOut m ρ c)
          slices_S4x12x4096x64_S4x12x3840x64_0_0_128_0) : (⟨S4x12x3840x64, .f32⟩ : BufTy).Contents (Elt Ideal)) := by
  rw [W4_of_ne m ρ c main_v11 (by decide)]
  dsimp only [W3]
  simp (disch := decide) only [StableHlo.after_cons, StableHlo.after_nil, StableHlo.nullary_result', StableHlo.unary_result', StableHlo.binary_result', StableHlo.reshape_result', StableHlo.nullary_result_ne', StableHlo.unary_result_ne', StableHlo.binary_result_ne', StableHlo.reshape_result_ne', StableHlo.nary_result_ne']
  rfl

/-- THE RESULT: at the ideal values the program's result array is the specification's result of its four arguments. -/
theorem result_value (c : Dev nD) :
    W5 (F := Ideal) m ρ c (Proc.devRef .tc main_v26)
      = Cert.Spec.result (m ((c : Thread nD τ).loc main_arg0)) (m ((c : Thread nD τ).loc main_arg1)) (m ((c : Thread nD τ).loc main_arg2)) (m ((c : Thread nD τ).loc main_arg3)) := by
  have ht : W5 (F := Ideal) m ρ c (Proc.devRef .tc main_v26)
      = join3 S4x12x4096x64 2 S4x12x128x64 S4x12x3840x64 S4x12x128x64 concatenates_S4x12x128x64_S4x12x3840x64_S4x12x128x64_S4x12x4096x64_d2
          (W4 m ρ c (Proc.devRef .tc main_v7))
          (addf (W4 m ρ c (Proc.devRef .tc main_v11) : (⟨S4x12x3840x64, .f32⟩ : BufTy).Contents (Elt Ideal))
            (mulf (broadcastInDim S4x12x3840x64 ![] bcast_S_S4x12x3840x64 (constant (F := Ideal) S_ .f32 0x3F000000#32))
              (secondOut m ρ c) : (⟨S4x12x3840x64, .f32⟩ : BufTy).Contents (Elt Ideal)) : (⟨S4x12x3840x64, .f32⟩ : BufTy).Contents (Elt Ideal))
          (W4 m ρ c (Proc.devRef .tc main_v8)) := by
    dsimp only [W5]
    simp only [StableHlo.after_cons, StableHlo.after_nil]
    refine (StableHlo.nary3_result_of (x := main_v7) (a := main_v25) (b := main_v8) (y := main_v26) _ _ _ _
      (join3 S4x12x4096x64 2 S4x12x128x64 S4x12x3840x64 S4x12x128x64 concatenates_S4x12x128x64_S4x12x3840x64_S4x12x128x64_S4x12x4096x64_d2)
      (fun _ => rfl)).trans ?_
    simp (disch := decide) only [StableHlo.nullary_result', StableHlo.unary_result', StableHlo.binary_result', StableHlo.reshape_result', StableHlo.nullary_result_ne', StableHlo.unary_result_ne', StableHlo.binary_result_ne', StableHlo.reshape_result_ne', StableHlo.nary_result_ne']
    rfl
  rw [ht, edgeLo_eq, edgeHi_eq, middleHalf_eq, firstPass, secondPass]
  rfl

end Cert.KernelIdeal.Attn

end
-- ==== Proof.RefValue.lean ====
/-
  The reference's value.

  The reference computes the same block-diagonal attention on the whole arrays: it views the 4096 positions of every
  (batch, head) row as 16 chunks of 256 (a reshape to five axes), takes q·kᵀ within each chunk, divides by 8, adds the
  mask carried over heads and rows, subtracts the guarded row maximum, exponentiates, divides by the row sum, applies
  the result to the values and views the five axes as four again; it does the same on the 3840 positions left by
  dropping 128 at either end, in 15 chunks; and it joins the first 128 positions of the first pass, the mean of the
  two passes in between, and the last 128 positions of the first pass.

  Read at (b, h, chunk n, row r, column d) each pass is the specification's `chunk` of the rows the chunk covers —
  positions 256 n + r of the first pass, 128 + 256 n + r of the second —, so the two passes are the specification's
  `full` and `shifted`, and the join is the specification's `assemble` of them.  Two points of arithmetic: dividing
  by the word of 8 is multiplying by the word of ⅛ on every extended real, and the host's maximum over a row, a fold
  of `max` in some order from −∞, is the fold over the row's coordinates.
-/
import proofs.«143526_j20564303413308_1_alg».proof.Proof.RefRead
import proofs.«143526_j20564303413308_1_alg».proof.Proof.Spec
import Idealize.ShloMosaic.Lib.ValueIdx
import Idealize.ShloMosaic.Lib.Pipeline.Value
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

/-! ## Two words, and division by eight -/

/-- The word 0x41000000 denotes 8 … -/
theorem ofBits_eight : Ideal.ofBits .f32 0x41000000#32 = ((8 : ℝ) : EReal) := by
  simp [Ideal.ofBits, Ideal.ieee, -EReal.coe_mul]; norm_num

/-- … and the word 0x3E000000 its reciprocal. -/
theorem ofBits_eighth : Ideal.ofBits .f32 0x3E000000#32 = ((1 / 8 : ℝ) : EReal) := by
  simp [Ideal.ofBits, Ideal.ieee, -EReal.coe_mul]; norm_num

/-- Dividing by the word of 8 is multiplying by the word of ⅛, on every extended real. -/
theorem div_eight (x : EReal) : Ideal.div x (Ideal.ofBits .f32 0x41000000#32) = x * Ideal.ofBits .f32 0x3E000000#32 := by
  rw [ofBits_eight, ofBits_eighth]
  exact Ideal.div_coe (by norm_num) x

/-! ## A maximum over the last of five axes -/

/-- The reduced index (p, q, r, s) with coordinate k put back on the last axis is (p, q, r, s, k). -/
theorem lift_last5 {a b c d n : ℕ} (h : (⟨5, ![a, b, c, d, n]⟩ : Shape).Reduces [4] (⟨4, ![a, b, c, d]⟩ : Shape))
    (p : Fin a) (q : Fin b) (r : Fin c) (s : Fin d) (k : Fin ((⟨5, ![a, b, c, d, n]⟩ : Shape).size 4)) :
    h.lift (ix4 p q r s) k = ix5 p q r s (⟨k.val, k.isLt⟩ : Fin n) := by
  funext e; apply Fin.ext
  match e with
  | ⟨0, _⟩ => rfl
  | ⟨1, _⟩ => rfl
  | ⟨2, _⟩ => rfl
  | ⟨3, _⟩ => rfl
  | ⟨4, _⟩ => rfl

/-- The host's reduce with a maximum body over the last of five axes, at (p, q, r, s): the fold of `max` from the
    initial value over the entries (p, q, r, s, k). -/
theorem hostMaxLast5 {a b c d n : ℕ} {u : Shape} (src : FVec Ideal (⟨5, ![a, b, c, d, n]⟩ : Shape) .f32) (init : FVec Ideal u .f32)
    (h' : (⟨5, ![a, b, c, d, n]⟩ : Shape).ReducesTo [4] (⟨4, ![a, b, c, d]⟩ : Shape))
    (h : (⟨5, ![a, b, c, d, n]⟩ : Shape).Reduces [4] (⟨4, ![a, b, c, d]⟩ : Shape)) (hu : 0 < u.numel)
    (p : Fin a) (q : Fin b) (r : Fin c) (s : Fin d) :
    Host.reduce FloatOps.maximumf src init h' hu (ix4 p q r s)
      = (Finset.univ : Finset (Fin n)).fold max (init (Shape.Idx.first hu)) (fun k => src (ix5 p q r s k)) :=
  (Host.reduce_eq_fold_single FloatOps.maximumf src init h' h hu (ix4 p q r s)).trans
    (congrArg (fun f => Finset.fold max (init (Shape.Idx.first hu)) f Finset.univ)
      (funext fun k => congrArg src (lift_last5 h p q r s k)))

/-- A row's maximum guarded once more against −∞: the specification's `rowMax`. -/
theorem guard_eq (m y : EReal) (hm : m = Ideal.ofBits .f32 0xFF800000#32) (s : Fin 256 → EReal)
    (hy : y = (Finset.univ : Finset (Fin 256)).fold max (Ideal.ofBits .f32 0xFF800000#32) s) :
    FloatOps.maximumf (F := Ideal) (φ := .f32) m y = Cert.Spec.rowMax s := by
  subst hm hy
  rfl

variable (x0 x1 x2 : (⟨S4x12x4096x64, .f32⟩ : BufTy).Contents (Elt Ideal)) (x3 : (⟨S4x1x1x4096, .f32⟩ : BufTy).Contents (Elt Ideal))

/-! ## The first pass: its inputs -/

/-- The arrays viewed in 16 chunks: (b, h, n, r, e) is position 256 n + r of row (b, h). -/
theorem F_inIdx (b : Fin 4) (h : Fin 12) (n : Fin 16) (r : Fin 256) (e : Fin 64) :
    idx_main_v0 (ix5 b h n r e) = ix4 b h (Cert.Spec.fullPos n r) e :=
  funext fun a => Fin.ext (by
    have hb := b.isLt; have hh := h.isLt; have hn := n.isLt; have hr := r.isLt; have he := e.isLt
    match a with
    | ⟨0, _⟩ => show ((((b.val * 12 + h.val) * 16 + n.val) * 256 + r.val) * 64 + e.val) / 3145728 = b.val; omega
    | ⟨1, _⟩ => show ((((b.val * 12 + h.val) * 16 + n.val) * 256 + r.val) * 64 + e.val) / 262144 % 12 = h.val; omega
    | ⟨2, _⟩ => show ((((b.val * 12 + h.val) * 16 + n.val) * 256 + r.val) * 64 + e.val) / 64 % 4096 = 256 * n.val + r.val; omega
    | ⟨3, _⟩ => show ((((b.val * 12 + h.val) * 16 + n.val) * 256 + r.val) * 64 + e.val) % 64 = e.val; omega)

theorem F_inQ (b : Fin 4) (h : Fin 12) (n : Fin 16) (r : Fin 256) (e : Fin 64) :
    val_main_v0 (F := Ideal) x0 (ix5 b h n r e) = x0 (ix4 b h (Cert.Spec.fullPos n r) e) :=
  (val_main_v0_apply x0 _).trans (congrArg x0 (F_inIdx b h n r e))
theorem F_inK (b : Fin 4) (h : Fin 12) (n : Fin 16) (r : Fin 256) (e : Fin 64) :
    val_main_v1 (F := Ideal) x1 (ix5 b h n r e) = x1 (ix4 b h (Cert.Spec.fullPos n r) e) :=
  (val_main_v1_apply x1 _).trans (congrArg x1 (F_inIdx b h n r e))
theorem F_inV (b : Fin 4) (h : Fin 12) (n : Fin 16) (r : Fin 256) (e : Fin 64) :
    val_main_v2 (F := Ideal) x2 (ix5 b h n r e) = x2 (ix4 b h (Cert.Spec.fullPos n r) e) :=
  (val_main_v2_apply x2 _).trans (congrArg x2 (F_inIdx b h n r e))

/-- The mask viewed in 16 chunks: (b, 0, n, 0, j) is position 256 n + j of row b. -/
theorem F_inMIdx (b : Fin 4) (n : Fin 16) (j : Fin 256) :
    idx_main_v3 (ix5 b (0 : Fin 1) n (0 : Fin 1) j) = ix4 b (0 : Fin 1) (0 : Fin 1) (Cert.Spec.fullPos n j) :=
  funext fun a => Fin.ext (by
    have hb := b.isLt; have hn := n.isLt; have hj := j.isLt
    match a with
    | ⟨0, _⟩ => show ((((b.val * 1 + 0) * 16 + n.val) * 1 + 0) * 256 + j.val) / 4096 = b.val; omega
    | ⟨1, _⟩ => rfl
    | ⟨2, _⟩ => rfl
    | ⟨3, _⟩ => show ((((b.val * 1 + 0) * 16 + n.val) * 1 + 0) * 256 + j.val) % 4096 = 256 * n.val + j.val; omega)
theorem F_inM (b : Fin 4) (n : Fin 16) (j : Fin 256) :
    val_main_v3 (F := Ideal) x3 (ix5 b (0 : Fin 1) n (0 : Fin 1) j) = x3 (ix4 b (0 : Fin 1) (0 : Fin 1) (Cert.Spec.fullPos n j)) :=
  (val_main_v3_apply x3 _).trans (congrArg x3 (F_inMIdx b n j))

/-! ## The first pass, step by step at (b, h, n, r, ·) -/

/-- The operand indices of q·kᵀ at (b, h, n, r, j) and contraction coordinate e: (b, h, n, r, e) and (b, h, n, j, e). -/
theorem F_lidxQK (b : Fin 4) (h : Fin 12) (n : Fin 16) (r j : Fin 256) (e : Fin 64) : lidx_main_v4 (ix5 b h n r j) e = ix5 b h n r e :=
  funext fun a => Fin.ext (by match a with | ⟨0, _⟩ => rfl | ⟨1, _⟩ => rfl | ⟨2, _⟩ => rfl | ⟨3, _⟩ => rfl | ⟨4, _⟩ => rfl)
theorem F_ridxQK (b : Fin 4) (h : Fin 12) (n : Fin 16) (r j : Fin 256) (e : Fin 64) : ridx_main_v4 (ix5 b h n r j) e = ix5 b h n j e :=
  funext fun a => Fin.ext (by match a with | ⟨0, _⟩ => rfl | ⟨1, _⟩ => rfl | ⟨2, _⟩ => rfl | ⟨3, _⟩ => rfl | ⟨4, _⟩ => rfl)

/-- q·kᵀ at (b, h, n, r, j): the inner product of query row r and key row j of chunk n. -/
theorem F_qk (b : Fin 4) (h : Fin 12) (n : Fin 16) (r j : Fin 256) :
    val_main_v4 (F := Ideal) x0 x1 (ix5 b h n r j) = ∑ e : Fin 64, x0 (ix4 b h (Cert.Spec.fullPos n r) e) * x1 (ix4 b h (Cert.Spec.fullPos n j) e) :=
  (val_main_v4_apply x0 x1 _).trans (Finset.sum_congr rfl fun e _ => by
    rw [F_lidxQK, F_ridxQK, F_inQ, F_inK])

/-- The mask carried over heads and rows reads (b, 0, n, 0, j). -/
theorem F_maskIdx (b : Fin 4) (h : Fin 12) (n : Fin 16) (r j : Fin 256) : idx_main_v7 (ix5 b h n r j) = ix5 b (0 : Fin 1) n (0 : Fin 1) j :=
  funext fun a => Fin.ext (by match a with | ⟨0, _⟩ => rfl | ⟨1, _⟩ => rfl | ⟨2, _⟩ => rfl | ⟨3, _⟩ => rfl | ⟨4, _⟩ => rfl)
theorem F_mask (b : Fin 4) (h : Fin 12) (n : Fin 16) (r j : Fin 256) :
    val_main_v7 (F := Ideal) x3 (ix5 b h n r j) = x3 (ix4 b (0 : Fin 1) (0 : Fin 1) (Cert.Spec.fullPos n j)) :=
  (val_main_v7_apply x3 _).trans ((congrArg (val_main_v3 (F := Ideal) x3) (F_maskIdx b h n r j)).trans (F_inM x3 b n j))

/-- The scores at (b, h, n, r, j): the specification's score of row r against key j of chunk n. -/
theorem F_score (b : Fin 4) (h : Fin 12) (n : Fin 16) (r j : Fin 256) :
    val_main_v8 (F := Ideal) x0 x1 x3 (ix5 b h n r j) = Cert.Spec.score (fun r' e => x0 (ix4 b h (Cert.Spec.fullPos n r') e)) (fun j' e => x1 (ix4 b h (Cert.Spec.fullPos n j') e)) (fun j' => x3 (ix4 b (0 : Fin 1) (0 : Fin 1) (Cert.Spec.fullPos n j'))) r j := by
  show Ideal.div (val_main_v4 (F := Ideal) x0 x1 (ix5 b h n r j)) (Ideal.ofBits .f32 0x41000000#32) + val_main_v7 (F := Ideal) x3 (ix5 b h n r j) = _
  rw [F_qk, F_mask, div_eight]
  rfl

/-- The host's maximum over a row, at (b, h, n, r): the fold of `max` from −∞ over the row's entries. -/
theorem F_hostMax (b : Fin 4) (h : Fin 12) (n : Fin 16) (r : Fin 256) :
    val_main_v9 (F := Ideal) x0 x1 x3 (ix4 b h n r)
      = (Finset.univ : Finset (Fin 256)).fold max (Ideal.ofBits .f32 0xFF800000#32) (fun j => val_main_v8 (F := Ideal) x0 x1 x3 (ix5 b h n r j)) := by
  unfold val_main_v9
  exact hostMaxLast5 (val_main_v8 (F := Ideal) x0 x1 x3) (val_main_cst_0 (F := Ideal)) reducesTo_S4x12x16x256x256_S4x12x16x256_d4 (by decide) h_S_ b h n r

/-- The guarded row maximum at (b, h, n, r): the specification's, of row r of the scores. -/
theorem F_rowMax (b : Fin 4) (h : Fin 12) (n : Fin 16) (r : Fin 256) :
    val_main_v11 (F := Ideal) x0 x1 x3 (ix4 b h n r) = Cert.Spec.rowMax (fun j => val_main_v8 (F := Ideal) x0 x1 x3 (ix5 b h n r j)) :=
  (val_main_v11_apply x0 x1 x3 _).trans (guard_eq _ _ rfl _ (F_hostMax x0 x1 x3 b h n r))

/-- A per-row quantity carried back against the scores reads (b, h, n, r) at every (b, h, n, r, j). -/
theorem F_colIdx (b : Fin 4) (h : Fin 12) (n : Fin 16) (r j : Fin 256) : idx_main_v13 (ix5 b h n r j) = ix5 b h n r (0 : Fin 1) :=
  funext fun a => Fin.ext (by match a with | ⟨0, _⟩ => rfl | ⟨1, _⟩ => rfl | ⟨2, _⟩ => rfl | ⟨3, _⟩ => rfl | ⟨4, _⟩ => rfl)
theorem F_unitIdx (b : Fin 4) (h : Fin 12) (n : Fin 16) (r : Fin 256) : idx_main_v12 (ix5 b h n r (0 : Fin 1)) = ix4 b h n r :=
  funext fun a => Fin.ext (by match a with | ⟨0, _⟩ => rfl | ⟨1, _⟩ => rfl | ⟨2, _⟩ => rfl | ⟨3, _⟩ => rfl)
theorem F_carryMax (b : Fin 4) (h : Fin 12) (n : Fin 16) (r j : Fin 256) :
    val_main_v13 (F := Ideal) x0 x1 x3 (ix5 b h n r j) = val_main_v11 (F := Ideal) x0 x1 x3 (ix4 b h n r) :=
  (val_main_v13_apply x0 x1 x3 _).trans ((congrArg (val_main_v12 (F := Ideal) x0 x1 x3) (F_colIdx b h n r j)).trans
    ((val_main_v12_apply x0 x1 x3 _).trans (congrArg (val_main_v11 (F := Ideal) x0 x1 x3) (F_unitIdx b h n r))))

/-- The weights at (b, h, n, r, j): the specification's weight j of row r of the scores. -/
theorem F_weight (b : Fin 4) (h : Fin 12) (n : Fin 16) (r j : Fin 256) :
    val_main_v15 (F := Ideal) x0 x1 x3 (ix5 b h n r j) = Cert.Spec.weight (fun j' => val_main_v8 (F := Ideal) x0 x1 x3 (ix5 b h n r j')) j := by
  rw [val_main_v15_apply, val_main_v14_apply, Ideal.hostUnary_exp_def, Ideal.subf_def, F_carryMax, F_rowMax]
  rfl

/-- The row sums at (b, h, n, r): the sum of row r of the weights (the initial zero word is 0). -/
theorem F_sumIdx (b : Fin 4) (h : Fin 12) (n : Fin 16) (r k : Fin 256) : idx_main_v16 (ix4 b h n r) k = ix5 b h n r k :=
  funext fun a => Fin.ext (by match a with | ⟨0, _⟩ => rfl | ⟨1, _⟩ => rfl | ⟨2, _⟩ => rfl | ⟨3, _⟩ => rfl | ⟨4, _⟩ => rfl)
theorem F_rowSum (b : Fin 4) (h : Fin 12) (n : Fin 16) (r : Fin 256) :
    val_main_v16 (F := Ideal) x0 x1 x3 (ix4 b h n r) = ∑ k : Fin 256, val_main_v15 (F := Ideal) x0 x1 x3 (ix5 b h n r k) := by
  refine (val_main_v16_apply x0 x1 x3 _).trans ?_
  rw [val_main_cst_2_apply, Ideal.ofBits_def, Ideal.ofBits_zero_f32, zero_add]
  exact Finset.sum_congr rfl fun k _ => congrArg (val_main_v15 (F := Ideal) x0 x1 x3) (F_sumIdx b h n r k)

theorem F_colIdx' (b : Fin 4) (h : Fin 12) (n : Fin 16) (r j : Fin 256) : idx_main_v18 (ix5 b h n r j) = ix5 b h n r (0 : Fin 1) :=
  funext fun a => Fin.ext (by match a with | ⟨0, _⟩ => rfl | ⟨1, _⟩ => rfl | ⟨2, _⟩ => rfl | ⟨3, _⟩ => rfl | ⟨4, _⟩ => rfl)
theorem F_unitIdx' (b : Fin 4) (h : Fin 12) (n : Fin 16) (r : Fin 256) : idx_main_v17 (ix5 b h n r (0 : Fin 1)) = ix4 b h n r :=
  funext fun a => Fin.ext (by match a with | ⟨0, _⟩ => rfl | ⟨1, _⟩ => rfl | ⟨2, _⟩ => rfl | ⟨3, _⟩ => rfl)
theorem F_carrySum (b : Fin 4) (h : Fin 12) (n : Fin 16) (r j : Fin 256) :
    val_main_v18 (F := Ideal) x0 x1 x3 (ix5 b h n r j) = val_main_v16 (F := Ideal) x0 x1 x3 (ix4 b h n r) :=
  (val_main_v18_apply x0 x1 x3 _).trans ((congrArg (val_main_v17 (F := Ideal) x0 x1 x3) (F_colIdx' b h n r j)).trans
    ((val_main_v17_apply x0 x1 x3 _).trans (congrArg (val_main_v16 (F := Ideal) x0 x1 x3) (F_unitIdx' b h n r))))

/-- The normalized weights at (b, h, n, r, j): the weight over its row's sum. -/
theorem F_prob (b : Fin 4) (h : Fin 12) (n : Fin 16) (r j : Fin 256) :
    val_main_v19 (F := Ideal) x0 x1 x3 (ix5 b h n r j) = Ideal.div (val_main_v15 (F := Ideal) x0 x1 x3 (ix5 b h n r j)) (∑ k : Fin 256, val_main_v15 (F := Ideal) x0 x1 x3 (ix5 b h n r k)) := by
  rw [val_main_v19_apply, Ideal.hostDivf_def, F_carrySum, F_rowSum]

/-- The operand indices of p·v at (b, h, n, r, d) and contraction coordinate j: (b, h, n, r, j) and (b, h, n, j, d). -/
theorem F_lidxPV (b : Fin 4) (h : Fin 12) (n : Fin 16) (r : Fin 256) (d : Fin 64) (j : Fin 256) : lidx_main_v20 (ix5 b h n r d) j = ix5 b h n r j :=
  funext fun a => Fin.ext (by match a with | ⟨0, _⟩ => rfl | ⟨1, _⟩ => rfl | ⟨2, _⟩ => rfl | ⟨3, _⟩ => rfl | ⟨4, _⟩ => rfl)
theorem F_ridxPV (b : Fin 4) (h : Fin 12) (n : Fin 16) (r : Fin 256) (d : Fin 64) (j : Fin 256) : ridx_main_v20 (ix5 b h n r d) j = ix5 b h n j d :=
  funext fun a => Fin.ext (by match a with | ⟨0, _⟩ => rfl | ⟨1, _⟩ => rfl | ⟨2, _⟩ => rfl | ⟨3, _⟩ => rfl | ⟨4, _⟩ => rfl)

/-- p·v at (b, h, n, r, d): row r of the normalized weights against column d of the values of chunk n. -/
theorem F_out (b : Fin 4) (h : Fin 12) (n : Fin 16) (r : Fin 256) (d : Fin 64) :
    val_main_v20 (F := Ideal) x0 x1 x2 x3 (ix5 b h n r d)
      = ∑ j : Fin 256, val_main_v19 (F := Ideal) x0 x1 x3 (ix5 b h n r j) * x2 (ix4 b h (Cert.Spec.fullPos n j) d) :=
  (val_main_v20_apply x0 x1 x2 x3 _).trans (Finset.sum_congr rfl fun j _ => by
    rw [F_lidxPV, F_ridxPV, F_inV])

/-- The pass at (b, h, n, r, d): the specification's chunk n of row (b, h). -/
theorem F_chunk (b : Fin 4) (h : Fin 12) (n : Fin 16) (r : Fin 256) (d : Fin 64) :
    val_main_v20 (F := Ideal) x0 x1 x2 x3 (ix5 b h n r d) = Cert.Spec.chunk (fun r' e => x0 (ix4 b h (Cert.Spec.fullPos n r') e)) (fun j' e => x1 (ix4 b h (Cert.Spec.fullPos n j') e)) (fun j' e => x2 (ix4 b h (Cert.Spec.fullPos n j') e)) (fun j' => x3 (ix4 b (0 : Fin 1) (0 : Fin 1) (Cert.Spec.fullPos n j'))) r d := by
  have hs : (fun j' => val_main_v8 (F := Ideal) x0 x1 x3 (ix5 b h n r j')) = Cert.Spec.score (fun r' e => x0 (ix4 b h (Cert.Spec.fullPos n r') e)) (fun j' e => x1 (ix4 b h (Cert.Spec.fullPos n j') e)) (fun j' => x3 (ix4 b (0 : Fin 1) (0 : Fin 1) (Cert.Spec.fullPos n j'))) r :=
    funext fun j' => F_score x0 x1 x3 b h n r j'
  have hw : ∀ j : Fin 256, val_main_v15 (F := Ideal) x0 x1 x3 (ix5 b h n r j) = Cert.Spec.weight (Cert.Spec.score (fun r' e => x0 (ix4 b h (Cert.Spec.fullPos n r') e)) (fun j' e => x1 (ix4 b h (Cert.Spec.fullPos n j') e)) (fun j' => x3 (ix4 b (0 : Fin 1) (0 : Fin 1) (Cert.Spec.fullPos n j'))) r) j :=
    fun j => (F_weight x0 x1 x3 b h n r j).trans (congrArg (fun s => Cert.Spec.weight s j) hs)
  refine (F_out x0 x1 x2 x3 b h n r d).trans ?_
  unfold Cert.Spec.chunk
  refine Finset.sum_congr rfl fun j _ => ?_
  rw [F_prob, hw j, Finset.sum_congr rfl fun j' _ => hw j']

/-! ## The first pass is the specification's -/

/-- Position 256 n + r of row (b, h), column d, viewed in 16 chunks, is (b, h, n, r, d). -/
theorem F_outIdx (b : Fin 4) (h : Fin 12) (n : Fin 16) (r : Fin 256) (d : Fin 64) :
    idx_main_v21 (ix4 b h (Cert.Spec.fullPos n r) d) = ix5 b h n r d :=
  funext fun a => Fin.ext (by
    have hb := b.isLt; have hh := h.isLt; have hn := n.isLt; have hr := r.isLt; have hd := d.isLt
    match a with
    | ⟨0, _⟩ => show (((b.val * 12 + h.val) * 4096 + (256 * n.val + r.val)) * 64 + d.val) / 3145728 = b.val; omega
    | ⟨1, _⟩ => show (((b.val * 12 + h.val) * 4096 + (256 * n.val + r.val)) * 64 + d.val) / 262144 % 12 = h.val; omega
    | ⟨2, _⟩ => show (((b.val * 12 + h.val) * 4096 + (256 * n.val + r.val)) * 64 + d.val) / 16384 % 16 = n.val; omega
    | ⟨3, _⟩ => show (((b.val * 12 + h.val) * 4096 + (256 * n.val + r.val)) * 64 + d.val) / 64 % 256 = r.val; omega
    | ⟨4, _⟩ => show (((b.val * 12 + h.val) * 4096 + (256 * n.val + r.val)) * 64 + d.val) % 64 = d.val; omega)

theorem full_eq : val_main_v21 (F := Ideal) x0 x1 x2 x3 = Cert.Spec.full x0 x1 x2 x3 :=
  Cert.Spec.eq_full x0 x1 x2 x3 _ fun b h n r d =>
    (val_main_v21_apply x0 x1 x2 x3 _).trans
      ((congrArg (val_main_v20 (F := Ideal) x0 x1 x2 x3) (F_outIdx b h n r d)).trans (F_chunk x0 x1 x2 x3 b h n r d))

/-! ## The second pass: its inputs -/

/-- The arrays without their first and last 128 positions, viewed in 15 chunks: (b, h, n, r, e) is position
    128 + 256 n + r of row (b, h). -/
theorem S_inIdx (b : Fin 4) (h : Fin 12) (n : Fin 15) (r : Fin 256) (e : Fin 64) :
    idx_main_v27 (idx_main_v31 (ix5 b h n r e)) = ix4 b h (Cert.Spec.shiftPos n r) e :=
  funext fun a => Fin.ext (by
    have hb := b.isLt; have hh := h.isLt; have hn := n.isLt; have hr := r.isLt; have he := e.isLt
    match a with
    | ⟨0, _⟩ => show ((((b.val * 12 + h.val) * 15 + n.val) * 256 + r.val) * 64 + e.val) / 2949120 = b.val; omega
    | ⟨1, _⟩ => show ((((b.val * 12 + h.val) * 15 + n.val) * 256 + r.val) * 64 + e.val) / 245760 % 12 = h.val; omega
    | ⟨2, _⟩ => show 128 + ((((b.val * 12 + h.val) * 15 + n.val) * 256 + r.val) * 64 + e.val) / 64 % 3840 = 128 + 256 * n.val + r.val; omega
    | ⟨3, _⟩ => show ((((b.val * 12 + h.val) * 15 + n.val) * 256 + r.val) * 64 + e.val) % 64 = e.val; omega)

theorem S_inQ (b : Fin 4) (h : Fin 12) (n : Fin 15) (r : Fin 256) (e : Fin 64) :
    val_main_v31 (F := Ideal) x0 (ix5 b h n r e) = x0 (ix4 b h (Cert.Spec.shiftPos n r) e) :=
  (val_main_v31_apply x0 _).trans ((val_main_v27_apply x0 _).trans (congrArg x0 (S_inIdx b h n r e)))
theorem S_inK (b : Fin 4) (h : Fin 12) (n : Fin 15) (r : Fin 256) (e : Fin 64) :
    val_main_v32 (F := Ideal) x1 (ix5 b h n r e) = x1 (ix4 b h (Cert.Spec.shiftPos n r) e) :=
  (val_main_v32_apply x1 _).trans ((val_main_v28_apply x1 _).trans (congrArg x1 (S_inIdx b h n r e)))
theorem S_inV (b : Fin 4) (h : Fin 12) (n : Fin 15) (r : Fin 256) (e : Fin 64) :
    val_main_v33 (F := Ideal) x2 (ix5 b h n r e) = x2 (ix4 b h (Cert.Spec.shiftPos n r) e) :=
  (val_main_v33_apply x2 _).trans ((val_main_v29_apply x2 _).trans (congrArg x2 (S_inIdx b h n r e)))

/-- The mask without its first and last 128 positions, viewed in 15 chunks: (b, 0, n, 0, j) is position
    128 + 256 n + j of row b. -/
theorem S_inMIdx (b : Fin 4) (n : Fin 15) (j : Fin 256) :
    idx_main_v30 (idx_main_v34 (ix5 b (0 : Fin 1) n (0 : Fin 1) j)) = ix4 b (0 : Fin 1) (0 : Fin 1) (Cert.Spec.shiftPos n j) :=
  funext fun a => Fin.ext (by
    have hb := b.isLt; have hn := n.isLt; have hj := j.isLt
    match a with
    | ⟨0, _⟩ => show ((((b.val * 1 + 0) * 15 + n.val) * 1 + 0) * 256 + j.val) / 3840 = b.val; omega
    | ⟨1, _⟩ => rfl
    | ⟨2, _⟩ => rfl
    | ⟨3, _⟩ => show 128 + ((((b.val * 1 + 0) * 15 + n.val) * 1 + 0) * 256 + j.val) % 3840 = 128 + 256 * n.val + j.val; omega)
theorem S_inM (b : Fin 4) (n : Fin 15) (j : Fin 256) :
    val_main_v34 (F := Ideal) x3 (ix5 b (0 : Fin 1) n (0 : Fin 1) j) = x3 (ix4 b (0 : Fin 1) (0 : Fin 1) (Cert.Spec.shiftPos n j)) :=
  (val_main_v34_apply x3 _).trans ((val_main_v30_apply x3 _).trans (congrArg x3 (S_inMIdx b n j)))

/-! ## The second pass, step by step at (b, h, n, r, ·) -/

/-- The operand indices of q·kᵀ at (b, h, n, r, j) and contraction coordinate e: (b, h, n, r, e) and (b, h, n, j, e). -/
theorem S_lidxQK (b : Fin 4) (h : Fin 12) (n : Fin 15) (r j : Fin 256) (e : Fin 64) : lidx_main_v35 (ix5 b h n r j) e = ix5 b h n r e :=
  funext fun a => Fin.ext (by match a with | ⟨0, _⟩ => rfl | ⟨1, _⟩ => rfl | ⟨2, _⟩ => rfl | ⟨3, _⟩ => rfl | ⟨4, _⟩ => rfl)
theorem S_ridxQK (b : Fin 4) (h : Fin 12) (n : Fin 15) (r j : Fin 256) (e : Fin 64) : ridx_main_v35 (ix5 b h n r j) e = ix5 b h n j e :=
  funext fun a => Fin.ext (by match a with | ⟨0, _⟩ => rfl | ⟨1, _⟩ => rfl | ⟨2, _⟩ => rfl | ⟨3, _⟩ => rfl | ⟨4, _⟩ => rfl)

/-- q·kᵀ at (b, h, n, r, j): the inner product of query row r and key row j of chunk n. -/
theorem S_qk (b : Fin 4) (h : Fin 12) (n : Fin 15) (r j : Fin 256) :
    val_main_v35 (F := Ideal) x0 x1 (ix5 b h n r j) = ∑ e : Fin 64, x0 (ix4 b h (Cert.Spec.shiftPos n r) e) * x1 (ix4 b h (Cert.Spec.shiftPos n j) e) :=
  (val_main_v35_apply x0 x1 _).trans (Finset.sum_congr rfl fun e _ => by
    rw [S_lidxQK, S_ridxQK, S_inQ, S_inK])

/-- The mask carried over heads and rows reads (b, 0, n, 0, j). -/
theorem S_maskIdx (b : Fin 4) (h : Fin 12) (n : Fin 15) (r j : Fin 256) : idx_main_v38 (ix5 b h n r j) = ix5 b (0 : Fin 1) n (0 : Fin 1) j :=
  funext fun a => Fin.ext (by match a with | ⟨0, _⟩ => rfl | ⟨1, _⟩ => rfl | ⟨2, _⟩ => rfl | ⟨3, _⟩ => rfl | ⟨4, _⟩ => rfl)
theorem S_mask (b : Fin 4) (h : Fin 12) (n : Fin 15) (r j : Fin 256) :
    val_main_v38 (F := Ideal) x3 (ix5 b h n r j) = x3 (ix4 b (0 : Fin 1) (0 : Fin 1) (Cert.Spec.shiftPos n j)) :=
  (val_main_v38_apply x3 _).trans ((congrArg (val_main_v34 (F := Ideal) x3) (S_maskIdx b h n r j)).trans (S_inM x3 b n j))

/-- The scores at (b, h, n, r, j): the specification's score of row r against key j of chunk n. -/
theorem S_score (b : Fin 4) (h : Fin 12) (n : Fin 15) (r j : Fin 256) :
    val_main_v39 (F := Ideal) x0 x1 x3 (ix5 b h n r j) = Cert.Spec.score (fun r' e => x0 (ix4 b h (Cert.Spec.shiftPos n r') e)) (fun j' e => x1 (ix4 b h (Cert.Spec.shiftPos n j') e)) (fun j' => x3 (ix4 b (0 : Fin 1) (0 : Fin 1) (Cert.Spec.shiftPos n j'))) r j := by
  show Ideal.div (val_main_v35 (F := Ideal) x0 x1 (ix5 b h n r j)) (Ideal.ofBits .f32 0x41000000#32) + val_main_v38 (F := Ideal) x3 (ix5 b h n r j) = _
  rw [S_qk, S_mask, div_eight]
  rfl

/-- The host's maximum over a row, at (b, h, n, r): the fold of `max` from −∞ over the row's entries. -/
theorem S_hostMax (b : Fin 4) (h : Fin 12) (n : Fin 15) (r : Fin 256) :
    val_main_v40 (F := Ideal) x0 x1 x3 (ix4 b h n r)
      = (Finset.univ : Finset (Fin 256)).fold max (Ideal.ofBits .f32 0xFF800000#32) (fun j => val_main_v39 (F := Ideal) x0 x1 x3 (ix5 b h n r j)) := by
  unfold val_main_v40
  exact hostMaxLast5 (val_main_v39 (F := Ideal) x0 x1 x3) (val_main_cst_5 (F := Ideal)) reducesTo_S4x12x15x256x256_S4x12x15x256_d4 (by decide) h_S_ b h n r

/-- The guarded row maximum at (b, h, n, r): the specification's, of row r of the scores. -/
theorem S_rowMax (b : Fin 4) (h : Fin 12) (n : Fin 15) (r : Fin 256) :
    val_main_v42 (F := Ideal) x0 x1 x3 (ix4 b h n r) = Cert.Spec.rowMax (fun j => val_main_v39 (F := Ideal) x0 x1 x3 (ix5 b h n r j)) :=
  (val_main_v42_apply x0 x1 x3 _).trans (guard_eq _ _ rfl _ (S_hostMax x0 x1 x3 b h n r))

/-- A per-row quantity carried back against the scores reads (b, h, n, r) at every (b, h, n, r, j). -/
theorem S_colIdx (b : Fin 4) (h : Fin 12) (n : Fin 15) (r j : Fin 256) : idx_main_v44 (ix5 b h n r j) = ix5 b h n r (0 : Fin 1) :=
  funext fun a => Fin.ext (by match a with | ⟨0, _⟩ => rfl | ⟨1, _⟩ => rfl | ⟨2, _⟩ => rfl | ⟨3, _⟩ => rfl | ⟨4, _⟩ => rfl)
theorem S_unitIdx (b : Fin 4) (h : Fin 12) (n : Fin 15) (r : Fin 256) : idx_main_v43 (ix5 b h n r (0 : Fin 1)) = ix4 b h n r :=
  funext fun a => Fin.ext (by match a with | ⟨0, _⟩ => rfl | ⟨1, _⟩ => rfl | ⟨2, _⟩ => rfl | ⟨3, _⟩ => rfl)
theorem S_carryMax (b : Fin 4) (h : Fin 12) (n : Fin 15) (r j : Fin 256) :
    val_main_v44 (F := Ideal) x0 x1 x3 (ix5 b h n r j) = val_main_v42 (F := Ideal) x0 x1 x3 (ix4 b h n r) :=
  (val_main_v44_apply x0 x1 x3 _).trans ((congrArg (val_main_v43 (F := Ideal) x0 x1 x3) (S_colIdx b h n r j)).trans
    ((val_main_v43_apply x0 x1 x3 _).trans (congrArg (val_main_v42 (F := Ideal) x0 x1 x3) (S_unitIdx b h n r))))

/-- The weights at (b, h, n, r, j): the specification's weight j of row r of the scores. -/
theorem S_weight (b : Fin 4) (h : Fin 12) (n : Fin 15) (r j : Fin 256) :
    val_main_v46 (F := Ideal) x0 x1 x3 (ix5 b h n r j) = Cert.Spec.weight (fun j' => val_main_v39 (F := Ideal) x0 x1 x3 (ix5 b h n r j')) j := by
  rw [val_main_v46_apply, val_main_v45_apply, Ideal.hostUnary_exp_def, Ideal.subf_def, S_carryMax, S_rowMax]
  rfl

/-- The row sums at (b, h, n, r): the sum of row r of the weights (the initial zero word is 0). -/
theorem S_sumIdx (b : Fin 4) (h : Fin 12) (n : Fin 15) (r k : Fin 256) : idx_main_v47 (ix4 b h n r) k = ix5 b h n r k :=
  funext fun a => Fin.ext (by match a with | ⟨0, _⟩ => rfl | ⟨1, _⟩ => rfl | ⟨2, _⟩ => rfl | ⟨3, _⟩ => rfl | ⟨4, _⟩ => rfl)
theorem S_rowSum (b : Fin 4) (h : Fin 12) (n : Fin 15) (r : Fin 256) :
    val_main_v47 (F := Ideal) x0 x1 x3 (ix4 b h n r) = ∑ k : Fin 256, val_main_v46 (F := Ideal) x0 x1 x3 (ix5 b h n r k) := by
  refine (val_main_v47_apply x0 x1 x3 _).trans ?_
  rw [val_main_cst_7_apply, Ideal.ofBits_def, Ideal.ofBits_zero_f32, zero_add]
  exact Finset.sum_congr rfl fun k _ => congrArg (val_main_v46 (F := Ideal) x0 x1 x3) (S_sumIdx b h n r k)

theorem S_colIdx' (b : Fin 4) (h : Fin 12) (n : Fin 15) (r j : Fin 256) : idx_main_v49 (ix5 b h n r j) = ix5 b h n r (0 : Fin 1) :=
  funext fun a => Fin.ext (by match a with | ⟨0, _⟩ => rfl | ⟨1, _⟩ => rfl | ⟨2, _⟩ => rfl | ⟨3, _⟩ => rfl | ⟨4, _⟩ => rfl)
theorem S_unitIdx' (b : Fin 4) (h : Fin 12) (n : Fin 15) (r : Fin 256) : idx_main_v48 (ix5 b h n r (0 : Fin 1)) = ix4 b h n r :=
  funext fun a => Fin.ext (by match a with | ⟨0, _⟩ => rfl | ⟨1, _⟩ => rfl | ⟨2, _⟩ => rfl | ⟨3, _⟩ => rfl)
theorem S_carrySum (b : Fin 4) (h : Fin 12) (n : Fin 15) (r j : Fin 256) :
    val_main_v49 (F := Ideal) x0 x1 x3 (ix5 b h n r j) = val_main_v47 (F := Ideal) x0 x1 x3 (ix4 b h n r) :=
  (val_main_v49_apply x0 x1 x3 _).trans ((congrArg (val_main_v48 (F := Ideal) x0 x1 x3) (S_colIdx' b h n r j)).trans
    ((val_main_v48_apply x0 x1 x3 _).trans (congrArg (val_main_v47 (F := Ideal) x0 x1 x3) (S_unitIdx' b h n r))))

/-- The normalized weights at (b, h, n, r, j): the weight over its row's sum. -/
theorem S_prob (b : Fin 4) (h : Fin 12) (n : Fin 15) (r j : Fin 256) :
    val_main_v50 (F := Ideal) x0 x1 x3 (ix5 b h n r j) = Ideal.div (val_main_v46 (F := Ideal) x0 x1 x3 (ix5 b h n r j)) (∑ k : Fin 256, val_main_v46 (F := Ideal) x0 x1 x3 (ix5 b h n r k)) := by
  rw [val_main_v50_apply, Ideal.hostDivf_def, S_carrySum, S_rowSum]

/-- The operand indices of p·v at (b, h, n, r, d) and contraction coordinate j: (b, h, n, r, j) and (b, h, n, j, d). -/
theorem S_lidxPV (b : Fin 4) (h : Fin 12) (n : Fin 15) (r : Fin 256) (d : Fin 64) (j : Fin 256) : lidx_main_v51 (ix5 b h n r d) j = ix5 b h n r j :=
  funext fun a => Fin.ext (by match a with | ⟨0, _⟩ => rfl | ⟨1, _⟩ => rfl | ⟨2, _⟩ => rfl | ⟨3, _⟩ => rfl | ⟨4, _⟩ => rfl)
theorem S_ridxPV (b : Fin 4) (h : Fin 12) (n : Fin 15) (r : Fin 256) (d : Fin 64) (j : Fin 256) : ridx_main_v51 (ix5 b h n r d) j = ix5 b h n j d :=
  funext fun a => Fin.ext (by match a with | ⟨0, _⟩ => rfl | ⟨1, _⟩ => rfl | ⟨2, _⟩ => rfl | ⟨3, _⟩ => rfl | ⟨4, _⟩ => rfl)

/-- p·v at (b, h, n, r, d): row r of the normalized weights against column d of the values of chunk n. -/
theorem S_out (b : Fin 4) (h : Fin 12) (n : Fin 15) (r : Fin 256) (d : Fin 64) :
    val_main_v51 (F := Ideal) x0 x1 x2 x3 (ix5 b h n r d)
      = ∑ j : Fin 256, val_main_v50 (F := Ideal) x0 x1 x3 (ix5 b h n r j) * x2 (ix4 b h (Cert.Spec.shiftPos n j) d) :=
  (val_main_v51_apply x0 x1 x2 x3 _).trans (Finset.sum_congr rfl fun j _ => by
    rw [S_lidxPV, S_ridxPV, S_inV])

/-- The pass at (b, h, n, r, d): the specification's chunk n of row (b, h). -/
theorem S_chunk (b : Fin 4) (h : Fin 12) (n : Fin 15) (r : Fin 256) (d : Fin 64) :
    val_main_v51 (F := Ideal) x0 x1 x2 x3 (ix5 b h n r d) = Cert.Spec.chunk (fun r' e => x0 (ix4 b h (Cert.Spec.shiftPos n r') e)) (fun j' e => x1 (ix4 b h (Cert.Spec.shiftPos n j') e)) (fun j' e => x2 (ix4 b h (Cert.Spec.shiftPos n j') e)) (fun j' => x3 (ix4 b (0 : Fin 1) (0 : Fin 1) (Cert.Spec.shiftPos n j'))) r d := by
  have hs : (fun j' => val_main_v39 (F := Ideal) x0 x1 x3 (ix5 b h n r j')) = Cert.Spec.score (fun r' e => x0 (ix4 b h (Cert.Spec.shiftPos n r') e)) (fun j' e => x1 (ix4 b h (Cert.Spec.shiftPos n j') e)) (fun j' => x3 (ix4 b (0 : Fin 1) (0 : Fin 1) (Cert.Spec.shiftPos n j'))) r :=
    funext fun j' => S_score x0 x1 x3 b h n r j'
  have hw : ∀ j : Fin 256, val_main_v46 (F := Ideal) x0 x1 x3 (ix5 b h n r j) = Cert.Spec.weight (Cert.Spec.score (fun r' e => x0 (ix4 b h (Cert.Spec.shiftPos n r') e)) (fun j' e => x1 (ix4 b h (Cert.Spec.shiftPos n j') e)) (fun j' => x3 (ix4 b (0 : Fin 1) (0 : Fin 1) (Cert.Spec.shiftPos n j'))) r) j :=
    fun j => (S_weight x0 x1 x3 b h n r j).trans (congrArg (fun s => Cert.Spec.weight s j) hs)
  refine (S_out x0 x1 x2 x3 b h n r d).trans ?_
  unfold Cert.Spec.chunk
  refine Finset.sum_congr rfl fun j _ => ?_
  rw [S_prob, hw j, Finset.sum_congr rfl fun j' _ => hw j']

/-! ## The second pass is the specification's -/

/-- Position 256 n + r of the shortened row (b, h), column d, viewed in 15 chunks, is (b, h, n, r, d). -/
theorem S_outIdx (b : Fin 4) (h : Fin 12) (n : Fin 15) (r : Fin 256) (d : Fin 64) :
    idx_main_v52 (ix4 b h (Cert.Spec.midPos n r) d) = ix5 b h n r d :=
  funext fun a => Fin.ext (by
    have hb := b.isLt; have hh := h.isLt; have hn := n.isLt; have hr := r.isLt; have hd := d.isLt
    match a with
    | ⟨0, _⟩ => show (((b.val * 12 + h.val) * 3840 + (256 * n.val + r.val)) * 64 + d.val) / 2949120 = b.val; omega
    | ⟨1, _⟩ => show (((b.val * 12 + h.val) * 3840 + (256 * n.val + r.val)) * 64 + d.val) / 245760 % 12 = h.val; omega
    | ⟨2, _⟩ => show (((b.val * 12 + h.val) * 3840 + (256 * n.val + r.val)) * 64 + d.val) / 16384 % 15 = n.val; omega
    | ⟨3, _⟩ => show (((b.val * 12 + h.val) * 3840 + (256 * n.val + r.val)) * 64 + d.val) / 64 % 256 = r.val; omega
    | ⟨4, _⟩ => show (((b.val * 12 + h.val) * 3840 + (256 * n.val + r.val)) * 64 + d.val) % 64 = d.val; omega)

theorem shifted_eq : val_main_v52 (F := Ideal) x0 x1 x2 x3 = Cert.Spec.shifted x0 x1 x2 x3 :=
  Cert.Spec.eq_shifted x0 x1 x2 x3 _ fun b h n r d =>
    (val_main_v52_apply x0 x1 x2 x3 _).trans
      ((congrArg (val_main_v51 (F := Ideal) x0 x1 x2 x3) (S_outIdx b h n r d)).trans (S_chunk x0 x1 x2 x3 b h n r d))

/-! ## The join -/

/-- The reference's last operations are the specification's join of its two passes: the same slices, the same
    scalings by the word of ½, the same sum and the same concatenation. -/
theorem v56_eq_assemble :
    val_main_v56 (F := Ideal) x0 x1 x2 x3
      = Cert.Spec.assemble (val_main_v21 (F := Ideal) x0 x1 x2 x3) (val_main_v52 (F := Ideal) x0 x1 x2 x3) := rfl

/-- The reference computes the specification's result. -/
theorem result_eq :
    Cert.ReferenceIdeal.ReadP.val_main_v56 (F := Ideal) x0 x1 x2 x3 = Cert.Spec.result x0 x1 x2 x3 := by
  refine (v56_eq_assemble x0 x1 x2 x3).trans ?_
  rw [full_eq, shifted_eq]
  rfl

end Cert.ReferenceIdeal.RefValue

end
-- ==== Proof.Claims.lean ====
/-
  The five claims.

  The three frames: each program runs to the end, faults nowhere and leaves its four argument arrays as launched — for
  the kernel program (at the word level and at the ideal values) from the run of its five segments, for the reference
  from the run of its host operations.  The idealization rewrote nothing, so there is nothing to preserve.  And at the
  ideal values both programs end with the same result array: each is the specification's result of the four argument
  arrays — the kernel program's by what its two calls write back and what its host operations do around them, the
  reference's by reading its operations one at a time —, and the two programs start from memories that agree on those
  arrays.
-/
import proofs.«143526_j20564303413308_1_alg».proof.Defs
import proofs.«143526_j20564303413308_1_alg».proof.Proof.Kernel.Run
import proofs.«143526_j20564303413308_1_alg».proof.Proof.KernelIdeal.Result
import proofs.«143526_j20564303413308_1_alg».proof.Proof.RefRead
import proofs.«143526_j20564303413308_1_alg».proof.Proof.Gen.Pre_finite_inputs
import proofs.«143526_j20564303413308_1_alg».proof.Proof.RefValue

noncomputable section

namespace Cert.Proof.Claims

open Idealize.ShloMosaic Idealize.ShloMosaic.TcCoe Idealize.SL.Sem

/-- The word-level kernel program runs and leaves its arguments as launched. -/
theorem frame_kernel : Cert.frame_Kernel := fun m ρ _ => Cert.Kernel.Attn.frame m ρ

/-- So does its idealization. -/
theorem frame_kernelIdeal : Cert.frame_KernelIdeal := fun m ρ _ => Cert.KernelIdeal.Attn.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- At the ideal values, from memories that agree on the arguments, both programs end with the specification's result of
    the four argument arrays. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Attn.result_value m ρ c), (h c).2⟩) (Cert.KernelIdeal.Attn.run_result m ρ)
  · refine (θ_run Cert.ReferenceIdeal.defs _ _).mono (fun _ h c => ⟨?_, (h c).2⟩) (Cert.ReferenceIdeal.ValueP.run (F := Ideal) m' ρ')
    rw [(h c).1, Cert.ReferenceIdeal.ReadP.val_main_v56_eq, (hagree c).1, (hagree c).2.1, (hagree c).2.2.1, (hagree c).2.2.2]
    exact Cert.ReferenceIdeal.RefValue.result_eq _ _ _ _

end Cert.Proof.Claims

end
-- ==== Proof.lean ====
/-
  The certificate: a block-diagonal attention with a shifted second pass, as two pallas_calls, against its jnp reference.

  Both programs compute, for every (batch, head) row, attention restricted to chunks of 256 positions — once over the
  sequence cut into 16 chunks, once over the sequence with 128 positions dropped at either end cut into 15 chunks —
  and return the first pass on the outer 128 positions at either end and the mean of the two passes in between.  The
  kernel program folds batch and head into 48 rows and runs each pass as a grid of independent [8 rows × one chunk]
  attentions; the reference reshapes each pass into [4, 12, chunks, 256, ·] and uses batched contractions.  At the
  ideal values the two differ only in layout, in the order of their sums and maxima, and in the kernel's product with
  ⅛ where the reference divides by 8; Proof/Spec.lean states the common function, Proof/KernelIdeal/ proves the kernel
  program's result is it, Proof/RefValue.lean the reference's.

  The witnesses of the programs' stated facts come first: the instances the generated modules prove.
-/
import proofs.«143526_j20564303413308_1_alg».proof.Defs
import proofs.«143526_j20564303413308_1_alg».proof.Proof.Gen.Kernel
import proofs.«143526_j20564303413308_1_alg».proof.Proof.Gen.KernelIdeal
import proofs.«143526_j20564303413308_1_alg».proof.Proof.Gen.ReferenceIdeal
import proofs.«143526_j20564303413308_1_alg».proof.Proof.Gen.Pre_finite_inputs
import proofs.«143526_j20564303413308_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
